-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v84)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v84) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v111) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  reducesTo_S_S_d : S_.ReducesTo [] S_

variable [Facts]

def fn_part2 {F : FTy → Type} [FloatOps F] (main_arg8 : FVec F S_ .f32) (main_v33 : IVec S_ 1) : IVec S_ 1 :=
  let main_v34 : FVec F S_ .f32 := Host.absf main_arg8
  let main_cst_12 : FVec F S_ .f32 := constant S_ .f32 0x7F800000#32
  let main_v35 : IVec S_ 1 := cmpf .olt main_v34 main_cst_12
  let main_c_13 : IVec S_ 1 := constantI S_ 1 1#1
  let main_v36 : IVec S_ 1 := (fun x v => Host.reduce IntOp.andi x v reducesTo_S_S_d h_S_) main_v35 main_c_13
  let main_v37 : IVec S_ 1 := andi main_v33 main_v36
  main_v37

def fn_part1 {F : FTy → Type} [FloatOps F] (main_arg5 : FVec F S64 .f32) (main_arg6 : FVec F S128 .f32) (main_arg7 : FVec F S128 .f32) (main_arg8 : FVec F S_ .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_v33

def fn {F : FTy → Type} [FloatOps F] (main_arg0 : FVec F S100000x128 .f32) (main_arg1 : IVec S2x1600000 32) (main_arg2 : FVec F S128x128 .f32) (main_arg3 : FVec F S128 .f32) (main_arg4 : FVec F S128x64 .f32) (main_arg5 : FVec F S64 .f32) (main_arg6 : FVec F S128 .f32) (main_arg7 : FVec F S128 .f32) (main_arg8 : FVec F S_ .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_arg6 main_arg7 main_arg8 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S1700000x1 : Shape := ⟨2, ![1700000, 1]⟩
abbrev S5000x128 : Shape := ⟨2, ![5000, 128]⟩
abbrev S1700000x128 : Shape := ⟨2, ![1700000, 128]⟩
abbrev S1x128 : Shape := ⟨2, ![1, 128]⟩
abbrev S1x1 : Shape := ⟨2, ![1, 1]⟩
abbrev S100000x64 : Shape := ⟨2, ![100000, 64]⟩
abbrev S5000x64 : Shape := ⟨2, ![5000, 64]⟩
abbrev S1700000x64 : Shape := ⟨2, ![1700000, 64]⟩
abbrev S1x64 : Shape := ⟨2, ![1, 64]⟩

abbrev nBuf : Space → Nat
  | .hbm => 115
  | .vmem => 21
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S128, .f32⟩
  | .hbm, ⟨7, _⟩ => ⟨S128, .f32⟩
  | .hbm, ⟨8, _⟩ => ⟨S_, .f32⟩
  | .hbm, ⟨9, _⟩ => ⟨S1x1600000, .i32⟩
  | .hbm, ⟨10, _⟩ => ⟨S1600000, .i32⟩
  | .hbm, ⟨11, _⟩ => ⟨S1x1600000, .i32⟩
  | .hbm, ⟨12, _⟩ => ⟨S1600000, .i32⟩
  | .hbm, ⟨13, _⟩ => ⟨S100000, .i32⟩
  | .hbm, ⟨14, _⟩ => ⟨S1700000, .i32⟩
  | .hbm, ⟨15, _⟩ => ⟨S1700000, .i32⟩
  | .hbm, ⟨16, _⟩ => ⟨S_, .f32⟩
  | .hbm, ⟨17, _⟩ => ⟨S1700000, .f32⟩
  | .hbm, ⟨18, _⟩ => ⟨S_, .f32⟩
  | .hbm, ⟨19, _⟩ => ⟨S100000, .f32⟩
  | .hbm, ⟨20, _⟩ => ⟨S1700000x1, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .i1⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S1700000, .i32⟩
  | .hbm, ⟨32, _⟩ => ⟨S1700000, .i1⟩
  | .hbm, ⟨33, _⟩ => ⟨S_, .i32⟩
  | .hbm, ⟨34, _⟩ => ⟨S1700000, .i32⟩
  | .hbm, ⟨35, _⟩ => ⟨S1700000, .i32⟩
  | .hbm, ⟨36, _⟩ => ⟨S1700000, .i32⟩
  | .hbm, ⟨37, _⟩ => ⟨S1700000x1, .i32⟩
  | .hbm, ⟨38, _⟩ => ⟨S1700000, .f32⟩
  | .hbm, ⟨39, _⟩ => ⟨S_, .i32⟩
  | .hbm, ⟨40, _⟩ => ⟨S1700000, .i32⟩
  | .hbm, ⟨41, _⟩ => ⟨S1700000, .i1⟩
  | .hbm, ⟨42, _⟩ => ⟨S_, .i32⟩
  | .hbm, ⟨43, _⟩ => ⟨S1700000, .i32⟩
  | .hbm, ⟨44, _⟩ => ⟨S1700000, .i32⟩
  | .hbm, ⟨45, _⟩ => ⟨S1700000, .i32⟩
  | .hbm, ⟨46, _⟩ => ⟨S1700000x1, .i32⟩
  | .hbm, ⟨47, _⟩ => ⟨S1700000, .f32⟩
  | .hbm, ⟨48, _⟩ => ⟨S1700000, .f32⟩
  | .hbm, ⟨49, _⟩ => ⟨S100000x128, .f32⟩
  | .hbm, ⟨50, _⟩ => ⟨S_, .i32⟩
  | .hbm, ⟨51, _⟩ => ⟨S1700000, .i32⟩
  | .hbm, ⟨52, _⟩ => ⟨S1700000, .i1⟩
  | .hbm, ⟨53, _⟩ => ⟨S_, .i32⟩
  | .hbm, ⟨54, _⟩ => ⟨S1700000, .i32⟩
  | .hbm, ⟨55, _⟩ => ⟨S1700000, .i32⟩
  | .hbm, ⟨56, _⟩ => ⟨S1700000, .i32⟩
  | .hbm, ⟨57, _⟩ => ⟨S1700000x1, .i32⟩
  | .hbm, ⟨58, _⟩ => ⟨S1700000x128, .f32⟩
  | .hbm, ⟨59, _⟩ => ⟨S1700000x1, .f32⟩
  | .hbm, ⟨60, _⟩ => ⟨S1700000x128, .f32⟩
  | .hbm, ⟨61, _⟩ => ⟨S1700000x128, .f32⟩
  | .hbm, ⟨62, _⟩ => ⟨S_, .f32⟩
  | .hbm, ⟨63, _⟩ => ⟨S100000x128, .f32⟩
  | .hbm, ⟨64, _⟩ => ⟨S1700000x1, .i32⟩
  | .hbm, ⟨65, _⟩ => ⟨S100000x128, .f32⟩
  | .hbm, ⟨66, _⟩ => ⟨S1x128, .f32⟩
  | .hbm, ⟨67, _⟩ => ⟨S100000x128, .f32⟩
  | .hbm, ⟨68, _⟩ => ⟨S100000x128, .f32⟩
  | .hbm, ⟨69, _⟩ => ⟨S1x128, .f32⟩
  | .hbm, ⟨70, _⟩ => ⟨S1x128, .f32⟩
  | .hbm, ⟨71, _⟩ => ⟨S128, .f32⟩
  | .hbm, ⟨72, _⟩ => ⟨S_, .f32⟩
  | .hbm, ⟨73, _⟩ => ⟨S128, .f32⟩
  | .hbm, ⟨74, _⟩ => ⟨S128, .f32⟩
  | .hbm, ⟨75, _⟩ => ⟨S128, .f32⟩
  | .hbm, ⟨76, _⟩ => ⟨S_, .f32⟩
  | .hbm, ⟨77, _⟩ => ⟨S128, .f32⟩
  | .hbm, ⟨78, _⟩ => ⟨S128, .f32⟩
  | .hbm, ⟨79, _⟩ => ⟨S128, .f32⟩
  | .hbm, ⟨80, _⟩ => ⟨S128, .f32⟩
  | .hbm, ⟨81, _⟩ => ⟨S_, .f32⟩
  | .hbm, ⟨82, _⟩ => ⟨S128, .f32⟩
  | .hbm, ⟨83, _⟩ => ⟨S128, .f32⟩
  | .hbm, ⟨84, _⟩ => ⟨S_, .f32⟩
  | .hbm, ⟨85, _⟩ => ⟨S128, .f32⟩
  | .hbm, ⟨86, _⟩ => ⟨S128, .f32⟩
  | .hbm, ⟨87, _⟩ => ⟨S128, .f32⟩
  | .hbm, ⟨88, _⟩ => ⟨S128, .f32⟩
  | .hbm, ⟨89, _⟩ => ⟨S128, .f32⟩
  | .hbm, ⟨90, _⟩ => ⟨S128, .f32⟩
  | .hbm, ⟨91, _⟩ => ⟨S1x128, .f32⟩
  | .hbm, ⟨92, _⟩ => ⟨S1x128, .f32⟩
  | .hbm, ⟨93, _⟩ => ⟨S1x1, .f32⟩
  | .hbm, ⟨94, _⟩ => ⟨S100000x128, .f32⟩
  | .hbm, ⟨95, _⟩ => ⟨S100000x64, .f32⟩
  | .hbm, ⟨96, _⟩ => ⟨S_, .i32⟩
  | .hbm, ⟨97, _⟩ => ⟨S1700000, .i32⟩
  | .hbm, ⟨98, _⟩ => ⟨S1700000, .i1⟩
  | .hbm, ⟨99, _⟩ => ⟨S_, .i32⟩
  | .hbm, ⟨100, _⟩ => ⟨S1700000, .i32⟩
  | .hbm, ⟨101, _⟩ => ⟨S1700000, .i32⟩
  | .hbm, ⟨102, _⟩ => ⟨S1700000, .i32⟩
  | .hbm, ⟨103, _⟩ => ⟨S1700000x1, .i32⟩
  | .hbm, ⟨104, _⟩ => ⟨S1700000x64, .f32⟩
  | .hbm, ⟨105, _⟩ => ⟨S1700000x1, .f32⟩
  | .hbm, ⟨106, _⟩ => ⟨S1700000x64, .f32⟩
  | .hbm, ⟨107, _⟩ => ⟨S1700000x64, .f32⟩
  | .hbm, ⟨108, _⟩ => ⟨S_, .f32⟩
  | .hbm, ⟨109, _⟩ => ⟨S100000x64, .f32⟩
  | .hbm, ⟨110, _⟩ => ⟨S1700000x1, .i32⟩
  | .hbm, ⟨111, _⟩ => ⟨S100000x64, .f32⟩
  | .hbm, ⟨112, _⟩ => ⟨S1x64, .f32⟩
  | .hbm, ⟨113, _⟩ => ⟨S100000x64, .f32⟩
  | .hbm, ⟨114, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S1x128, .f32⟩
  | .local _ .vmem, ⟨9, _⟩ => ⟨S5000x128, .f32⟩
  | .local _ .vmem, ⟨10, _⟩ => ⟨S5000x128, .f32⟩
  | .local _ .vmem, ⟨11, _⟩ => ⟨S1x128, .f32⟩
  | .local _ .vmem, ⟨12, _⟩ => ⟨S1x128, .f32⟩
  | .local _ .vmem, ⟨13, _⟩ => ⟨S1x1, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S128x64, .f32⟩
  | .local _ .vmem, ⟨19, _⟩ => ⟨S5000x64, .f32⟩
  | .local _ .vmem, ⟨20, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v14 : Ref sig .tc := ⟨.hbm, 29, rfl⟩
abbrev main_c : Ref sig .tc := ⟨.hbm, 30, rfl⟩
abbrev main_v15 : Ref sig .tc := ⟨.hbm, 31, rfl⟩
abbrev main_v16 : Ref sig .tc := ⟨.hbm, 32, rfl⟩
abbrev main_c_3 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_4 : Ref sig .tc := ⟨.hbm, 39, rfl⟩
abbrev main_v22 : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c_6 : Ref sig .tc := ⟨.hbm, 50, rfl⟩
abbrev main_v31 : Ref sig .tc := ⟨.hbm, 51, rfl⟩
abbrev main_v32 : Ref sig .tc := ⟨.hbm, 52, rfl⟩
abbrev main_c_7 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_8 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47_0 : Ref sig .tc := ⟨.hbm, 69, rfl⟩
abbrev main_v47_1 : Ref sig .tc := ⟨.hbm, 70, rfl⟩
abbrev main_v48 : Ref sig .tc := ⟨.hbm, 71, rfl⟩
abbrev main_cst_9 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_cst_10 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_cst_11 : Ref sig .tc := ⟨.hbm, 81, rfl⟩
abbrev main_v56 : Ref sig .tc := ⟨.hbm, 82, rfl⟩
abbrev main_v57 : Ref sig .tc := ⟨.hbm, 83, rfl⟩
abbrev main_cst_12 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_c_13 : Ref sig .tc := ⟨.hbm, 96, rfl⟩
abbrev main_v69 : Ref sig .tc := ⟨.hbm, 97, rfl⟩
abbrev main_v70 : Ref sig .tc := ⟨.hbm, 98, rfl⟩
abbrev main_c_14 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_cst_15 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc2_stg0_0 : Ref sig .tc := ⟨.vmem, 9, rfl⟩
abbrev cc2_stg0_1 : Ref sig .tc := ⟨.vmem, 10, rfl⟩
abbrev cc2_stg1_0 : Ref sig .tc := ⟨.vmem, 11, rfl⟩
abbrev cc2_stg2_0 : Ref sig .tc := ⟨.vmem, 12, rfl⟩
abbrev cc2_stg3_0 : Ref sig .tc := ⟨.vmem, 13, rfl⟩
abbrev cc2_stg4_0 : Ref sig .tc := ⟨.vmem, 14, rfl⟩
abbrev cc2_stg4_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg2_0 : Ref sig .tc := ⟨.vmem, 19, rfl⟩
abbrev cc3_stg2_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc2_sem0_0 : DmaSem sig := 9
abbrev cc2_sem0_1 : DmaSem sig := 10
abbrev cc2_sem1_0 : DmaSem sig := 11
abbrev cc2_sem2_0 : DmaSem sig := 12
abbrev cc2_sem3_0 : DmaSem sig := 13
abbrev cc2_sem4_0 : DmaSem sig := 14
abbrev cc2_sem4_1 : DmaSem sig := 15
abbrev cc3_sem0_0 : DmaSem sig := 16
abbrev cc3_sem0_1 : DmaSem sig := 17
abbrev cc3_sem1_0 : DmaSem sig := 18
abbrev cc3_sem2_0 : DmaSem sig := 19
abbrev cc3_sem2_1 : DmaSem sig := 20

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  inb_S1x128_S1x128_0_0 : ∀ a, (![0, 0] : Fin 2 → Nat) a + S1x128.size a ≤ S1x128.size a
  h_S1x128 : 0 < S1x128.numel
  shapeCasts_S5000x128_S5000x128 : S5000x128.ShapeCasts S5000x128
  shapeCasts_S1x128_S1x128 : S1x128.ShapeCasts S1x128
  reduces_S5000x128_S128 : S5000x128.Reduces [0] S128
  shapeCasts_S128_S1x128 : S128.ShapeCasts S1x128
  shapeCasts_S1x128_S128 : S1x128.ShapeCasts S128
  bcast_S_S128 : S_.BroadcastsInDim S128 (![] : Fin 0 → Fin S128.rank)
  shapeCasts_S_S1x1 : S_.ShapeCasts S1x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x128_S5000x128 : S1x128.Broadcasts S5000x128
  broadcasts_S1x1_S5000x128 : S1x1.Broadcasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x128_S128x128_S5000x128_1_0_0_1_n_n_wf : DotDims.WF S5000x128 S128x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x64_S5000x64_1_0_0_1_n_n_wf : DotDims.WF S5000x128 S128x64 S5000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x1.size a ≤ S1x1.size a
  hwx2_3 : ∀ i : grid2.Coords, EltTy.bits .f32 = 32 ∨ (Rect.block (s := S1x1) S1x1.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x128.size a ≤ S100000x128.size a
  hwx2_4 : ∀ i : grid2.Coords, EltTy.bits .f32 = 32 ∨ (Rect.block (s := S100000x128) S5000x128.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x64.size a ≤ S128x64.size a
  hwx3_1 : ∀ i : grid3.Coords, EltTy.bits .f32 = 32 ∨ (Rect.block (s := S128x64) S128x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S100000x64.size a
  hwx3_2 : ∀ i : grid3.Coords, EltTy.bits .f32 = 32 ∨ (Rect.block (s := S100000x64) S5000x64.size (cc3_transform_2 i) (hinb3_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v46) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v47_0) S1x128.size cc1_transform_1 reads1_1 true true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47_1) S1x128.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v46) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v64) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v65) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v66) S1x1.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v67) S5000x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v67) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg4) S128x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v68) S5000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S1700000x1 : Shape := ⟨2, ![1700000, 1]⟩
abbrev S1700000x128 : Shape := ⟨2, ![1700000, 128]⟩
abbrev S1x128 : Shape := ⟨2, ![1, 128]⟩
abbrev S100000x64 : Shape := ⟨2, ![100000, 64]⟩
abbrev S1700000x64 : Shape := ⟨2, ![1700000, 64]⟩
abbrev S1x64 : Shape := ⟨2, ![1, 64]⟩

abbrev nBuf : Space → Nat
  | .hbm => 173
  | .vmem => 0
  | .smem => 0
  | _ => 0

abbrev hbmTy0_0 (i : Nat) : BufTy := match i % 128 with
  | 0 => ⟨S100000x128, .f32⟩
  | 1 => ⟨S2x1600000, .i32⟩
  | 2 => ⟨S128x128, .f32⟩
  | 3 => ⟨S128, .f32⟩
  | 4 => ⟨S128x64, .f32⟩
  | 5 => ⟨S64, .f32⟩
  | 6 => ⟨S128, .f32⟩
  | 7 => ⟨S128, .f32⟩
  | 8 => ⟨S_, .f32⟩
  | 9 => ⟨S1x1600000, .i32⟩
  | 10 => ⟨S1600000, .i32⟩
  | 11 => ⟨S1x1600000, .i32⟩
  | 12 => ⟨S1600000, .i32⟩
  | 13 => ⟨S100000x128, .f32⟩
  | 14 => ⟨S100000, .i32⟩
  | 15 => ⟨S1700000, .i32⟩
  | 16 => ⟨S1700000, .i32⟩
  | 17 => ⟨S_, .f32⟩
  | 18 => ⟨S1700000, .f32⟩
  | 19 => ⟨S_, .f32⟩
  | 20 => ⟨S100000, .f32⟩
  | 21 => ⟨S1700000x1, .i32⟩
  | 22 => ⟨S100000, .f32⟩
  | 23 => ⟨S_, .f32⟩
  | 24 => ⟨S100000, .f32⟩
  | 25 => ⟨S100000, .i1⟩
  | 26 => ⟨S100000, .f32⟩
  | 27 => ⟨S_, .f32⟩
  | 28 => ⟨S_, .f32⟩
  | 29 => ⟨S100000, .f32⟩
  | 30 => ⟨S100000, .f32⟩
  | 31 => ⟨S_, .i32⟩
  | 32 => ⟨S1700000, .i32⟩
  | 33 => ⟨S1700000, .i1⟩
  | 34 => ⟨S_, .i32⟩
  | 35 => ⟨S1700000, .i32⟩
  | 36 => ⟨S1700000, .i32⟩
  | 37 => ⟨S1700000, .i32⟩
  | 38 => ⟨S1700000x1, .i32⟩
  | 39 => ⟨S1700000, .f32⟩
  | 40 => ⟨S_, .i32⟩
  | 41 => ⟨S1700000, .i32⟩
  | 42 => ⟨S1700000, .i1⟩
  | 43 => ⟨S_, .i32⟩
  | 44 => ⟨S1700000, .i32⟩
  | 45 => ⟨S1700000, .i32⟩
  | 46 => ⟨S1700000, .i32⟩
  | 47 => ⟨S1700000x1, .i32⟩
  | 48 => ⟨S1700000, .f32⟩
  | 49 => ⟨S1700000, .f32⟩
  | 50 => ⟨S_, .i32⟩
  | 51 => ⟨S1700000, .i32⟩
  | 52 => ⟨S1700000, .i1⟩
  | 53 => ⟨S_, .i32⟩
  | 54 => ⟨S1700000, .i32⟩
  | 55 => ⟨S1700000, .i32⟩
  | 56 => ⟨S1700000, .i32⟩
  | 57 => ⟨S1700000x1, .i32⟩
  | 58 => ⟨S1700000x128, .f32⟩
  | 59 => ⟨S1700000x1, .f32⟩
  | 60 => ⟨S1700000x128, .f32⟩
  | 61 => ⟨S1700000x128, .f32⟩
  | 62 => ⟨S_, .f32⟩
  | 63 => ⟨S100000x128, .f32⟩
  | 64 => ⟨S1700000x1, .i32⟩
  | 65 => ⟨S100000x128, .f32⟩
  | 66 => ⟨S1x128, .f32⟩
  | 67 => ⟨S100000x128, .f32⟩
  | 68 => ⟨S100000x128, .f32⟩
  | 69 => ⟨S_, .f32⟩
  | 70 => ⟨S128, .f32⟩
  | 71 => ⟨S_, .f32⟩
  | 72 => ⟨S128, .f32⟩
  | 73 => ⟨S128, .f32⟩
  | 74 => ⟨S_, .i32⟩
  | 75 => ⟨S_, .f32⟩
  | 76 => ⟨S128, .f32⟩
  | 77 => ⟨S1x128, .f32⟩
  | 78 => ⟨S_, .f32⟩
  | 79 => ⟨S1x128, .f32⟩
  | 80 => ⟨S1x128, .f32⟩
  | 81 => ⟨S100000x128, .f32⟩
  | 82 => ⟨S100000x128, .f32⟩
  | 83 => ⟨S100000x128, .f32⟩
  | 84 => ⟨S_, .f32⟩
  | 85 => ⟨S_, .f32⟩
  | 86 => ⟨S_, .f32⟩
  | 87 => ⟨S_, .f32⟩
  | 88 => ⟨S128, .f32⟩
  | 89 => ⟨S128, .f32⟩
  | 90 => ⟨S128, .f32⟩
  | 91 => ⟨S_, .f32⟩
  | 92 => ⟨S_, .i1⟩
  | 93 => ⟨S_, .f32⟩
  | 94 => ⟨S_, .f32⟩
  | 95 => ⟨S128, .f32⟩
  | 96 => ⟨S128, .f32⟩
  | 97 => ⟨S1x128, .f32⟩
  | 98 => ⟨S100000x128, .f32⟩
  | 99 => ⟨S100000x128, .f32⟩
  | 100 => ⟨S_, .f32⟩
  | 101 => ⟨S128, .f32⟩
  | 102 => ⟨S128, .f32⟩
  | 103 => ⟨S128, .f32⟩
  | 104 => ⟨S128, .f32⟩
  | 105 => ⟨S1x128, .f32⟩
  | 106 => ⟨S100000x128, .f32⟩
  | 107 => ⟨S100000x128, .f32⟩
  | 108 => ⟨S1x128, .f32⟩
  | 109 => ⟨S100000x128, .f32⟩
  | 110 => ⟨S100000x128, .f32⟩
  | 111 => ⟨S_, .f32⟩
  | 112 => ⟨S100000x128, .f32⟩
  | 113 => ⟨S100000x128, .i1⟩
  | 114 => ⟨S100000x128, .f32⟩
  | 115 => ⟨S100000x128, .f32⟩
  | 116 => ⟨S100000x128, .f32⟩
  | 117 => ⟨S100000x64, .f32⟩
  | 118 => ⟨S100000, .i32⟩
  | 119 => ⟨S1700000, .i32⟩
  | 120 => ⟨S1700000, .i32⟩
  | 121 => ⟨S_, .f32⟩
  | 122 => ⟨S1700000, .f32⟩
  | 123 => ⟨S_, .f32⟩
  | 124 => ⟨S100000, .f32⟩
  | 125 => ⟨S1700000x1, .i32⟩
  | 126 => ⟨S100000, .f32⟩
  | 127 => ⟨S_, .f32⟩
  | _ => ⟨S100000x128, .f32⟩

abbrev hbmTy0_1 (i : Nat) : BufTy := match i % 128 with
  | 0 => ⟨S100000, .f32⟩
  | 1 => ⟨S100000, .i1⟩
  | 2 => ⟨S100000, .f32⟩
  | 3 => ⟨S_, .f32⟩
  | 4 => ⟨S_, .f32⟩
  | 5 => ⟨S100000, .f32⟩
  | 6 => ⟨S100000, .f32⟩
  | 7 => ⟨S_, .i32⟩
  | 8 => ⟨S1700000, .i32⟩
  | 9 => ⟨S1700000, .i1⟩
  | 10 => ⟨S_, .i32⟩
  | 11 => ⟨S1700000, .i32⟩
  | 12 => ⟨S1700000, .i32⟩
  | 13 => ⟨S1700000, .i32⟩
  | 14 => ⟨S1700000x1, .i32⟩
  | 15 => ⟨S1700000, .f32⟩
  | 16 => ⟨S_, .i32⟩
  | 17 => ⟨S1700000, .i32⟩
  | 18 => ⟨S1700000, .i1⟩
  | 19 => ⟨S_, .i32⟩
  | 20 => ⟨S1700000, .i32⟩
  | 21 => ⟨S1700000, .i32⟩
  | 22 => ⟨S1700000, .i32⟩
  | 23 => ⟨S1700000x1, .i32⟩
  | 24 => ⟨S1700000, .f32⟩
  | 25 => ⟨S1700000, .f32⟩
  | 26 => ⟨S_, .i32⟩
  | 27 => ⟨S1700000, .i32⟩
  | 28 => ⟨S1700000, .i1⟩
  | 29 => ⟨S_, .i32⟩
  | 30 => ⟨S1700000, .i32⟩
  | 31 => ⟨S1700000, .i32⟩
  | 32 => ⟨S1700000, .i32⟩
  | 33 => ⟨S1700000x1, .i32⟩
  | 34 => ⟨S1700000x64, .f32⟩
  | 35 => ⟨S1700000x1, .f32⟩
  | 36 => ⟨S1700000x64, .f32⟩
  | 37 => ⟨S1700000x64, .f32⟩
  | 38 => ⟨S_, .f32⟩
  | 39 => ⟨S100000x64, .f32⟩
  | 40 => ⟨S1700000x1, .i32⟩
  | 41 => ⟨S100000x64, .f32⟩
  | 42 => ⟨S1x64, .f32⟩
  | 43 => ⟨S100000x64, .f32⟩
  | 44 => ⟨S100000x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v15 : Ref sig .tc := ⟨.hbm, 30, rfl⟩
abbrev main_c : Ref sig .tc := ⟨.hbm, 31, rfl⟩
abbrev main_v16 : Ref sig .tc := ⟨.hbm, 32, rfl⟩
abbrev main_v17 : Ref sig .tc := ⟨.hbm, 33, rfl⟩
abbrev main_c_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_c_4 : Ref sig .tc := ⟨.hbm, 40, rfl⟩
abbrev main_v23 : Ref sig .tc := ⟨.hbm, 41, rfl⟩
abbrev main_v24 : Ref sig .tc := ⟨.hbm, 42, rfl⟩
abbrev main_c_5 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c_6 : Ref sig .tc := ⟨.hbm, 50, rfl⟩
abbrev main_v31 : Ref sig .tc := ⟨.hbm, 51, rfl⟩
abbrev main_v32 : Ref sig .tc := ⟨.hbm, 52, rfl⟩
abbrev main_c_7 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_8 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_cst_9 : Ref sig .tc := ⟨.hbm, 69, rfl⟩
abbrev main_v47 : Ref sig .tc := ⟨.hbm, 70, rfl⟩
abbrev main_cst_10 : Ref sig .tc := ⟨.hbm, 71, rfl⟩
abbrev main_v48 : Ref sig .tc := ⟨.hbm, 72, rfl⟩
abbrev main_v49 : Ref sig .tc := ⟨.hbm, 73, rfl⟩
abbrev main_c_11 : Ref sig .tc := ⟨.hbm, 74, rfl⟩
abbrev main_call1_cst : Ref sig .tc := ⟨.hbm, 75, rfl⟩
abbrev main_call1_v0 : Ref sig .tc := ⟨.hbm, 76, rfl⟩
abbrev main_call1_v1 : Ref sig .tc := ⟨.hbm, 77, rfl⟩
abbrev main_call1_cst_0 : Ref sig .tc := ⟨.hbm, 78, rfl⟩
abbrev main_call1_v2 : Ref sig .tc := ⟨.hbm, 79, rfl⟩
abbrev main_call1_v3 : Ref sig .tc := ⟨.hbm, 80, rfl⟩
abbrev main_call1_v4 : Ref sig .tc := ⟨.hbm, 81, rfl⟩
abbrev main_call1_v5 : Ref sig .tc := ⟨.hbm, 82, rfl⟩
abbrev main_call1_v6 : Ref sig .tc := ⟨.hbm, 83, rfl⟩
abbrev main_call1_v7 : Ref sig .tc := ⟨.hbm, 84, rfl⟩
abbrev main_call1_cst_1 : Ref sig .tc := ⟨.hbm, 85, rfl⟩
abbrev main_call1_v8 : Ref sig .tc := ⟨.hbm, 86, rfl⟩
abbrev main_call1_cst_2 : Ref sig .tc := ⟨.hbm, 87, rfl⟩
abbrev main_call1_v9 : Ref sig .tc := ⟨.hbm, 88, rfl⟩
abbrev main_call1_v10 : Ref sig .tc := ⟨.hbm, 89, rfl⟩
abbrev main_call1_v11 : Ref sig .tc := ⟨.hbm, 90, rfl⟩
abbrev main_call1_cst_3 : Ref sig .tc := ⟨.hbm, 91, rfl⟩
abbrev main_call1_v12 : Ref sig .tc := ⟨.hbm, 92, rfl⟩
abbrev main_call1_cst_4 : Ref sig .tc := ⟨.hbm, 93, rfl⟩
abbrev main_call1_call0_v0 : Ref sig .tc := ⟨.hbm, 94, rfl⟩
abbrev main_call1_call0_v1 : Ref sig .tc := ⟨.hbm, 95, rfl⟩
abbrev main_v50 : Ref sig .tc := ⟨.hbm, 96, rfl⟩
abbrev main_v51 : Ref sig .tc := ⟨.hbm, 97, rfl⟩
abbrev main_v52 : Ref sig .tc := ⟨.hbm, 98, rfl⟩
abbrev main_v53 : Ref sig .tc := ⟨.hbm, 99, rfl⟩
abbrev main_cst_12 : Ref sig .tc := ⟨.hbm, 100, rfl⟩
abbrev main_v54 : Ref sig .tc := ⟨.hbm, 101, rfl⟩
abbrev main_v55 : Ref sig .tc := ⟨.hbm, 102, rfl⟩
abbrev main_v56 : Ref sig .tc := ⟨.hbm, 103, rfl⟩
abbrev main_v57 : Ref sig .tc := ⟨.hbm, 104, rfl⟩
abbrev main_v58 : Ref sig .tc := ⟨.hbm, 105, rfl⟩
abbrev main_v59 : Ref sig .tc := ⟨.hbm, 106, rfl⟩
abbrev main_v60 : Ref sig .tc := ⟨.hbm, 107, rfl⟩
abbrev main_v61 : Ref sig .tc := ⟨.hbm, 108, rfl⟩
abbrev main_v62 : Ref sig .tc := ⟨.hbm, 109, rfl⟩
abbrev main_v63 : Ref sig .tc := ⟨.hbm, 110, rfl⟩
abbrev main_cst_13 : Ref sig .tc := ⟨.hbm, 111, rfl⟩
abbrev main_v64 : Ref sig .tc := ⟨.hbm, 112, rfl⟩
abbrev main_v65 : Ref sig .tc := ⟨.hbm, 113, rfl⟩
abbrev main_v66 : Ref sig .tc := ⟨.hbm, 114, rfl⟩
abbrev main_v67 : Ref sig .tc := ⟨.hbm, 115, rfl⟩
abbrev main_v68 : Ref sig .tc := ⟨.hbm, 116, rfl⟩
abbrev main_v69 : Ref sig .tc := ⟨.hbm, 117, rfl⟩
abbrev main_v70 : Ref sig .tc := ⟨.hbm, 118, rfl⟩
abbrev main_v71 : Ref sig .tc := ⟨.hbm, 119, rfl⟩
abbrev main_v72 : Ref sig .tc := ⟨.hbm, 120, rfl⟩
abbrev main_cst_14 : Ref sig .tc := ⟨.hbm, 121, rfl⟩
abbrev main_v73 : Ref sig .tc := ⟨.hbm, 122, rfl⟩
abbrev main_cst_15 : Ref sig .tc := ⟨.hbm, 123, rfl⟩
abbrev main_v74 : Ref sig .tc := ⟨.hbm, 124, rfl⟩
abbrev main_v75 : Ref sig .tc := ⟨.hbm, 125, rfl⟩
abbrev main_v76 : Ref sig .tc := ⟨.hbm, 126, rfl⟩
abbrev main_cst_16 : Ref sig .tc := ⟨.hbm, 127, rfl⟩
abbrev main_v77 : Ref sig .tc := ⟨.hbm, 128, rfl⟩
abbrev main_v78 : Ref sig .tc := ⟨.hbm, 129, rfl⟩
abbrev main_v79 : Ref sig .tc := ⟨.hbm, 130, rfl⟩
abbrev main_cst_17 : Ref sig .tc := ⟨.hbm, 131, rfl⟩
abbrev main_call3_v0 : Ref sig .tc := ⟨.hbm, 132, rfl⟩
abbrev main_call3_v1 : Ref sig .tc := ⟨.hbm, 133, rfl⟩
abbrev main_v80 : Ref sig .tc := ⟨.hbm, 134, rfl⟩
abbrev main_c_18 : Ref sig .tc := ⟨.hbm, 135, rfl⟩
abbrev main_v81 : Ref sig .tc := ⟨.hbm, 136, rfl⟩
abbrev main_v82 : Ref sig .tc := ⟨.hbm, 137, rfl⟩
abbrev main_c_19 : Ref sig .tc := ⟨.hbm, 138, rfl⟩
abbrev main_v83 : Ref sig .tc := ⟨.hbm, 139, rfl⟩
abbrev main_v84 : Ref sig .tc := ⟨.hbm, 140, rfl⟩
abbrev main_v85 : Ref sig .tc := ⟨.hbm, 141, rfl⟩
abbrev main_v86 : Ref sig .tc := ⟨.hbm, 142, rfl⟩
abbrev main_v87 : Ref sig .tc := ⟨.hbm, 143, rfl⟩
abbrev main_c_20 : Ref sig .tc := ⟨.hbm, 144, rfl⟩
abbrev main_v88 : Ref sig .tc := ⟨.hbm, 145, rfl⟩
abbrev main_v89 : Ref sig .tc := ⟨.hbm, 146, rfl⟩
abbrev main_c_21 : Ref sig .tc := ⟨.hbm, 147, rfl⟩
abbrev main_v90 : Ref sig .tc := ⟨.hbm, 148, rfl⟩
abbrev main_v91 : Ref sig .tc := ⟨.hbm, 149, rfl⟩
abbrev main_v92 : Ref sig .tc := ⟨.hbm, 150, rfl⟩
abbrev main_v93 : Ref sig .tc := ⟨.hbm, 151, rfl⟩
abbrev main_v94 : Ref sig .tc := ⟨.hbm, 152, rfl⟩
abbrev main_v95 : Ref sig .tc := ⟨.hbm, 153, rfl⟩
abbrev main_c_22 : Ref sig .tc := ⟨.hbm, 154, rfl⟩
abbrev main_v96 : Ref sig .tc := ⟨.hbm, 155, rfl⟩
abbrev main_v97 : Ref sig .tc := ⟨.hbm, 156, rfl⟩
abbrev main_c_23 : Ref sig .tc := ⟨.hbm, 157, rfl⟩
abbrev main_v98 : Ref sig .tc := ⟨.hbm, 158, rfl⟩
abbrev main_v99 : Ref sig .tc := ⟨.hbm, 159, rfl⟩
abbrev main_v100 : Ref sig .tc := ⟨.hbm, 160, rfl⟩
abbrev main_v101 : Ref sig .tc := ⟨.hbm, 161, rfl⟩
abbrev main_v102 : Ref sig .tc := ⟨.hbm, 162, rfl⟩
abbrev main_v103 : Ref sig .tc := ⟨.hbm, 163, rfl⟩
abbrev main_v104 : Ref sig .tc := ⟨.hbm, 164, rfl⟩
abbrev main_v105 : Ref sig .tc := ⟨.hbm, 165, rfl⟩
abbrev main_cst_24 : Ref sig .tc := ⟨.hbm, 166, rfl⟩
abbrev main_v106 : Ref sig .tc := ⟨.hbm, 167, rfl⟩
abbrev main_v107 : Ref sig .tc := ⟨.hbm, 168, rfl⟩
abbrev main_v108 : Ref sig .tc := ⟨.hbm, 169, rfl⟩
abbrev main_v109 : Ref sig .tc := ⟨.hbm, 170, rfl⟩
abbrev main_v110 : Ref sig .tc := ⟨.hbm, 171, rfl⟩
abbrev main_v111 : Ref sig .tc := ⟨.hbm, 172, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  dot_S100000x128_S128x128_S100000x128_1_0_0_1_n_n_wf : DotDims.WF S100000x128 S128x128 S100000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

class Facts : Prop extends Facts₀ where

variable [Facts]
-- ==== Proof.KerRun.lean ====
/-
  The idealized kernel program's run with its result named.

  @main is ten segments: stretches of host operations and four kernel regions.  The buffer contents at the end
  of the last segment are a fold from the launch memory through every stretch and every region's write-backs.
  Every weakly fair execution terminates, nothing faults, the result buffer ends at that fold read at the result,
  and each argument ends as launched (no segment writes one).
-/
import proofs.«152145_j6485400617795_1_alg».proof.Proof.Gen.KernelIdeal.Frame

set_option maxRecDepth 16384

noncomputable section

namespace Cert.KernelIdeal.HandRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- The run: the result buffer at the last boundary's contents, the arguments as launched. -/
theorem run_main : θ_run defs (onTc (τ := τ) (main (F := F))) ⟨m, fun _ => 0, ρ⟩ (fun r => ∀ c : Dev nD,
      r.2.mem ((c.tc : Thread nD τ).loc main_v84) = W10 m ρ c (Proc.devRef .tc main_v84)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v84 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c)⟩)

end Cert.KernelIdeal.HandRun

end
-- ==== Proof.Spec.lean ====
/-
  The value the reference program computes, in stages.

  A graph of 100000 nodes is given by an edge table `ei` of two rows of 1600000 endpoints (sources, destinations).
  One self loop per node is appended to each row (1700000 endpoints `s`, `d`).  The degree of a node is the number
  of destination endpoints that land on it, `dinv` is its reciprocal square root where the degree is positive and 0
  elsewhere, and an edge's weight is `dinv` at its (wrapped) source times `dinv` at its (wrapped) destination.  A
  convolution of node features `H` (one row per node) adds into each node's row the rows of `H` at the sources of
  the edges landing on it, each scaled by the edge's weight, and then adds a bias row.  Between the two
  convolutions every column is normalised with the column's mean and variance (the variance as the mean of the
  centred squares, plus ε, under a reciprocal square root, times the gain, plus the offset) and passed through a
  leaky rectifier with slope `a`.

  Every stage is spelt with the host operations of the printed program, so the program's fold of operations is
  the stage by unfolding.  The matrix products enter as parameters (`H`): the two programs compute them differently.
-/
import proofs.«152145_j6485400617795_1_alg».proof.ReferenceIdeal

noncomputable section

namespace Cert.ReferenceIdeal.Spec

open Idealize.ShloMosaic Cert.ReferenceIdeal

variable {F : FTy → Type} [FloatOps F] [Facts]
open Facts₀ Facts

/-- Contents of a buffer of 32-bit integers of shape `s`. -/
abbrev IC (F : FTy → Type) (s : Shape) : Type := (⟨s, .i32⟩ : BufTy).Contents (Elt F)
/-- Contents of a buffer of f32 values of shape `s`. -/
abbrev FC (F : FTy → Type) (s : Shape) : Type := (⟨s, .f32⟩ : BufTy).Contents (Elt F)

/-! ## The edges -/

/-- The sources: row 0 of the edge table, then one self loop per node. -/
def srcOf (ei : IC F S2x1600000) : IC F S1700000 :=
  concatenate S1700000 0
    [⟨S1600000, shapeCast S1600000 (extractStridedSlice S1x1600000 ![0, 0] ei slices_S2x1600000_S1x1600000_0_0) shapeCasts_S1x1600000_S1600000⟩,
     ⟨S100000, iotaInDim S100000 32 0⟩] concatenates_S1600000_S100000_S1700000_d0

/-- The destinations: row 1 of the edge table, then one self loop per node. -/
def dstOf (ei : IC F S2x1600000) : IC F S1700000 :=
  concatenate S1700000 0
    [⟨S1600000, shapeCast S1600000 (extractStridedSlice S1x1600000 ![1, 0] ei slices_S2x1600000_S1x1600000_1_0) shapeCasts_S1x1600000_S1600000⟩,
     ⟨S100000, iotaInDim S100000 32 0⟩] concatenates_S1600000_S100000_S1700000_d0

/-- Endpoints as a column of start indices. -/
def colOf (v : IC F S1700000) : IC F S1700000x1 := broadcastInDim S1700000x1 ![0] bcast_S1700000_S1700000x1_0 v

/-- A negative endpoint counts from the end: the node count is added to it. -/
def wrapOf (v : IC F S1700000) : IC F S1700000 :=
  select (cmpi .slt v (broadcastInDim S1700000 ![] bcast_S_S1700000 (constantI S_ 32 0#32)))
    (addi v (broadcastInDim S1700000 ![] bcast_S_S1700000 (constantI S_ 32 100000#32))) v

/-- The degree of every node: ones added at the destinations. -/
def degOf (d : IC F S1700000) : FC F S100000 :=
  Host.scatterAdd scatter_S100000_S1700000x1_S1700000_n_0_0_1
    (broadcastInDim S100000 ![] bcast_S_S100000 (constant S_ .f32 0x00000000#32)) (colOf d)
    (broadcastInDim S1700000 ![] bcast_S_S1700000 (constant S_ .f32 0x3F800000#32))

/-- The reciprocal square root of the degree where it is positive, 0 elsewhere. -/
def dinvOf (deg : FC F S100000) : FC F S100000 :=
  select (cmpf .ogt deg (broadcastInDim S100000 ![] bcast_S_S100000 (constant S_ .f32 0x00000000#32))) (Host.rsqrt deg)
    (broadcastInDim S100000 ![] bcast_S_S100000 (id (constant S_ .f32 0x00000000#32)))

/-- An edge's weight: `dinv` at its source times `dinv` at its destination. -/
def normOf (s d : IC F S1700000) : FC F S1700000 :=
  mulf (Host.gather gather_S100000_S1700000x1_S1700000_n_0_n_n_0_1_1 (dinvOf (degOf d)) (colOf (wrapOf s)))
    (Host.gather gather_S100000_S1700000x1_S1700000_n_0_n_n_0_1_1 (dinvOf (degOf d)) (colOf (wrapOf d)))

/-! ## The convolutions -/

/-- Rows of `H` gathered at the sources, scaled by the weights, added at the destinations, plus the bias row
    (128 features). -/
def agg128 (s d : IC F S1700000) (nrm : FC F S1700000) (H : FC F S100000x128) (b : FC F S128) : FC F S100000x128 :=
  addf
    (Host.scatterAdd scatter_S100000x128_S1700000x1_S1700000x128_1_0_0_1
      (broadcastInDim S100000x128 ![] bcast_S_S100000x128 (constant S_ .f32 0x00000000#32)) (colOf d)
      (mulf (Host.gather gather_S100000x128_S1700000x1_S1700000x128_1_0_n_n_0_1_1128 H (colOf (wrapOf s)))
        (broadcastInDim S1700000x128 ![0, 1] bcast_S1700000x1_S1700000x128_0_1
          (broadcastInDim S1700000x1 ![0] bcast_S1700000_S1700000x1_0 nrm))))
    (broadcastInDim S100000x128 ![0, 1] bcast_S1x128_S100000x128_0_1 (broadcastInDim S1x128 ![1] bcast_S128_S1x128_1 b))

/-- The same with 64 features. -/
def agg64 (s d : IC F S1700000) (nrm : FC F S1700000) (H : FC F S100000x64) (b : FC F S64) : FC F S100000x64 :=
  addf
    (Host.scatterAdd scatter_S100000x64_S1700000x1_S1700000x64_1_0_0_1
      (broadcastInDim S100000x64 ![] bcast_S_S100000x64 (constant S_ .f32 0x00000000#32)) (colOf d)
      (mulf (Host.gather gather_S100000x64_S1700000x1_S1700000x64_1_0_n_n_0_1_164 H (colOf (wrapOf s)))
        (broadcastInDim S1700000x64 ![0, 1] bcast_S1700000x1_S1700000x64_0_1
          (broadcastInDim S1700000x1 ![0] bcast_S1700000_S1700000x1_0 nrm))))
    (broadcastInDim S100000x64 ![0, 1] bcast_S1x64_S100000x64_0_1 (broadcastInDim S1x64 ![1] bcast_S64_S1x64_1 b))

/-! ## The normalisation and the rectifier -/

/-- The column means. -/
def meanOf (z : FC F S100000x128) : FC F S128 :=
  Host.divf (Host.reduceAdd z (constant S_ .f32 0x00000000#32) reducesTo_S100000x128_S128_d0 h_S_)
    (broadcastInDim S128 ![] bcast_S_S128 (constant S_ .f32 0x47C35000#32))

/-- The column variances: the mean of the centred squares (the divisor is the count less a correction that is 0
    here; were it not positive the result would be undefined). -/
def varOf (z : FC F S100000x128) : FC F S128 :=
  select
    (broadcastInDim S128 ![] bcast_S_S128
      (cmpf (F := F) .ogt (subf (constant (F := F) S_ .f32 0x47C35000#32) (sitofp (F := F) .f32 (constantI S_ 32 0#32))) (constant (F := F) S_ .f32 0x00000000#32)))
    (Host.divf
      (Host.reduceAdd
        (mulf
          (subf z (broadcastInDim S100000x128 ![0, 1] bcast_S1x128_S100000x128_0_1
            (Host.divf (broadcastInDim S1x128 ![1] bcast_S128_S1x128_1
                (Host.reduceAdd z (constant S_ .f32 0x00000000#32) reducesTo_S100000x128_S128_d0 h_S_))
              (broadcastInDim S1x128 ![] bcast_S_S1x128 (constant S_ .f32 0x47C35000#32)))))
          (subf z (broadcastInDim S100000x128 ![0, 1] bcast_S1x128_S100000x128_0_1
            (Host.divf (broadcastInDim S1x128 ![1] bcast_S128_S1x128_1
                (Host.reduceAdd z (constant S_ .f32 0x00000000#32) reducesTo_S100000x128_S128_d0 h_S_))
              (broadcastInDim S1x128 ![] bcast_S_S1x128 (constant S_ .f32 0x47C35000#32))))))
        (constant S_ .f32 0x00000000#32) reducesTo_S100000x128_S128_d0 h_S_)
      (broadcastInDim S128 ![] bcast_S_S128
        (subf (constant S_ .f32 0x47C35000#32) (sitofp .f32 (constantI S_ 32 0#32)))))
    (broadcastInDim S128 ![] bcast_S_S128 (id (constant S_ .f32 0x7FC00000#32)))

/-- The normalised columns: `(z − mean) · (γ · rsqrt (var + ε)) + β`. -/
def normedOf (z : FC F S100000x128) (γ β : FC F S128) : FC F S100000x128 :=
  addf
    (mulf
      (subf z (broadcastInDim S100000x128 ![0, 1] bcast_S1x128_S100000x128_0_1 (broadcastInDim S1x128 ![1] bcast_S128_S1x128_1 (meanOf z))))
      (broadcastInDim S100000x128 ![0, 1] bcast_S1x128_S100000x128_0_1
        (broadcastInDim S1x128 ![1] bcast_S128_S1x128_1
          (mulf γ (Host.rsqrt (addf (varOf z) (broadcastInDim S128 ![] bcast_S_S128 (constant S_ .f32 0x3727C5AC#32))))))))
    (broadcastInDim S100000x128 ![0, 1] bcast_S1x128_S100000x128_0_1 (broadcastInDim S1x128 ![1] bcast_S128_S1x128_1 β))

/-- The leaky rectifier: `y` where `y ≥ 0`, `a · y` elsewhere. -/
def leakyOf (y : FC F S100000x128) (a : FC F S_) : FC F S100000x128 :=
  select (cmpf .oge y (broadcastInDim S100000x128 ![] bcast_S_S100000x128 (constant S_ .f32 0x00000000#32))) y
    (mulf (broadcastInDim S100000x128 ![] bcast_S_S100000x128 a) y)

/-- Normalisation, then the rectifier. -/
def actOf (z : FC F S100000x128) (γ β : FC F S128) (a : FC F S_) : FC F S100000x128 := leakyOf (normedOf z γ β) a

/-! ## The whole -/

/-- The first convolution's result. -/
def zOf (x : FC F S100000x128) (ei : IC F S2x1600000) (W1 : FC F S128x128) (b1 : FC F S128) : FC F S100000x128 :=
  agg128 (srcOf ei) (dstOf ei) (normOf (srcOf ei) (dstOf ei))
    (Host.dotGeneral dot_S100000x128_S128x128_S100000x128_1_0_0_1_n_n none x W1) b1

/-- The reference's result. -/
def refOut (x : FC F S100000x128) (ei : IC F S2x1600000) (W1 : FC F S128x128) (b1 : FC F S128) (W2 : FC F S128x64) (b2 : FC F S64)
    (γ β : FC F S128) (a : FC F S_) : FC F S100000x64 :=
  agg64 (srcOf ei) (dstOf ei) (normOf (srcOf ei) (dstOf ei))
    (Host.dotGeneral dot_S100000x128_S128x64_S100000x64_1_0_0_1_n_n none (actOf (zOf x ei W1 b1) γ β a) W2) b2

end Cert.ReferenceIdeal.Spec

end
-- ==== Proof.LibTypedRef.lean ====
/-
  Typed references: contents moved to the buffer's type and back.

  A called function's operations are printed over TYPED references (`StableHlo.TRef sig T`): a buffer together with the
  fact that its type is `T`.  Such an operation reads its operands through `TRef.ofBuf` (the buffer's contents as
  contents of type `T`) and writes its result through `TRef.toBuf` (the other way), both transports along that fact.  So
  a fold over such operations (`StableHlo.after`), once rewritten to the operations' functions, carries a pair
  `ofBuf (toBuf v)` around every intermediate value.  The two lemmas cancel the pairs, for any reference signature and any
  value family; with them as `simp only` lemmas the fold's term becomes the plain composition of the operations'
  functions, which a definitional comparison with a staged definition of the same value then closes quickly.  (Without
  them the comparison has to see through every transport, and on a term holding a reduction or a gather it unfolds
  those first.)
-/
import Idealize.ShloMosaic.Lib.StableHlo

namespace Idealize.ShloMosaic.StableHlo.TRef

variable {sig : RefSig} {Val : EltTy → Type} {T : BufTy}

/-- Contents moved to a typed reference's buffer type and back are unchanged. -/
theorem ofBuf_toBuf (x : TRef sig T) (v : T.Contents Val) : x.ofBuf (x.toBuf v) = v := by
  obtain ⟨r, rfl, _, _⟩ := x
  rfl

/-- A buffer's contents read at the reference's type and moved back are unchanged. -/
theorem toBuf_ofBuf (x : TRef sig T) (u : x.ref.ty.Contents Val) : x.toBuf (x.ofBuf u) = u := by
  obtain ⟨r, rfl, _, _⟩ := x
  rfl

end Idealize.ShloMosaic.StableHlo.TRef
-- ==== Proof.LibBroadcasts.lean ====
/-
  Three broadcasts read at an entry.

  A scalar splat reads the scalar everywhere.  A vector `[a]` laid as a column `[a, 1]` and then along `b` columns reads,
  at `(n, j)`, the vector at `n`.  A vector `[b]` laid as a row `[1, b]` and then down `a` rows reads, at `(n, j)`, the
  vector at `j`.
-/
import Idealize.ShloMosaic.Lib.Pipeline.Value
import Idealize.ShloMosaic.Lib.ValueIdx

noncomputable section

namespace Cert.Broadcasts

open Idealize.ShloMosaic Idealize.ShloMosaic.ValueIdx

variable {α : Type}

/-- A splat of a scalar reads the scalar at every index. -/
theorem splat_apply {t : Shape} (dims : Fin (⟨0, ![]⟩ : Shape).rank → Fin t.rank) (h : (⟨0, ![]⟩ : Shape).BroadcastsInDim t dims)
    (x : (⟨0, ![]⟩ : Shape).Idx → α) (j : t.Idx) : broadcastInDim t dims h x j = x ix0 :=
  broadcastInDim_apply dims h x j ix0 (fun q => q.elim0)

/-- A vector laid as a column and then along the columns: at `(n, j)` the vector at `n`. -/
theorem alongColumns_apply {a b : ℕ} (d : (⟨1, ![a]⟩ : Shape).Idx → α)
    (h0 : (⟨1, ![a]⟩ : Shape).BroadcastsInDim ⟨2, ![a, 1]⟩ ![0])
    (h1 : (⟨2, ![a, 1]⟩ : Shape).BroadcastsInDim ⟨2, ![a, b]⟩ ![0, 1]) (n : Fin a) (j : Fin b) :
    broadcastInDim ⟨2, ![a, b]⟩ ![0, 1] h1 (broadcastInDim ⟨2, ![a, 1]⟩ ![0] h0 d) (ix2 n j) = d (ix1 n) := by
  refine (broadcastInDim_apply ![0, 1] h1 _ (ix2 n j) (ix2 n (0 : Fin 1)) (fun q => ?_)).trans ?_
  · match q with
    | ⟨0, _⟩ =>
      show n.val = if a = 1 then 0 else n.val
      by_cases ha : a = 1
      · rw [if_pos ha]; have := n.isLt; omega
      · rw [if_neg ha]
    | ⟨1, _⟩ =>
      show (0 : ℕ) = if (1 : ℕ) = 1 then 0 else j.val
      rw [if_pos rfl]
  · refine broadcastInDim_apply ![0] h0 d (ix2 n (0 : Fin 1)) (ix1 n) (fun q => ?_)
    match q with
    | ⟨0, _⟩ =>
      show n.val = if a = 1 then 0 else n.val
      by_cases ha : a = 1
      · rw [if_pos ha]; have := n.isLt; omega
      · rw [if_neg ha]

/-- A vector laid as a row and then down the rows: at `(n, j)` the vector at `j`. -/
theorem downRows_apply {a b : ℕ} (x : (⟨1, ![b]⟩ : Shape).Idx → α)
    (h0 : (⟨1, ![b]⟩ : Shape).BroadcastsInDim ⟨2, ![1, b]⟩ ![1])
    (h1 : (⟨2, ![1, b]⟩ : Shape).BroadcastsInDim ⟨2, ![a, b]⟩ ![0, 1]) (n : Fin a) (j : Fin b) :
    broadcastInDim ⟨2, ![a, b]⟩ ![0, 1] h1 (broadcastInDim ⟨2, ![1, b]⟩ ![1] h0 x) (ix2 n j) = x (ix1 j) := by
  refine (broadcastInDim_apply ![0, 1] h1 _ (ix2 n j) (ix2 (0 : Fin 1) j) (fun q => ?_)).trans ?_
  · match q with
    | ⟨0, _⟩ =>
      show (0 : ℕ) = if (1 : ℕ) = 1 then 0 else n.val
      rw [if_pos rfl]
    | ⟨1, _⟩ =>
      show j.val = if b = 1 then 0 else j.val
      by_cases hb : b = 1
      · rw [if_pos hb]; have := j.isLt; omega
      · rw [if_neg hb]
  · refine broadcastInDim_apply ![1] h0 x (ix2 (0 : Fin 1) j) (ix1 j) (fun q => ?_)
    match q with
    | ⟨0, _⟩ =>
      show j.val = if b = 1 then 0 else j.val
      by_cases hb : b = 1
      · rw [if_pos hb]; have := j.isLt; omega
      · rw [if_neg hb]

/-- A vector laid as a column: at `(n, u)` the vector at `n`. -/
theorem column_apply {a : ℕ} (d : (⟨1, ![a]⟩ : Shape).Idx → α)
    (h0 : (⟨1, ![a]⟩ : Shape).BroadcastsInDim ⟨2, ![a, 1]⟩ ![0]) (n : Fin a) (u : Fin 1) :
    broadcastInDim ⟨2, ![a, 1]⟩ ![0] h0 d (ix2 n u) = d (ix1 n) := by
  refine broadcastInDim_apply ![0] h0 d (ix2 n u) (ix1 n) (fun q => ?_)
  match q with
  | ⟨0, _⟩ =>
    show n.val = if a = 1 then 0 else n.val
    by_cases ha : a = 1
    · rw [if_pos ha]; have := n.isLt; omega
    · rw [if_neg ha]

end Cert.Broadcasts

end
-- ==== Proof.KerAffineSpec.lean ====
/-
  The factor and the summand the kernel program hands to its affine region.

  From the column sums S1 and the column sums of squares S2 (one row of 128 each) the program forms, per column:
  the mean μ = S1 / n, the variance max (S2 / n − μ², 0), the factor s = γ · rsqrt (variance + ε) and the summand
  β − μ · s.  They are spelt here with the program's host operations, and then read at a column over the
  extended reals: every operation is entrywise, a splat reads its scalar, and the reshape of a row [1,128] to a
  vector [128] reads the row's entry.
-/
import proofs.«152145_j6485400617795_1_alg».proof.KernelIdeal
import proofs.«152145_j6485400617795_1_alg».proof.Proof.LibBroadcasts
import Idealize.ShloMosaic.Lib.ValueIdx
import Idealize.ShloMosaic.Lib.Pipeline.Value
import Idealize.ShloMosaic.PureOps.Ideal.Laws

noncomputable section

namespace Cert.KernelIdeal.Chain

open Idealize.ShloMosaic Idealize.ShloMosaic.ValueIdx Cert.KernelIdeal

section Defs
variable {F : FTy → Type} [FloatOps F] [Facts]
open Facts₀ Facts

/-- The column means from the column sums: divided by the count. -/
def kMean (S1 : (⟨S1x128, .f32⟩ : BufTy).Contents (Elt F)) : (⟨S128, .f32⟩ : BufTy).Contents (Elt F) :=
  Host.divf (shapeCast S128 S1 shapeCasts_S1x128_S128) (broadcastInDim S128 ![] bcast_S_S128 (constant (F := F) S_ .f32 0x47C35000#32))

/-- The factor: the gain times the reciprocal square root of the variance — the mean of the squares less the
    square of the mean, clipped below at 0 — plus ε. -/
def kScale (S1 S2 : (⟨S1x128, .f32⟩ : BufTy).Contents (Elt F)) (γ : (⟨S128, .f32⟩ : BufTy).Contents (Elt F)) :
    (⟨S128, .f32⟩ : BufTy).Contents (Elt F) :=
  mulf γ (Host.rsqrt (addf
    (maximumf (subf (Host.divf (shapeCast S128 S2 shapeCasts_S1x128_S128) (broadcastInDim S128 ![] bcast_S_S128 (constant (F := F) S_ .f32 0x47C35000#32)))
        (mulf (kMean S1) (kMean S1)))
      (broadcastInDim S128 ![] bcast_S_S128 (constant (F := F) S_ .f32 0x00000000#32)))
    (broadcastInDim S128 ![] bcast_S_S128 (constant (F := F) S_ .f32 0x3727C5AC#32))))

/-- The summand: the offset less the mean times the factor. -/
def kShift (S1 S2 : (⟨S1x128, .f32⟩ : BufTy).Contents (Elt F)) (γ β : (⟨S128, .f32⟩ : BufTy).Contents (Elt F)) :
    (⟨S128, .f32⟩ : BufTy).Contents (Elt F) :=
  subf β (mulf (kMean S1) (kScale S1 S2 γ))

end Defs

section AtIdeal
variable [Facts]
open Facts₀ Facts

/-- A row [1,128] reshaped to a vector, at column q, is the row's entry (0, q). -/
theorem row_to_vec_apply (S : (⟨2, ![1, 128]⟩ : Shape).Idx → EReal) (h : (⟨2, ![1, 128]⟩ : Shape).ShapeCasts ⟨1, ![128]⟩) (q : Fin 128) :
    shapeCast ⟨1, ![128]⟩ S h (ix1 q) = S (ix2 (0 : Fin 1) q) := by
  refine (shapeCast_dropUnit_apply ![128] S h (ix1 q)).trans (congrArg S (funext fun a => Fin.ext ?_))
  match a with
  | ⟨0, _⟩ => rfl
  | ⟨1, _⟩ => rfl

/-- A splat of a scalar constant over the 128 columns reads the constant's value. -/
theorem splat128_apply (h : (⟨0, ![]⟩ : Shape).BroadcastsInDim ⟨1, ![128]⟩ ![]) (w : BitVec 32) (q : Fin 128) :
    broadcastInDim ⟨1, ![128]⟩ ![] h (constant (F := Ideal) ⟨0, ![]⟩ .f32 w) (ix1 q) = Ideal.ofBits .f32 w :=
  Cert.Broadcasts.splat_apply ![] h _ (ix1 q)

theorem kMean_apply (S1 : (⟨S1x128, .f32⟩ : BufTy).Contents (Elt Ideal)) (q : Fin 128) :
    kMean (F := Ideal) S1 (ix1 q) = Ideal.div (S1 (ix2 (0 : Fin 1) q)) (Ideal.ofBits .f32 0x47C35000#32) := by
  show Ideal.div (shapeCast S128 S1 shapeCasts_S1x128_S128 (ix1 q))
      (broadcastInDim S128 ![] bcast_S_S128 (constant (F := Ideal) S_ .f32 0x47C35000#32) (ix1 q)) = _
  rw [row_to_vec_apply S1 shapeCasts_S1x128_S128 q, splat128_apply bcast_S_S128 _ q]

theorem kScale_apply (S1 S2 : (⟨S1x128, .f32⟩ : BufTy).Contents (Elt Ideal)) (γ : (⟨S128, .f32⟩ : BufTy).Contents (Elt Ideal)) (q : Fin 128) :
    kScale (F := Ideal) S1 S2 γ (ix1 q)
      = γ (ix1 q) * Ideal.rsqrt (max (Ideal.div (S2 (ix2 (0 : Fin 1) q)) (Ideal.ofBits .f32 0x47C35000#32)
            - Ideal.div (S1 (ix2 (0 : Fin 1) q)) (Ideal.ofBits .f32 0x47C35000#32) * Ideal.div (S1 (ix2 (0 : Fin 1) q)) (Ideal.ofBits .f32 0x47C35000#32)) 0
          + Ideal.ofBits .f32 0x3727C5AC#32) := by
  show γ (ix1 q) * Ideal.rsqrt (max (Ideal.div (shapeCast S128 S2 shapeCasts_S1x128_S128 (ix1 q))
        (broadcastInDim S128 ![] bcast_S_S128 (constant (F := Ideal) S_ .f32 0x47C35000#32) (ix1 q))
        - kMean (F := Ideal) S1 (ix1 q) * kMean (F := Ideal) S1 (ix1 q))
        (broadcastInDim S128 ![] bcast_S_S128 (constant (F := Ideal) S_ .f32 0x00000000#32) (ix1 q))
      + broadcastInDim S128 ![] bcast_S_S128 (constant (F := Ideal) S_ .f32 0x3727C5AC#32) (ix1 q)) = _
  rw [row_to_vec_apply S2 shapeCasts_S1x128_S128 q, splat128_apply bcast_S_S128 _ q, splat128_apply bcast_S_S128 _ q,
    splat128_apply bcast_S_S128 _ q, kMean_apply S1 q, Ideal.ofBits_zero_f32]

theorem kShift_apply (S1 S2 : (⟨S1x128, .f32⟩ : BufTy).Contents (Elt Ideal)) (γ β : (⟨S128, .f32⟩ : BufTy).Contents (Elt Ideal)) (q : Fin 128) :
    kShift (F := Ideal) S1 S2 γ β (ix1 q)
      = β (ix1 q) - Ideal.div (S1 (ix2 (0 : Fin 1) q)) (Ideal.ofBits .f32 0x47C35000#32) * kScale (F := Ideal) S1 S2 γ (ix1 q) := by
  show β (ix1 q) - kMean (F := Ideal) S1 (ix1 q) * kScale (F := Ideal) S1 S2 γ (ix1 q) = _
  rw [kMean_apply S1 q]

end AtIdeal

end Cert.KernelIdeal.Chain

end
-- ==== Proof.KerChain.lean ====
/-
  The idealized kernel program's host stretches, read as the stages of the specification.

  Between its four kernel regions the program runs the same host operations on the edge table as the reference
  does: the endpoints with self loops, the edge weights, and after each matrix product the gather-scale-scatter
  aggregation plus the bias.  Each stretch's result is read off the fold of its operations and is, by
  unfolding, the corresponding stage applied to what the stretch finds in its operand buffers; a buffer that no
  operation of a stretch writes, and no region has as a window, keeps its contents through it.
-/
import proofs.«152145_j6485400617795_1_alg».proof.Proof.Gen.KernelIdeal.Frame
import proofs.«152145_j6485400617795_1_alg».proof.Proof.Spec
import proofs.«152145_j6485400617795_1_alg».proof.Proof.LibTypedRef
import proofs.«152145_j6485400617795_1_alg».proof.Proof.KerAffineSpec

set_option maxRecDepth 16384

noncomputable section

namespace Cert.KernelIdeal.Chain

open Idealize.ShloMosaic Idealize.ShloMosaic.TcCoe Idealize.SL.Sem
open Cert.KernelIdeal Cert.KernelIdeal.Gen
open Cert.ReferenceIdeal (Spec.srcOf Spec.dstOf Spec.normOf Spec.agg128 Spec.agg64)

variable {F : FTy → Type} [FloatOps F] [hR : Cert.ReferenceIdeal.Facts]
variable (m : (ℓ : Loc nD τ sig) → Buf (Elt F) ℓ) (ρ : Dev nD → PrngReg)

/-- A buffer that no operation of the stretch writes keeps its contents through it. -/
macro "keeps" l:ident : tactic => `(tactic|
  exact StableHlo.after_of_forall_not_mem _ _ (List.forall_iff_forall_mem.mp (by
    simp only [$l:ident, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide))))

/-! ## The edges, before the first region -/

attribute [local irreducible] Host.gather Host.scatterAdd concatenate in
/-- The sources with self loops. -/
theorem W1_src (c : Dev nD) :
    W1 m ρ c (Proc.devRef .tc main_v5) = Cert.ReferenceIdeal.Spec.srcOf (F := F) (m ((c : Thread nD τ).loc main_arg1)) := by
  show StableHlo.after hostOps0 (W0 m ρ c) (Proc.devRef .tc main_v5) = _
  open StableHlo in after_results
  rfl

attribute [local irreducible] Host.gather Host.scatterAdd concatenate in
/-- The destinations with self loops. -/
theorem W1_dst (c : Dev nD) :
    W1 m ρ c (Proc.devRef .tc main_v6) = Cert.ReferenceIdeal.Spec.dstOf (F := F) (m ((c : Thread nD τ).loc main_arg1)) := by
  show StableHlo.after hostOps0 (W0 m ρ c) (Proc.devRef .tc main_v6) = _
  open StableHlo in after_results
  rfl

theorem W2_src (c : Dev nD) :
    W2 m ρ c (Proc.devRef .tc main_v5) = Cert.ReferenceIdeal.Spec.srcOf (F := F) (m ((c : Thread nD τ).loc main_arg1)) :=
  (show W2 m ρ c (Proc.devRef .tc main_v5) = W1 m ρ c (Proc.devRef .tc main_v5) by keeps hostOps0_1).trans (W1_src m ρ c)
theorem W2_dst (c : Dev nD) :
    W2 m ρ c (Proc.devRef .tc main_v6) = Cert.ReferenceIdeal.Spec.dstOf (F := F) (m ((c : Thread nD τ).loc main_arg1)) :=
  (show W2 m ρ c (Proc.devRef .tc main_v6) = W1 m ρ c (Proc.devRef .tc main_v6) by keeps hostOps0_1).trans (W1_dst m ρ c)
theorem W3_src (c : Dev nD) :
    W3 m ρ c (Proc.devRef .tc main_v5) = Cert.ReferenceIdeal.Spec.srcOf (F := F) (m ((c : Thread nD τ).loc main_arg1)) :=
  (show W3 m ρ c (Proc.devRef .tc main_v5) = W2 m ρ c (Proc.devRef .tc main_v5) by keeps hostOps0_2).trans (W2_src m ρ c)
theorem W3_dst (c : Dev nD) :
    W3 m ρ c (Proc.devRef .tc main_v6) = Cert.ReferenceIdeal.Spec.dstOf (F := F) (m ((c : Thread nD τ).loc main_arg1)) :=
  (show W3 m ρ c (Proc.devRef .tc main_v6) = W2 m ρ c (Proc.devRef .tc main_v6) by keeps hostOps0_2).trans (W2_dst m ρ c)

attribute [local irreducible] Host.gather Host.scatterAdd concatenate in
/-- The degrees. -/
theorem W1_deg (c : Dev nD) :
    W1 m ρ c (Proc.devRef .tc main_v10)
      = Cert.ReferenceIdeal.Spec.degOf (F := F) (Cert.ReferenceIdeal.Spec.dstOf (F := F) (m ((c : Thread nD τ).loc main_arg1))) := by
  show StableHlo.after hostOps0 (W0 m ρ c) (Proc.devRef .tc main_v10) = _
  open StableHlo in after_results
  rfl

attribute [local irreducible] Host.gather Host.scatterAdd concatenate in
/-- Where the degree is positive. -/
theorem W1_pos (c : Dev nD) :
    W1 m ρ c (Proc.devRef .tc main_v12)
      = cmpf .ogt (Cert.ReferenceIdeal.Spec.degOf (F := F) (Cert.ReferenceIdeal.Spec.dstOf (F := F) (m ((c : Thread nD τ).loc main_arg1))))
          (broadcastInDim S100000 ![] Facts₀.bcast_S_S100000 (constant (F := F) S_ .f32 0x00000000#32)) := by
  show StableHlo.after hostOps0 (W0 m ρ c) (Proc.devRef .tc main_v12) = _
  open StableHlo in after_results
  rfl

attribute [local irreducible] Host.gather Host.scatterAdd concatenate in
/-- The reciprocal square root of the degree. -/
theorem W1_rsqrt (c : Dev nD) :
    W1 m ρ c (Proc.devRef .tc main_v13)
      = Host.rsqrt (Cert.ReferenceIdeal.Spec.degOf (F := F) (Cert.ReferenceIdeal.Spec.dstOf (F := F) (m ((c : Thread nD τ).loc main_arg1)))) := by
  show StableHlo.after hostOps0 (W0 m ρ c) (Proc.devRef .tc main_v13) = _
  open StableHlo in after_results
  rfl

theorem W1_zero (c : Dev nD) : W1 m ρ c (Proc.devRef .tc main_cst_2) = constant (F := F) S_ .f32 0x00000000#32 := by
  show StableHlo.after hostOps0 (W0 m ρ c) (Proc.devRef .tc main_cst_2) = _
  open StableHlo in after_results

attribute [local irreducible] Host.gather Host.scatterAdd concatenate in
/-- The reciprocal square roots of the degrees where positive, 0 elsewhere. -/
theorem W2_dinv (c : Dev nD) :
    W2 m ρ c (Proc.devRef .tc main_v14)
      = Cert.ReferenceIdeal.Spec.dinvOf (F := F) (Cert.ReferenceIdeal.Spec.degOf (F := F)
          (Cert.ReferenceIdeal.Spec.dstOf (F := F) (m ((c : Thread nD τ).loc main_arg1)))) := by
  show StableHlo.after hostOps0_1 (W1 m ρ c) (Proc.devRef .tc main_v14) = _
  have h12 := W1_pos m ρ c
  have h13 := W1_rsqrt m ρ c
  have h0 := W1_zero m ρ c
  generalize W1 m ρ c = V1 at h12 h13 h0 ⊢
  open StableHlo in after_results
  simp only [StableHlo.TRef.ofBuf_toBuf, StableHlo.TRef.toBuf_ofBuf]
  rw [h12, h13, h0]
  rfl

set_option maxHeartbeats 1600000 in
attribute [local irreducible] Host.gather Host.scatterAdd concatenate in
/-- The edge weights. -/
theorem W3_norm (c : Dev nD) :
    W3 m ρ c (Proc.devRef .tc main_v29)
      = Cert.ReferenceIdeal.Spec.normOf (F := F) (Cert.ReferenceIdeal.Spec.srcOf (F := F) (m ((c : Thread nD τ).loc main_arg1)))
          (Cert.ReferenceIdeal.Spec.dstOf (F := F) (m ((c : Thread nD τ).loc main_arg1))) := by
  show StableHlo.after hostOps0_2 (W2 m ρ c) (Proc.devRef .tc main_v29) = _
  have h14 := W2_dinv m ρ c
  have h5 := W2_src m ρ c
  have h6 := W2_dst m ρ c
  generalize W2 m ρ c = V2 at h14 h5 h6 ⊢
  open StableHlo in after_results_simp
  rw [h14, h5, h6]
  rfl

/-! ## What the arguments hold when a stretch or a region reads them -/

/-- Nothing before the first region writes an argument. -/
theorem W3_arg0 (c : Dev nD) : W3 m ρ c (Proc.devRef .tc main_arg0) = m ((c : Thread nD τ).loc main_arg0) :=
  calc W3 m ρ c (Proc.devRef .tc main_arg0)
    _ = W2 m ρ c (Proc.devRef .tc main_arg0) := by keeps hostOps0_2
    _ = W1 m ρ c (Proc.devRef .tc main_arg0) := by keeps hostOps0_1
    _ = W0 m ρ c (Proc.devRef .tc main_arg0) := by keeps hostOps0
    _ = _ := rfl
theorem W3_arg2 (c : Dev nD) : W3 m ρ c (Proc.devRef .tc main_arg2) = m ((c : Thread nD τ).loc main_arg2) :=
  calc W3 m ρ c (Proc.devRef .tc main_arg2)
    _ = W2 m ρ c (Proc.devRef .tc main_arg2) := by keeps hostOps0_2
    _ = W1 m ρ c (Proc.devRef .tc main_arg2) := by keeps hostOps0_1
    _ = W0 m ρ c (Proc.devRef .tc main_arg2) := by keeps hostOps0
    _ = _ := rfl
theorem W3_arg3 (c : Dev nD) : W3 m ρ c (Proc.devRef .tc main_arg3) = m ((c : Thread nD τ).loc main_arg3) :=
  calc W3 m ρ c (Proc.devRef .tc main_arg3)
    _ = W2 m ρ c (Proc.devRef .tc main_arg3) := by keeps hostOps0_2
    _ = W1 m ρ c (Proc.devRef .tc main_arg3) := by keeps hostOps0_1
    _ = W0 m ρ c (Proc.devRef .tc main_arg3) := by keeps hostOps0
    _ = _ := rfl
theorem W3_arg4 (c : Dev nD) : W3 m ρ c (Proc.devRef .tc main_arg4) = m ((c : Thread nD τ).loc main_arg4) :=
  calc W3 m ρ c (Proc.devRef .tc main_arg4)
    _ = W2 m ρ c (Proc.devRef .tc main_arg4) := by keeps hostOps0_2
    _ = W1 m ρ c (Proc.devRef .tc main_arg4) := by keeps hostOps0_1
    _ = W0 m ρ c (Proc.devRef .tc main_arg4) := by keeps hostOps0
    _ = _ := rfl
theorem W3_arg5 (c : Dev nD) : W3 m ρ c (Proc.devRef .tc main_arg5) = m ((c : Thread nD τ).loc main_arg5) :=
  calc W3 m ρ c (Proc.devRef .tc main_arg5)
    _ = W2 m ρ c (Proc.devRef .tc main_arg5) := by keeps hostOps0_2
    _ = W1 m ρ c (Proc.devRef .tc main_arg5) := by keeps hostOps0_1
    _ = W0 m ρ c (Proc.devRef .tc main_arg5) := by keeps hostOps0
    _ = _ := rfl
theorem W3_arg6 (c : Dev nD) : W3 m ρ c (Proc.devRef .tc main_arg6) = m ((c : Thread nD τ).loc main_arg6) :=
  calc W3 m ρ c (Proc.devRef .tc main_arg6)
    _ = W2 m ρ c (Proc.devRef .tc main_arg6) := by keeps hostOps0_2
    _ = W1 m ρ c (Proc.devRef .tc main_arg6) := by keeps hostOps0_1
    _ = W0 m ρ c (Proc.devRef .tc main_arg6) := by keeps hostOps0
    _ = _ := rfl
theorem W3_arg7 (c : Dev nD) : W3 m ρ c (Proc.devRef .tc main_arg7) = m ((c : Thread nD τ).loc main_arg7) :=
  calc W3 m ρ c (Proc.devRef .tc main_arg7)
    _ = W2 m ρ c (Proc.devRef .tc main_arg7) := by keeps hostOps0_2
    _ = W1 m ρ c (Proc.devRef .tc main_arg7) := by keeps hostOps0_1
    _ = W0 m ρ c (Proc.devRef .tc main_arg7) := by keeps hostOps0
    _ = _ := rfl
theorem W3_arg8 (c : Dev nD) : W3 m ρ c (Proc.devRef .tc main_arg8) = m ((c : Thread nD τ).loc main_arg8) :=
  calc W3 m ρ c (Proc.devRef .tc main_arg8)
    _ = W2 m ρ c (Proc.devRef .tc main_arg8) := by keeps hostOps0_2
    _ = W1 m ρ c (Proc.devRef .tc main_arg8) := by keeps hostOps0_1
    _ = W0 m ρ c (Proc.devRef .tc main_arg8) := by keeps hostOps0
    _ = _ := rfl

/-- The first convolution's stretch finds the edges as the stretches before region 0 left them, and the bias as launched. -/
theorem W4_v5 (c : Dev nD) : W4 m ρ c (Proc.devRef .tc main_v5) = W3 m ρ c (Proc.devRef .tc main_v5) := W4_of_ne m ρ c main_v5 (by decide)
theorem W4_v6 (c : Dev nD) : W4 m ρ c (Proc.devRef .tc main_v6) = W3 m ρ c (Proc.devRef .tc main_v6) := W4_of_ne m ρ c main_v6 (by decide)
theorem W4_v29 (c : Dev nD) : W4 m ρ c (Proc.devRef .tc main_v29) = W3 m ρ c (Proc.devRef .tc main_v29) := W4_of_ne m ρ c main_v29 (by decide)
theorem W4_arg3 (c : Dev nD) : W4 m ρ c (Proc.devRef .tc main_arg3) = m ((c : Thread nD τ).loc main_arg3) :=
  (W4_of_ne m ρ c main_arg3 (by decide)).trans (W3_arg3 m ρ c)

/-- A buffer that is no window of any region and that neither later stretch writes is, after region 3, what it
    was after region 0. -/
theorem W9_v5 (c : Dev nD) : W9 m ρ c (Proc.devRef .tc main_v5) = W3 m ρ c (Proc.devRef .tc main_v5) :=
  calc W9 m ρ c (Proc.devRef .tc main_v5)
    _ = W8 m ρ c (Proc.devRef .tc main_v5) := W9_of_ne m ρ c main_v5 (by decide)
    _ = W7 m ρ c (Proc.devRef .tc main_v5) := W8_of_ne m ρ c main_v5 (by decide)
    _ = W6 m ρ c (Proc.devRef .tc main_v5) := by keeps hostOps2
    _ = W5 m ρ c (Proc.devRef .tc main_v5) := W6_of_ne m ρ c main_v5 (by decide)
    _ = W4 m ρ c (Proc.devRef .tc main_v5) := by keeps hostOps1
    _ = _ := W4_v5 m ρ c
theorem W9_v6 (c : Dev nD) : W9 m ρ c (Proc.devRef .tc main_v6) = W3 m ρ c (Proc.devRef .tc main_v6) :=
  calc W9 m ρ c (Proc.devRef .tc main_v6)
    _ = W8 m ρ c (Proc.devRef .tc main_v6) := W9_of_ne m ρ c main_v6 (by decide)
    _ = W7 m ρ c (Proc.devRef .tc main_v6) := W8_of_ne m ρ c main_v6 (by decide)
    _ = W6 m ρ c (Proc.devRef .tc main_v6) := by keeps hostOps2
    _ = W5 m ρ c (Proc.devRef .tc main_v6) := W6_of_ne m ρ c main_v6 (by decide)
    _ = W4 m ρ c (Proc.devRef .tc main_v6) := by keeps hostOps1
    _ = _ := W4_v6 m ρ c
theorem W9_v29 (c : Dev nD) : W9 m ρ c (Proc.devRef .tc main_v29) = W3 m ρ c (Proc.devRef .tc main_v29) :=
  calc W9 m ρ c (Proc.devRef .tc main_v29)
    _ = W8 m ρ c (Proc.devRef .tc main_v29) := W9_of_ne m ρ c main_v29 (by decide)
    _ = W7 m ρ c (Proc.devRef .tc main_v29) := W8_of_ne m ρ c main_v29 (by decide)
    _ = W6 m ρ c (Proc.devRef .tc main_v29) := by keeps hostOps2
    _ = W5 m ρ c (Proc.devRef .tc main_v29) := W6_of_ne m ρ c main_v29 (by decide)
    _ = W4 m ρ c (Proc.devRef .tc main_v29) := by keeps hostOps1
    _ = _ := W4_v29 m ρ c
theorem W9_arg5 (c : Dev nD) : W9 m ρ c (Proc.devRef .tc main_arg5) = m ((c : Thread nD τ).loc main_arg5) :=
  calc W9 m ρ c (Proc.devRef .tc main_arg5)
    _ = W8 m ρ c (Proc.devRef .tc main_arg5) := W9_of_ne m ρ c main_arg5 (by decide)
    _ = W7 m ρ c (Proc.devRef .tc main_arg5) := W8_of_ne m ρ c main_arg5 (by decide)
    _ = W6 m ρ c (Proc.devRef .tc main_arg5) := by keeps hostOps2
    _ = W5 m ρ c (Proc.devRef .tc main_arg5) := W6_of_ne m ρ c main_arg5 (by decide)
    _ = W4 m ρ c (Proc.devRef .tc main_arg5) := by keeps hostOps1
    _ = W3 m ρ c (Proc.devRef .tc main_arg5) := W4_of_ne m ρ c main_arg5 (by decide)
    _ = _ := W3_arg5 m ρ c
/-- The second product's right operand, at region 3's entry, is as launched. -/
theorem W8_arg4 (c : Dev nD) : W8 m ρ c (Proc.devRef .tc main_arg4) = m ((c : Thread nD τ).loc main_arg4) :=
  calc W8 m ρ c (Proc.devRef .tc main_arg4)
    _ = W7 m ρ c (Proc.devRef .tc main_arg4) := W8_of_ne m ρ c main_arg4 (by decide)
    _ = W6 m ρ c (Proc.devRef .tc main_arg4) := by keeps hostOps2
    _ = W5 m ρ c (Proc.devRef .tc main_arg4) := W6_of_ne m ρ c main_arg4 (by decide)
    _ = W4 m ρ c (Proc.devRef .tc main_arg4) := by keeps hostOps1
    _ = W3 m ρ c (Proc.devRef .tc main_arg4) := W4_of_ne m ρ c main_arg4 (by decide)
    _ = _ := W3_arg4 m ρ c
/-- The gain, the offset and the slope, when the stretch after the statistics region reads them, are as launched. -/
theorem W6_arg6 (c : Dev nD) : W6 m ρ c (Proc.devRef .tc main_arg6) = m ((c : Thread nD τ).loc main_arg6) :=
  calc W6 m ρ c (Proc.devRef .tc main_arg6)
    _ = W5 m ρ c (Proc.devRef .tc main_arg6) := W6_of_ne m ρ c main_arg6 (by decide)
    _ = W4 m ρ c (Proc.devRef .tc main_arg6) := by keeps hostOps1
    _ = W3 m ρ c (Proc.devRef .tc main_arg6) := W4_of_ne m ρ c main_arg6 (by decide)
    _ = _ := W3_arg6 m ρ c
theorem W6_arg7 (c : Dev nD) : W6 m ρ c (Proc.devRef .tc main_arg7) = m ((c : Thread nD τ).loc main_arg7) :=
  calc W6 m ρ c (Proc.devRef .tc main_arg7)
    _ = W5 m ρ c (Proc.devRef .tc main_arg7) := W6_of_ne m ρ c main_arg7 (by decide)
    _ = W4 m ρ c (Proc.devRef .tc main_arg7) := by keeps hostOps1
    _ = W3 m ρ c (Proc.devRef .tc main_arg7) := W4_of_ne m ρ c main_arg7 (by decide)
    _ = _ := W3_arg7 m ρ c
theorem W6_arg8 (c : Dev nD) : W6 m ρ c (Proc.devRef .tc main_arg8) = m ((c : Thread nD τ).loc main_arg8) :=
  calc W6 m ρ c (Proc.devRef .tc main_arg8)
    _ = W5 m ρ c (Proc.devRef .tc main_arg8) := W6_of_ne m ρ c main_arg8 (by decide)
    _ = W4 m ρ c (Proc.devRef .tc main_arg8) := by keeps hostOps1
    _ = W3 m ρ c (Proc.devRef .tc main_arg8) := W4_of_ne m ρ c main_arg8 (by decide)
    _ = _ := W3_arg8 m ρ c

/-- The first convolution's result is an input window of the statistics region and of the affine region: both
    leave it as they find it, and the stretch between them does not write it. -/
theorem W6_v46 (c : Dev nD) : W6 m ρ c (Proc.devRef .tc main_v46) = W5 m ρ c (Proc.devRef .tc main_v46) :=
  (W6_arr m ρ c 0).trans (((dat1 (V5 m ρ) c).arrAt_in 0 rfl _).trans (A_eq1 (V5 m ρ) c 0))
theorem W7_v46 (c : Dev nD) : W7 m ρ c (Proc.devRef .tc main_v46) = W5 m ρ c (Proc.devRef .tc main_v46) :=
  (show W7 m ρ c (Proc.devRef .tc main_v46) = W6 m ρ c (Proc.devRef .tc main_v46) by keeps hostOps2).trans (W6_v46 m ρ c)

/-! ## The two convolution stretches -/

set_option maxHeartbeats 1600000 in
attribute [local irreducible] Host.gather Host.scatterAdd in
/-- The stretch after region 0 is the first convolution's aggregation of what region 0 wrote. -/
theorem W5_z (c : Dev nD) :
    W5 m ρ c (Proc.devRef .tc main_v46)
      = Cert.ReferenceIdeal.Spec.agg128 (F := F) (W4 m ρ c (Proc.devRef .tc main_v5)) (W4 m ρ c (Proc.devRef .tc main_v6))
          (W4 m ρ c (Proc.devRef .tc main_v29)) (W4 m ρ c (Proc.devRef .tc main_v30)) (W4 m ρ c (Proc.devRef .tc main_arg3)) := by
  show StableHlo.after hostOps1 (W4 m ρ c) (Proc.devRef .tc main_v46) = _
  open StableHlo in after_results_simp
  rfl

set_option maxHeartbeats 1600000 in
attribute [local irreducible] Host.gather Host.scatterAdd in
/-- The last stretch is the second convolution's aggregation of what region 3 wrote. -/
theorem W10_out (c : Dev nD) :
    W10 m ρ c (Proc.devRef .tc main_v84)
      = Cert.ReferenceIdeal.Spec.agg64 (F := F) (W9 m ρ c (Proc.devRef .tc main_v5)) (W9 m ρ c (Proc.devRef .tc main_v6))
          (W9 m ρ c (Proc.devRef .tc main_v29)) (W9 m ρ c (Proc.devRef .tc main_v68)) (W9 m ρ c (Proc.devRef .tc main_arg5)) := by
  show StableHlo.after hostOps4 (W9 m ρ c) (Proc.devRef .tc main_v84) = _
  open StableHlo in after_results_simp
  rfl

/-! ## The stretch between the statistics region and the affine region -/

set_option maxHeartbeats 1600000 in
theorem W7_scale (c : Dev nD) :
    W7 m ρ c (Proc.devRef .tc main_v64)
      = shapeCast S1x128 (kScale (F := F) (W6 m ρ c (Proc.devRef .tc main_v47_0)) (W6 m ρ c (Proc.devRef .tc main_v47_1))
          (W6 m ρ c (Proc.devRef .tc main_arg6))) shapeCasts_S128_S1x128 := by
  show StableHlo.after hostOps2 (W6 m ρ c) (Proc.devRef .tc main_v64) = _
  open StableHlo in after_results_simp
  rfl

set_option maxHeartbeats 1600000 in
theorem W7_shift (c : Dev nD) :
    W7 m ρ c (Proc.devRef .tc main_v65)
      = shapeCast S1x128 (kShift (F := F) (W6 m ρ c (Proc.devRef .tc main_v47_0)) (W6 m ρ c (Proc.devRef .tc main_v47_1))
          (W6 m ρ c (Proc.devRef .tc main_arg6)) (W6 m ρ c (Proc.devRef .tc main_arg7))) shapeCasts_S128_S1x128 := by
  show StableHlo.after hostOps2 (W6 m ρ c) (Proc.devRef .tc main_v65) = _
  open StableHlo in after_results_simp
  rfl

theorem W7_slope (c : Dev nD) :
    W7 m ρ c (Proc.devRef .tc main_v66) = shapeCast S1x1 (W6 m ρ c (Proc.devRef .tc main_arg8)) shapeCasts_S_S1x1 := by
  show StableHlo.after hostOps2 (W6 m ρ c) (Proc.devRef .tc main_v66) = _
  open StableHlo in after_results_simp
  rfl

end Cert.KernelIdeal.Chain

end
-- ==== Proof.LibPlainDot.lean ====
/-
  A plain matrix product — an [M, K] operand times a [K, N] operand, the left one contracted on its second axis
  and the right one on its first, no batch axis — read at the entry (r, c) over the extended reals: the sum over
  k of the left operand at (r, k) times the right operand at (k, c). Stated once for the on-chip product
  accumulated into a zero splat and once for the host's dot_general, for any dimension record that is the plain
  one, so that both sides of a comparison land on the same sum over `Fin K`.
-/
import Idealize.ShloMosaic.Lib.ValueIdx
import Idealize.ShloMosaic.PureOps.Ideal.Laws

noncomputable section

namespace Cert.PlainDot

open Idealize.ShloMosaic Idealize.ShloMosaic.ValueIdx

variable {M K N : ℕ}

/-- The contraction index of the plain product has one axis, of extent `K`. -/
theorem contr_rank : (DotDims.plain M K N).contr.rank = 1 := rfl
theorem contr_size : (DotDims.plain M K N).contr.size ⟨0, by rw [contr_rank]; exact Nat.one_pos⟩ = K := rfl

/-- The one-coordinate contraction index with coordinate `k`. -/
abbrev cidx (k : Fin K) : (DotDims.plain M K N).contr.Idx := (contrEquiv1 (DotDims.plain M K N) K contr_rank contr_size).symm k

/-- The left operand is read at row `r`, column `k`. -/
theorem lhsIdx_eq (r : Fin M) (c : Fin N) (k : Fin K) :
    (DotDims.plain M K N).lhsIdx (ix2 r c) (cidx k) = ix2 r k := by
  funext a
  apply Fin.ext
  match a with
  | ⟨0, _⟩ => rfl
  | ⟨1, _⟩ =>
    exact ((DotDims.plain M K N).lhsIdx_val_of_single rfl (ix2 r c) (cidx k)).trans
      (contrEquiv1_symm_val (DotDims.plain M K N) K contr_rank contr_size k)

/-- The right operand is read at row `k`, column `c`. -/
theorem rhsIdx_eq (r : Fin M) (c : Fin N) (k : Fin K) :
    (DotDims.plain M K N).rhsIdx (ix2 r c) (cidx k) = ix2 k c := by
  funext a
  apply Fin.ext
  match a with
  | ⟨0, _⟩ =>
    exact ((DotDims.plain M K N).rhsIdx_val_of_single rfl (ix2 r c) (cidx k)).trans
      (contrEquiv1_symm_val (DotDims.plain M K N) K contr_rank contr_size k)
  | ⟨1, _⟩ => rfl

/-- The contraction sum of the plain product, re-indexed over `Fin K`. -/
theorem sum_eq (l : (⟨2, ![M, K]⟩ : Shape).Idx → EReal) (r : (⟨2, ![K, N]⟩ : Shape).Idx → EReal) (p : Fin M) (c : Fin N) :
    (∑ q : (DotDims.plain M K N).contr.Idx, l ((DotDims.plain M K N).lhsIdx (ix2 p c) q) * r ((DotDims.plain M K N).rhsIdx (ix2 p c) q))
      = ∑ k : Fin K, l (ix2 p k) * r (ix2 k c) := by
  rw [← Equiv.sum_comp (contrEquiv1 (DotDims.plain M K N) K contr_rank contr_size).symm]
  refine Finset.sum_congr rfl fun k _ => ?_
  rw [lhsIdx_eq p c k, rhsIdx_eq p c k]

/-- The on-chip product accumulated into the zero splat, at entry `(p, c)`: the plain sum. -/
theorem matmul_zero_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (p : Fin M) (c : Fin N) :
    FloatOps.matmul d prec l r (constant (F := Ideal) ⟨2, ![M, N]⟩ .f32 0x00000000#32) (ix2 p c) = ∑ k : Fin K, l (ix2 p k) * r (ix2 k c) := by
  subst hd
  rw [Ideal.matmul_constant_zero_apply]
  exact sum_eq l r p c

/-- The host's dot_general at entry `(p, c)`: the same plain sum, whatever the precision and the schedule key. -/
theorem dotGeneral_apply {φ₁ φ₂ : FTy} (d : DotDims ⟨2, ![M, K]⟩ ⟨2, ![K, N]⟩ ⟨2, ![M, N]⟩) (hd : d = DotDims.plain M K N)
    (prec : Option ContractPrecision) (sched : HostSchedule) (l : FVec Ideal ⟨2, ![M, K]⟩ φ₁) (r : FVec Ideal ⟨2, ![K, N]⟩ φ₂) (p : Fin M) (c : Fin N) :
    FloatOps.dotGeneral d prec sched l r (ix2 p c) = ∑ k : Fin K, l (ix2 p k) * r (ix2 k c) := by
  subst hd
  rw [Ideal.dotGeneral_apply]
  exact sum_eq l r p c

end Cert.PlainDot

end
-- ==== Proof.KerMatmul0.lean ====
/-
  The first matrix-product region. Its grid has twenty points; point t stages rows 5000·t … 5000·t + 4999 of the
  [100000,128] left array and the whole [128,128] right array, and stores into the same rows of the output array
  the product of the two staged blocks accumulated into zero (the change of float format on the way in is the
  identity on the extended reals). Row r of the output is therefore written once, by point r / 5000, and ends
  holding the sums over k of left(r, k) · right(k, q): the output array is the product array of the two operand
  arrays as the region found them.
-/
import proofs.«152145_j6485400617795_1_alg».proof.Proof.Gen.KernelIdeal.Frame
import proofs.«152145_j6485400617795_1_alg».proof.Proof.LibPlainDot
import Idealize.ShloMosaic.Lib.Pipeline.Value

noncomputable section

namespace Cert.KernelIdeal.Regions

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The zero offsets of a whole-block access, however they are spelt. -/
theorem mm0_hz : (![0, 0] : Fin 2 → Nat) = fun _ => 0 := funext fun a => by fin_cases a <;> rfl

/-- The product of a [100000,128] array with a [128,128] array: entry (p, q) is the sum over k of a(p,k)·b(k,q). -/
def prod0 (a : S100000x128.Idx → EReal) (b : S128x128.Idx → EReal) : S100000x128.Idx → EReal :=
  fun i => ∑ k : Fin 128, a (ix2 (i 0 : Fin 100000) k) * b (ix2 k (i 1 : Fin 128))

/-- The stored block at an entry: the change of format is the identity on the extended reals, and the product
    accumulated into zero is the plain sum over the contracted axis. -/
theorem mm0_pay_apply (x0 : Vec Ideal S5000x128 .f32) (x1 : Vec Ideal S128x128 .f32) (p : Fin 5000) (q : Fin 128) :
    k0_pay1 x0 x1 (ix2 p q) = ∑ k : Fin 128, x0 (ix2 p k) * x1 (ix2 k q) := by
  unfold k0_pay1
  refine (Cert.PlainDot.matmul_zero_apply _ rfl none _ _ p q).trans ?_
  rfl

/-- When row `y 0` of the left block is row `i 0` of `a` and the right block is `b` (with `y 1 = i 1`), the stored
    block's entry `y` is the product array's entry `i`. -/
theorem mm0_pay_block (x0 : Vec Ideal S5000x128 .f32) (x1 : Vec Ideal S128x128 .f32)
    (a : S100000x128.Idx → EReal) (b : S128x128.Idx → EReal) (i : S100000x128.Idx) (y : S5000x128.Idx)
    (h0 : ∀ k : Fin 128, x0 (ix2 (y 0 : Fin 5000) k) = a (ix2 (i 0 : Fin 100000) k))
    (h1 : ∀ k : Fin 128, x1 (ix2 k (y 1 : Fin 128)) = b (ix2 k (i 1 : Fin 128))) :
    k0_pay1 x0 x1 y = prod0 a b i := by
  obtain ⟨p, q, rfl⟩ : ∃ (p : Fin 5000) (q : Fin 128), y = ix2 p q := ⟨y 0, y 1, eq_ix2 y⟩
  rw [mm0_pay_apply]
  unfold prod0
  exact Finset.sum_congr rfl fun k _ => by rw [h0 k, h1 k]

/-- The printed index maps over the grid: the left operand's block and the output's block are the same rows,
    the right operand's block is the whole array, and point `t` writes row block `t`. -/
theorem mm0_idx_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

/-- A block of the output array read through the write-back's cut: entry by entry, over the block's literal index type. -/
theorem mm0_cut_eq_read (t : Fin cfg0.N) (f : Vec Ideal S5000x128 .f32) (G : S100000x128.Idx → EReal)
    (h : ∀ y : S5000x128.Idx, f y = G (((cfg0.win 2).blk t).view.emb y)) :
    (cfg0.win 2).cut (grid0.coords t) f = ((cfg0.win 2).blk t).view.read (Elt Ideal) G :=
  funext fun j => h j

/-- Row `y 0`, column `k` of the left operand's block at point `t` sits in its array on the row where entry `y` of the
    output's block sits in the output array, at column `k`. -/
theorem mm0_emb_row (t : Fin cfg0.N) (y : S5000x128.Idx) (k : Fin 128) :
    (((cfg0.win 0).blk t).view.emb (ix2 (y 0 : Fin 5000) k) : S100000x128.Idx)
      = ix2 ((((cfg0.win 2).blk t).view.emb y : S100000x128.Idx) 0 : Fin 100000) k := by
  obtain ⟨e0, e1, e2, e3, e4, e5⟩ := mm0_idx_facts t
  funext a; apply Fin.ext
  match a with
  | ⟨0, _⟩ => show win0_0.index t (0 : Fin 2) * 5000 + 1 * (y 0).val = win0_2.index t (0 : Fin 2) * 5000 + 1 * (y 0).val; omega
  | ⟨1, _⟩ => show win0_0.index t (1 : Fin 2) * 128 + 1 * k.val = k.val; omega

/-- The right operand's block at any point is its whole array, and entry `y` of the output's block sits in column `y 1`. -/
theorem mm0_emb_col (t : Fin cfg0.N) (y : S5000x128.Idx) (k : Fin 128) :
    (((cfg0.win 1).blk t).view.emb (ix2 k (y 1 : Fin 128)) : S128x128.Idx)
      = ix2 k ((((cfg0.win 2).blk t).view.emb y : S100000x128.Idx) 1 : Fin 128) := by
  obtain ⟨e0, e1, e2, e3, e4, e5⟩ := mm0_idx_facts t
  funext a; apply Fin.ext
  match a with
  | ⟨0, _⟩ => show win0_1.index t (0 : Fin 2) * 128 + 1 * k.val = k.val; omega
  | ⟨1, _⟩ => show win0_1.index t (1 : Fin 2) * 128 + 1 * (y 1).val = win0_2.index t (1 : Fin 2) * 128 + 1 * (y 1).val; omega

/-- What point `t` writes back is block `t` of the product array. -/
theorem mm0_flushed_eq (c : Dev nD) (t : Fin cfg0.N) :
    (dat0 V c).flushed 2 t = ((cfg0.win 2).blk t).view.read (Elt Ideal) (prod0 (V c main_arg0) (V c main_arg2)) := by
  show (cfg0.win 2).cut (grid0.coords t) ((dat0 V c).after 2 t) = _
  rw [after0_2]
  unfold out0_2
  rw [View.canon_unit_zero mm0_hz]
  simp only [View.ld_unit_zero (S := S5000x128) mm0_hz, View.ld_unit_zero (S := S128x128) mm0_hz]
  refine mm0_cut_eq_read t _ _ fun y => ?_
  refine mm0_pay_block (iblk0 V c 0 t) (iblk0 V c 1 t) (V c main_arg0) (V c main_arg2) (((cfg0.win 2).blk t).view.emb y) y (fun k => ?_) (fun k => ?_)
  · exact congrArg (V c main_arg0) (mm0_emb_row t y k)
  · exact congrArg (V c main_arg2) (mm0_emb_col t y k)

/-- An index of the output array is in point `t`'s block iff each coordinate is in the block's range on its axis. -/
theorem mm0_mem_blk (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v30).slice (win0_2.rect t)).set ↔ _
  rw [View.set_slice_whole, Rect.mem_set_unit]
  exact Iff.rfl

/-- The twenty row blocks tile the output array: row `r` is in the block of point `r / 5000`, and every point writes back. -/
theorem mm0_cover (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 20 := N_0
  obtain ⟨t, ht⟩ : ∃ t : Fin cfg0.N, t.val = (i 0).val / 5000 := ⟨⟨(i 0).val / 5000, by rw [hN]; omega⟩, rfl⟩
  obtain ⟨e0, e1, e2, e3, e4, e5⟩ := mm0_idx_facts t
  refine ⟨t, flush0_2 t, ?_⟩
  rw [mm0_mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- After the region the output array is the product array of the two operand arrays as the region found them. -/
theorem mm0_final (c : Dev nD) :
    (dat0 (F := Ideal) V c).arrAt 2 cfg0.N = prod0 (V c main_arg0) (V c main_arg2) :=
  (dat0 V c).arrAt_eq_of_cover 2 (prod0 (V c main_arg0) (V c main_arg2)) (fun t _ => mm0_flushed_eq V c t) mm0_cover

/-- Entry (p, q) of the product array: the sum over k of the left array at (p, k) times the right array at (k, q). -/
theorem prod0_apply (a : S100000x128.Idx → EReal) (b : S128x128.Idx → EReal) (p : Fin 100000) (q : Fin 128) :
    prod0 a b (ix2 p q) = ∑ k : Fin 128, a (ix2 p k) * b (ix2 k q) := rfl

/-- Entry (p, q) of the output array after the region: the sum over k of the left array at (p, k) times the right
    array at (k, q), the three arrays read over their literal index types. -/
theorem mm0_arr (c : Dev nD) (p : Fin 100000) (q : Fin 128) :
    (show S100000x128.Idx → EReal from (dat0 (F := Ideal) V c).arrAt 2 cfg0.N) (ix2 p q)
      = ∑ k : Fin 128, (show S100000x128.Idx → EReal from V c main_arg0) (ix2 p k) * (show S128x128.Idx → EReal from V c main_arg2) (ix2 k q) :=
  (congrFun (mm0_final V c) (ix2 p q)).trans (prod0_apply (V c main_arg0) (V c main_arg2) p q)

end Cert.KernelIdeal.Regions

end
-- ==== Proof.KerMatmul3.lean ====
/-
  The second matrix-product region. Its grid has twenty points; point t stages rows 5000·t … 5000·t + 4999 of the
  [100000,128] left array and the whole [128,64] right array, and stores into the same rows of the [100000,64]
  output array the product of the two staged blocks accumulated into zero (the reshape of the left block to its
  own shape and the change of float format on the way in are the identity on the extended reals). Row r of the
  output is therefore written once, by point r / 5000, and ends holding the sums over k of left(r, k) · right(k, q):
  the output array is the product array of the two operand arrays as the region found them.
-/
import proofs.«152145_j6485400617795_1_alg».proof.Proof.Gen.KernelIdeal.Frame
import proofs.«152145_j6485400617795_1_alg».proof.Proof.LibPlainDot
import Idealize.ShloMosaic.Lib.Pipeline.Value

noncomputable section

namespace Cert.KernelIdeal.Regions

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The zero offsets of a whole-block access, however they are spelt. -/
theorem mm3_hz : (![0, 0] : Fin 2 → Nat) = fun _ => 0 := funext fun a => by fin_cases a <;> rfl

/-- The product of a [100000,128] array with a [128,64] array: entry (p, q) is the sum over k of a(p,k)·b(k,q). -/
def prod3 (a : S100000x128.Idx → EReal) (b : S128x64.Idx → EReal) : S100000x64.Idx → EReal :=
  fun i => ∑ k : Fin 128, a (ix2 (i 0 : Fin 100000) k) * b (ix2 k (i 1 : Fin 64))

/-- The stored block at an entry: the reshape to the same shape and the change of format are the identity on the
    extended reals, and the product accumulated into zero is the plain sum over the contracted axis. -/
theorem mm3_pay_apply (x0 : Vec Ideal S5000x128 .f32) (x1 : Vec Ideal S128x64 .f32) (p : Fin 5000) (q : Fin 64) :
    k3_pay1 x0 x1 (ix2 p q) = ∑ k : Fin 128, x0 (ix2 p k) * x1 (ix2 k q) := by
  unfold k3_pay1
  refine (Cert.PlainDot.matmul_zero_apply _ rfl none _ _ p q).trans ?_
  simp only [shapeCast_self]
  rfl

/-- When row `y 0` of the left block is row `i 0` of `a` and the right block is `b` (with `y 1 = i 1`), the stored
    block's entry `y` is the product array's entry `i`. -/
theorem mm3_pay_block (x0 : Vec Ideal S5000x128 .f32) (x1 : Vec Ideal S128x64 .f32)
    (a : S100000x128.Idx → EReal) (b : S128x64.Idx → EReal) (i : S100000x64.Idx) (y : S5000x64.Idx)
    (h0 : ∀ k : Fin 128, x0 (ix2 (y 0 : Fin 5000) k) = a (ix2 (i 0 : Fin 100000) k))
    (h1 : ∀ k : Fin 128, x1 (ix2 k (y 1 : Fin 64)) = b (ix2 k (i 1 : Fin 64))) :
    k3_pay1 x0 x1 y = prod3 a b i := by
  obtain ⟨p, q, rfl⟩ : ∃ (p : Fin 5000) (q : Fin 64), y = ix2 p q := ⟨y 0, y 1, eq_ix2 y⟩
  rw [mm3_pay_apply]
  unfold prod3
  exact Finset.sum_congr rfl fun k _ => by rw [h0 k, h1 k]

/-- The printed index maps over the grid: the left operand's block and the output's block are the same rows,
    the right operand's block is the whole array, and point `t` writes row block `t`. -/
theorem mm3_idx_facts : ∀ t : Fin cfg3.N, win3_0.index t (0 : Fin 2) = win3_2.index t (0 : Fin 2)
    ∧ win3_0.index t (1 : Fin 2) = 0
    ∧ win3_1.index t (0 : Fin 2) = 0
    ∧ win3_1.index t (1 : Fin 2) = 0
    ∧ win3_2.index t (0 : Fin 2) = t.val
    ∧ win3_2.index t (1 : Fin 2) = 0 :=
  (by decide +kernel : ∀ t : Fin grid3.N, _)

/-- A block of the output array read through the write-back's cut: entry by entry, over the block's literal index type. -/
theorem mm3_cut_eq_read (t : Fin cfg3.N) (f : Vec Ideal S5000x64 .f32) (G : S100000x64.Idx → EReal)
    (h : ∀ y : S5000x64.Idx, f y = G (((cfg3.win 2).blk t).view.emb y)) :
    (cfg3.win 2).cut (grid3.coords t) f = ((cfg3.win 2).blk t).view.read (Elt Ideal) G :=
  funext fun j => h j

/-- Row `y 0`, column `k` of the left operand's block at point `t` sits in its array on the row where entry `y` of the
    output's block sits in the output array, at column `k`. -/
theorem mm3_emb_row (t : Fin cfg3.N) (y : S5000x64.Idx) (k : Fin 128) :
    (((cfg3.win 0).blk t).view.emb (ix2 (y 0 : Fin 5000) k) : S100000x128.Idx)
      = ix2 ((((cfg3.win 2).blk t).view.emb y : S100000x64.Idx) 0 : Fin 100000) k := by
  obtain ⟨e0, e1, e2, e3, e4, e5⟩ := mm3_idx_facts t
  funext a; apply Fin.ext
  match a with
  | ⟨0, _⟩ => show win3_0.index t (0 : Fin 2) * 5000 + 1 * (y 0).val = win3_2.index t (0 : Fin 2) * 5000 + 1 * (y 0).val; omega
  | ⟨1, _⟩ => show win3_0.index t (1 : Fin 2) * 128 + 1 * k.val = k.val; omega

/-- The right operand's block at any point is its whole array, and entry `y` of the output's block sits in column `y 1`. -/
theorem mm3_emb_col (t : Fin cfg3.N) (y : S5000x64.Idx) (k : Fin 128) :
    (((cfg3.win 1).blk t).view.emb (ix2 k (y 1 : Fin 64)) : S128x64.Idx)
      = ix2 k ((((cfg3.win 2).blk t).view.emb y : S100000x64.Idx) 1 : Fin 64) := by
  obtain ⟨e0, e1, e2, e3, e4, e5⟩ := mm3_idx_facts t
  funext a; apply Fin.ext
  match a with
  | ⟨0, _⟩ => show win3_1.index t (0 : Fin 2) * 128 + 1 * k.val = k.val; omega
  | ⟨1, _⟩ => show win3_1.index t (1 : Fin 2) * 64 + 1 * (y 1).val = win3_2.index t (1 : Fin 2) * 64 + 1 * (y 1).val; omega

/-- What point `t` writes back is block `t` of the product array. -/
theorem mm3_flushed_eq (c : Dev nD) (t : Fin cfg3.N) :
    (dat3 V c).flushed 2 t = ((cfg3.win 2).blk t).view.read (Elt Ideal) (prod3 (V c main_v67) (V c main_arg4)) := by
  show (cfg3.win 2).cut (grid3.coords t) ((dat3 V c).after 2 t) = _
  rw [after3_2]
  unfold out3_2
  rw [View.canon_unit_zero mm3_hz]
  simp only [View.ld_unit_zero (S := S5000x128) mm3_hz, View.ld_unit_zero (S := S128x64) mm3_hz]
  refine mm3_cut_eq_read t _ _ fun y => ?_
  refine mm3_pay_block (iblk3 V c 0 t) (iblk3 V c 1 t) (V c main_v67) (V c main_arg4) (((cfg3.win 2).blk t).view.emb y) y (fun k => ?_) (fun k => ?_)
  · exact congrArg (V c main_v67) (mm3_emb_row t y k)
  · exact congrArg (V c main_arg4) (mm3_emb_col t y k)

/-- An index of the output array is in point `t`'s block iff each coordinate is in the block's range on its axis. -/
theorem mm3_mem_blk (t : Fin cfg3.N) (i : S100000x64.Idx) :
    i ∈ ((cfg3.win 2).blk t).view.set ↔ ∀ a : Fin 2, win3_2.index t a * S5000x64.size a ≤ (i a).val ∧ (i a).val < win3_2.index t a * S5000x64.size a + S5000x64.size a := by
  show i ∈ ((View.whole main_v68).slice (win3_2.rect t)).set ↔ _
  rw [View.set_slice_whole, Rect.mem_set_unit]
  exact Iff.rfl

/-- The twenty row blocks tile the output array: row `r` is in the block of point `r / 5000`, and every point writes back. -/
theorem mm3_cover (i : S100000x64.Idx) :
    ∃ t : Fin cfg3.N, (cfg3.win 2).flush t = true ∧ i ∈ ((cfg3.win 2).blk t).view.set := by
  have hi0 : (i 0).val < 100000 := (i 0).isLt
  have hi1 : (i 1).val < 64 := (i 1).isLt
  have hN : cfg3.N = 20 := N_3
  obtain ⟨t, ht⟩ : ∃ t : Fin cfg3.N, t.val = (i 0).val / 5000 := ⟨⟨(i 0).val / 5000, by rw [hN]; omega⟩, rfl⟩
  obtain ⟨e0, e1, e2, e3, e4, e5⟩ := mm3_idx_facts t
  refine ⟨t, flush3_2 t, ?_⟩
  rw [mm3_mem_blk]
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 64 ≤ (i 1).val ∧ (i 1).val < win3_2.index t (1 : Fin 2) * 64 + 64; omega

/-- After the region the output array is the product array of the two operand arrays as the region found them. -/
theorem mm3_final (c : Dev nD) :
    (dat3 (F := Ideal) V c).arrAt 2 cfg3.N = prod3 (V c main_v67) (V c main_arg4) :=
  (dat3 V c).arrAt_eq_of_cover 2 (prod3 (V c main_v67) (V c main_arg4)) (fun t _ => mm3_flushed_eq V c t) mm3_cover

/-- Entry (p, q) of the product array: the sum over k of the left array at (p, k) times the right array at (k, q). -/
theorem prod3_apply (a : S100000x128.Idx → EReal) (b : S128x64.Idx → EReal) (p : Fin 100000) (q : Fin 64) :
    prod3 a b (ix2 p q) = ∑ k : Fin 128, a (ix2 p k) * b (ix2 k q) := rfl

/-- Entry (p, q) of the output array after the region: the sum over k of the left array at (p, k) times the right
    array at (k, q), the three arrays read over their literal index types. -/
theorem mm3_arr (c : Dev nD) (p : Fin 100000) (q : Fin 64) :
    (show S100000x64.Idx → EReal from (dat3 (F := Ideal) V c).arrAt 2 cfg3.N) (ix2 p q)
      = ∑ k : Fin 128, (show S100000x128.Idx → EReal from V c main_v67) (ix2 p k) * (show S128x64.Idx → EReal from V c main_arg4) (ix2 k q) :=
  (congrFun (mm3_final V c) (ix2 p q)).trans (prod3_apply (V c main_v67) (V c main_arg4) p q)

end Cert.KernelIdeal.Regions

end
-- ==== Proof.LibLaneSum.lean ====
/-
  A float sum along ONE axis of a vector, read over the extended reals at an index given by coordinates: it is the
  finite sum over that axis's coordinate of the source at the index with the coordinate put back. Three forms:
  along the last axis of a matrix `[a, b]` (each row's sum), along the last axis of a rank-3 array `[a, c, b]`
  (each row's sum, slab by slab), and along the first axis of a matrix `[a, b]` (each column's sum). Each is the
  general one-axis law with the re-inserted index written by coordinates.
-/
import Idealize.ShloMosaic.PureOps.Ideal.Laws
import Idealize.ShloMosaic.Lib.ValueIdx

namespace Cert.LaneSum

open Idealize.ShloMosaic Idealize.ShloMosaic.ValueIdx

variable {φ : FTy}

/-- The sum of row `i` of a matrix: over the column coordinate. -/
theorem sum_last2 {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ d : Fin b, src (ix2 i d) := by
  refine (Ideal.multiReduction_add_single src acc h hφ hacc (ix1 i)).trans ?_
  refine Finset.sum_congr rfl fun d _ => ?_
  exact congrArg src (funext fun ax => Fin.ext (by match ax with | ⟨0, _⟩ => rfl | ⟨1, _⟩ => rfl))

/-- The sum of row `(i, j)` of a rank-3 array: over the last coordinate. -/
theorem sum_last3 {a c b : ℕ} (src : FVec Ideal ⟨3, ![a, c, b]⟩ φ) (acc : BitVec φ.bits)
    (h : (⟨3, ![a, c, b]⟩ : Shape).Reduces [2] ⟨2, ![a, c]⟩) (hφ : FKind.Formats φ) (hacc : acc = FKind.add.neutral φ hφ)
    (i : Fin a) (j : Fin c) :
    multiReduction .add [2] ⟨2, ![a, c]⟩ src acc h hφ hacc (ix2 i j) = ∑ d : Fin b, src (ix3 i j d) := by
  refine (Ideal.multiReduction_add_single src acc h hφ hacc (ix2 i j)).trans ?_
  refine Finset.sum_congr rfl fun d _ => ?_
  exact congrArg src (funext fun ax => Fin.ext (by match ax with | ⟨0, _⟩ => rfl | ⟨1, _⟩ => rfl | ⟨2, _⟩ => rfl))

/-- The sum of column `j` of a matrix: over the row coordinate. -/
theorem sum_first2 {a b : ℕ} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (j : Fin b) :
    multiReduction .add [0] ⟨1, ![b]⟩ src acc h hφ hacc (ix1 j) = ∑ i : Fin a, src (ix2 i j) := by
  refine (Ideal.multiReduction_add_single src acc h hφ hacc (ix1 j)).trans ?_
  refine Finset.sum_congr rfl fun i _ => ?_
  exact congrArg src (funext fun ax => Fin.ext (by match ax with | ⟨0, _⟩ => rfl | ⟨1, _⟩ => rfl))

end Cert.LaneSum
-- ==== Proof.LibBlockSums.lean ====
/-
  Two laws of finite sums in an additive commutative monoid (no finiteness of the values is needed, so they
  hold in the extended reals as they stand): a sum over n·b indices is the sum over the n blocks of the sums
  within each block, and an accumulator that adds one term per step holds the partial sum.
-/
import Idealize.ShloMosaic.PureOps.Ideal
import Mathlib.Algebra.BigOperators.Fin
import Mathlib.Logic.Equiv.Fin.Basic

open scoped BigOperators

namespace Cert.BlockSums

/-- The `j`-th index of block `t`, among `n` blocks of `b` indices each, is below `n * b`. -/
theorem blk_lt {n b : ℕ} (t : Fin n) (j : Fin b) : t.val * b + j.val < n * b :=
  calc t.val * b + j.val < t.val * b + b := Nat.add_lt_add_left j.isLt _
    _ = (t.val + 1) * b := (Nat.succ_mul _ _).symm
    _ ≤ n * b := Nat.mul_le_mul_right b t.isLt

/-- a sum over n·b indices is the sum over n blocks of the sums over each block's b indices -/
theorem sum_blocks {M : Type*} [AddCommMonoid M] (n b : ℕ) (f : Fin (n * b) → M) :
    ∑ i : Fin (n * b), f i = ∑ t : Fin n, ∑ j : Fin b, f ⟨t.val * b + j.val, blk_lt t j⟩ := by
  rw [← Equiv.sum_comp (finProdFinEquiv (m := n) (n := b)) f, Fintype.sum_prod_type]
  refine Finset.sum_congr rfl fun t _ => Finset.sum_congr rfl fun j _ => ?_
  refine congrArg f (Fin.ext ?_)
  show j.val + b * t.val = t.val * b + j.val
  rw [Nat.mul_comm, Nat.add_comm]

/-- 4096 indices are 8 blocks of 512. -/
theorem sum_blocks_4096 {M : Type*} [AddCommMonoid M] (f : Fin 4096 → M) :
    ∑ i : Fin 4096, f i = ∑ t : Fin 8, ∑ j : Fin 512, f ⟨t.val * 512 + j.val, by
      have := t.isLt; have := j.isLt; omega⟩ :=
  sum_blocks 8 512 f

/-- 16384 indices are 16 blocks of 1024. -/
theorem sum_blocks_16384 {M : Type*} [AddCommMonoid M] (f : Fin 16384 → M) :
    ∑ k : Fin 16384, f k = ∑ t : Fin 16, ∑ j : Fin 1024, f ⟨t.val * 1024 + j.val, by
      have := t.isLt; have := j.isLt; omega⟩ :=
  sum_blocks 16 1024 f

/-- an accumulator that starts at zero-plus-first-block and adds one block per step holds the sum of the blocks so far -/
theorem acc_eq_sum {M : Type*} [AddCommMonoid M] (p : ℕ → M) (acc : ℕ → M) (h0 : acc 0 = 0 + p 0)
    (hs : ∀ n, acc (n + 1) = acc n + p (n + 1)) (n : ℕ) :
    acc n = ∑ k ∈ Finset.range (n + 1), p k := by
  induction n with
  | zero => rw [h0, zero_add, Finset.sum_range_one]
  | succ n ih => rw [Finset.sum_range_succ _ (n + 1), hs, ih]

/-- after the last step the accumulator holds the sum of all the blocks -/
theorem acc_last {M : Type*} [AddCommMonoid M] (N : ℕ) (p : ℕ → M) (acc : ℕ → M) (h0 : acc 0 = 0 + p 0)
    (hs : ∀ n, acc (n + 1) = acc n + p (n + 1)) :
    acc N = ∑ t : Fin (N + 1), p t.val := by
  rw [acc_eq_sum p acc h0 hs N, Finset.sum_range]

end Cert.BlockSums
-- ==== Proof.KerStats.lean ====
/-
  The column-statistics region, read as values at the extended reals.

  The region walks the 100000 x 128 array in twenty blocks of 5000 rows and keeps two rows of 128 accumulators.  At the
  first block both rows are cleared and then receive, column by column, the block's sum and the block's sum of squares;
  at each later block the same two sums are added to what the rows already hold.  The accumulators' block never moves
  and is written back once, after the last block.  Over the extended reals addition is commutative and associative with
  no side condition, so the running sum after block n is the sum of the shares of blocks 0 … n, and after the last block
  it is the sum over all 100000 rows: 100000 rows are twenty blocks of 5000.
-/
import proofs.«152145_j6485400617795_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic
import proofs.«152145_j6485400617795_1_alg».proof.Proof.LibLaneSum
import proofs.«152145_j6485400617795_1_alg».proof.Proof.LibBlockSums

noncomputable section

namespace Cert.KernelIdeal.Regions

open Cert.KernelIdeal Idealize.ShloMosaic Idealize.ShloMosaic.TcCoe Idealize.SL.Sem
open Idealize.ShloMosaic.ValueIdx
open Idealize.ShloMosaic.Pipeline (Dat)

open Idealize.ShloMosaic.Tactic

theorem hz1 : (![0, 0] : Fin 2 → Nat) = fun _ => 0 := funext fun a => by fin_cases a <;> rfl

/-! ## What one grid point leaves in the two accumulators -/

/-- At a later point the first accumulator holds what it held plus the block's column sums. -/
theorem stats_B_1 (c : Dev nD) (i : grid1.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (hc : ¬Gen.cond1_0 i) (x : Vec Ideal S5000x128 .f32) (xo1 xo2 : Vec Ideal S1x128 .f32) :
    Gen.out1_B_1 c i a1 h1 a2 h2 a3 h3 hc x xo1 xo2 = Gen.k1_pay4 x xo1 := by
  unfold Gen.out1_B_1
  rw [View.read_writes_eq_canon _ _ _ (Gen.cover1_B_1 c i a1 h1 a2 h2 a3 h3 hc x xo1 xo2)]
  unfold Gen.kernelRun1_B
  dsimp only
  rw [View.canon_unit_zero hz1]
  simp only [View.readAt_eq_ld, h1.read_unread, h2.read_unread, View.ld_unit_zero (S := S5000x128) hz1,
    View.ld_unit_zero (S := S1x128) hz1]

/-- At a later point the second accumulator holds what it held plus the block's column sums of squares. -/
theorem stats_B_2 (c : Dev nD) (i : grid1.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (hc : ¬Gen.cond1_0 i) (x : Vec Ideal S5000x128 .f32) (xo1 xo2 : Vec Ideal S1x128 .f32) :
    Gen.out1_B_2 c i a1 h1 a2 h2 a3 h3 hc x xo1 xo2 = Gen.k1_pay5 x xo2 := by
  unfold Gen.out1_B_2
  rw [View.read_writes_eq_canon _ _ _ (Gen.cover1_B_2 c i a1 h1 a2 h2 a3 h3 hc x xo1 xo2)]
  unfold Gen.kernelRun1_B
  dsimp only
  rw [View.canon_unit_zero hz1]
  simp only [View.readAt_eq_ld, h1.read_unread, h3.read_unread, View.ld_unit_zero (S := S5000x128) hz1,
    View.ld_unit_zero (S := S1x128) hz1]

/-- At the first point the first accumulator is cleared and then receives the block's column sums. -/
theorem stats_A_1 (c : Dev nD) (i : grid1.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (hc : Gen.cond1_0 i) (x : Vec Ideal S5000x128 .f32) :
    Gen.out1_A_1 c i a1 h1 a2 h2 a3 h3 hc x = Gen.k1_pay4 x (Gen.k1_pay1 (F := Ideal)) := by
  unfold Gen.out1_A_1
  rw [View.read_writes_eq_canon _ _ _ (Gen.cover1_A_1 c i a1 h1 a2 h2 a3 h3 hc x)]
  unfold Gen.kernelRun1_A
  dsimp only
  sl_unfold_words
  rw [View.canon_cons_unit_zero (S := S1x128) hz1, View.readCov_unit_zero (S := S1x128) _ hz1]
  simp only [View.readAt_eq_ld, h1.read_unread, View.ld_unit_zero (S := S5000x128) hz1]

/-- At the first point the second accumulator is cleared and then receives the block's column sums of squares. -/
theorem stats_A_2 (c : Dev nD) (i : grid1.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (hc : Gen.cond1_0 i) (x : Vec Ideal S5000x128 .f32) :
    Gen.out1_A_2 c i a1 h1 a2 h2 a3 h3 hc x = Gen.k1_pay5 x (Gen.k1_pay2 (F := Ideal)) := by
  unfold Gen.out1_A_2
  rw [View.read_writes_eq_canon _ _ _ (Gen.cover1_A_2 c i a1 h1 a2 h2 a3 h3 hc x)]
  unfold Gen.kernelRun1_A
  dsimp only
  sl_unfold_words
  rw [View.canon_cons_unit_zero (S := S1x128) hz1, View.readCov_unit_zero (S := S1x128) _ hz1]
  simp only [View.readAt_eq_ld, h1.read_unread, View.ld_unit_zero (S := S5000x128) hz1]

/-! ## The body's arithmetic at one column -/

/-- The sum of column `q` of a block of 5000 rows, and of its squares. -/
def blkColSum (x : FVec Ideal S5000x128 .f32) (q : Fin 128) : EReal := ∑ r : Fin 5000, x (ix2 r q)
def blkColSumSq (x : FVec Ideal S5000x128 .f32) (q : Fin 128) : EReal := ∑ r : Fin 5000, x (ix2 r q) * x (ix2 r q)

/-- The reduction over the row axis, read at a column. -/
theorem colsum_at (src : FVec Ideal S5000x128 .f32) (hacc : (0x00000000#32 : BitVec 32) = 0x00000000#32) (q : Fin 128) :
    multiReduction (F := Ideal) .add [0] S128 src 0x00000000#32 Gen.reduces_S5000x128_S128 (.inl rfl) hacc (ix1 q)
      = ∑ r : Fin 5000, src (ix2 r q) :=
  Cert.LaneSum.sum_first2 src 0x00000000#32 Gen.reduces_S5000x128_S128 (.inl rfl) hacc q

/-- The first accumulator's update at column `q`: what it held plus the block's column sum. -/
theorem pay4_at (x : FVec Ideal S5000x128 .f32) (xo : FVec Ideal S1x128 .f32) (q : Fin 128) :
    Gen.k1_pay4 (F := Ideal) x xo (ix2 (0 : Fin 1) q) = xo (ix2 (0 : Fin 1) q) + blkColSum x q := by
  have e1 : shapeCast S1x128 xo Gen.shapeCasts_S1x128_S1x128 = xo := shapeCast_self xo _
  have e3 : shapeCast S5000x128 x Gen.shapeCasts_S5000x128_S5000x128 = x := shapeCast_self x _
  unfold Gen.k1_pay4 Gen.k1_pay3 blkColSum
  simp only [addf_apply, e1, e3]
  refine congrArg (xo (ix2 (0 : Fin 1) q) + ·) ?_
  refine (shapeCast_a_1a_apply _ _ (0 : Fin 1) q).trans ?_
  exact colsum_at x rfl q

/-- The second accumulator's update at column `q`: what it held plus the block's column sum of squares. -/
theorem pay5_at (x : FVec Ideal S5000x128 .f32) (xo : FVec Ideal S1x128 .f32) (q : Fin 128) :
    Gen.k1_pay5 (F := Ideal) x xo (ix2 (0 : Fin 1) q) = xo (ix2 (0 : Fin 1) q) + blkColSumSq x q := by
  have e1 : shapeCast S1x128 xo Gen.shapeCasts_S1x128_S1x128 = xo := shapeCast_self xo _
  have e3 : shapeCast S5000x128 x Gen.shapeCasts_S5000x128_S5000x128 = x := shapeCast_self x _
  unfold Gen.k1_pay5 Gen.k1_pay3 blkColSumSq
  simp only [addf_apply, e1, e3]
  refine congrArg (xo (ix2 (0 : Fin 1) q) + ·) ?_
  refine (shapeCast_a_1a_apply _ _ (0 : Fin 1) q).trans ?_
  exact colsum_at (mulf x x) rfl q

/-- The cleared accumulators hold zero. -/
theorem pay1_at (q : Fin 128) : Gen.k1_pay1 (F := Ideal) (ix2 (0 : Fin 1) q) = 0 := Ideal.ofBits_zero_f32
theorem pay2_at (q : Fin 128) : Gen.k1_pay2 (F := Ideal) (ix2 (0 : Fin 1) q) = 0 := Ideal.ofBits_zero_f32

variable (V : (c : Dev nD) → (b : Ref sig .tc) → Buf (Elt Ideal) ((c : Thread nD τ).loc b))

/-! ## The blocks and the whole sums -/

/-- Column `q` of the array as a function of the row. -/
def rowsOf (z : S100000x128.Idx → EReal) (q : Fin 128) : Fin 100000 → EReal := fun p => z (ix2 p q)

/-- The row of column sums: entry `(0, q)` is the sum of column `q` over all 100000 rows. -/
def colSum (z : S100000x128.Idx → EReal) : S1x128.Idx → EReal :=
  fun j => ∑ p : Fin 100000, z (ix2 p (j 1 : Fin 128))

/-- The row of column sums of squares. -/
def colSumSq (z : S100000x128.Idx → EReal) : S1x128.Idx → EReal :=
  fun j => ∑ p : Fin 100000, z (ix2 p (j 1 : Fin 128)) * z (ix2 p (j 1 : Fin 128))

theorem colSum_apply (z : S100000x128.Idx → EReal) (q : Fin 128) :
    colSum z (ix2 (0 : Fin 1) q) = ∑ p : Fin 100000, z (ix2 p q) := rfl
theorem colSumSq_apply (z : S100000x128.Idx → EReal) (q : Fin 128) :
    colSumSq z (ix2 (0 : Fin 1) q) = ∑ p : Fin 100000, z (ix2 p q) * z (ix2 p q) := rfl

/-- Block `k`'s share of a sum over the rows: rows `5000 k … 5000 k + 4999` (nothing past the twenty blocks). -/
def blkPart (f : Fin 100000 → EReal) (k : ℕ) : EReal :=
  if h : k < 20 then ∑ r : Fin 5000, f ⟨k * 5000 + r.val, by have := r.isLt; omega⟩ else 0

theorem blkPart_pos (f : Fin 100000 → EReal) (k : ℕ) (h : k < 20) :
    blkPart f k = ∑ r : Fin 5000, f ⟨k * 5000 + r.val, by have := r.isLt; omega⟩ := dif_pos h

/-- The twenty blocks' shares add up to the sum over all rows. -/
theorem blkPart_total (f : Fin 100000 → EReal) : ∑ k ∈ Finset.range 20, blkPart f k = ∑ p : Fin 100000, f p := by
  rw [Finset.sum_range]
  refine Eq.trans (Finset.sum_congr rfl fun t _ => ?_) (Cert.BlockSums.sum_blocks 20 5000 f).symm
  exact blkPart_pos f t.val t.isLt

/-- The printed index maps over the grid: the row window sits at block `t`, the accumulators' windows never move. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0 :=
  (by decide +kernel : ∀ t : Fin grid1.N, _)

/-- Row `r` of block `t` is row `5000 t + r` of the array. -/
theorem stats_rows_read (c : Dev nD) (t : Fin cfg1.N) (r : Fin 5000) (q : Fin 128) (P : Fin 100000)
    (hP : P.val = t.val * 5000 + r.val) : Gen.iblk1 V c 0 t (ix2 r q) = V c main_v46 (ix2 P q) := by
  obtain ⟨e0, e1, -⟩ := idx_facts1 t
  show V c main_v46 (((cfg1.win 0).blk t).view.emb (ix2 r q)) = V c main_v46 (ix2 P q)
  refine congrArg (V c main_v46) (funext fun a => Fin.ext ?_)
  match a with
  | ⟨0, _⟩ => show win1_0.index t (0 : Fin 2) * 5000 + 1 * r.val = P.val; omega
  | ⟨1, _⟩ => show win1_0.index t (1 : Fin 2) * 128 + 1 * q.val = q.val; omega

/-- The column sums of block `t` are block `t`'s shares of the whole column sums. -/
theorem blk_sums (c : Dev nD) (t : Fin cfg1.N) (q : Fin 128) :
    blkColSum (Gen.iblk1 V c 0 t) q = blkPart (rowsOf (V c main_v46) q) t.val
    ∧ blkColSumSq (Gen.iblk1 V c 0 t) q
        = blkPart (fun p => rowsOf (V c main_v46) q p * rowsOf (V c main_v46) q p) t.val := by
  have ht : t.val < 20 := lt_of_lt_of_eq t.isLt (show cfg1.N = 20 from Gen.N_1)
  have e : ∀ r : Fin 5000, Gen.iblk1 V c 0 t (ix2 r q)
      = V c main_v46 (ix2 (⟨t.val * 5000 + r.val, by have := r.isLt; omega⟩ : Fin 100000) q) :=
    fun r => stats_rows_read V c t r q ⟨t.val * 5000 + r.val, by have := r.isLt; omega⟩ rfl
  constructor
  · refine Eq.trans (Finset.sum_congr rfl fun r _ => ?_) (blkPart_pos _ t.val ht).symm
    exact e r
  · refine Eq.trans (Finset.sum_congr rfl fun r _ => ?_) (blkPart_pos _ t.val ht).symm
    exact congrArg₂ (fun a b : EReal => a * b) (e r) (e r)

/-! ## The accumulators after each point -/

/-- After a first point: cleared, then the block's sums. -/
theorem outs_A (c : Dev nD) (t : Fin cfg1.N) (h0 : t.val % 20 = 0) :
    (Gen.outsAt1 V c t.val t.isLt).1 = Gen.k1_pay4 (Gen.iblk1 V c 0 t) (Gen.k1_pay1 (F := Ideal))
    ∧ (Gen.outsAt1 V c t.val t.isLt).2 = Gen.k1_pay5 (Gen.iblk1 V c 0 t) (Gen.k1_pay2 (F := Ideal)) := by
  have e := Gen.outsAt1_A V c t h0
  exact ⟨(congrArg Prod.fst e).trans (stats_A_1 c (grid1.coords t) (Gen.ms1_0 t) (Gen.hs1_0 t) (Gen.ms1_1 t) (Gen.hs1_1 t)
      (Gen.ms1_2 t) (Gen.hs1_2 t) ((Gen.hcond1_0 t).mpr h0) (Gen.iblk1 V c 0 t)),
    (congrArg Prod.snd e).trans (stats_A_2 c (grid1.coords t) (Gen.ms1_0 t) (Gen.hs1_0 t) (Gen.ms1_1 t) (Gen.hs1_1 t)
      (Gen.ms1_2 t) (Gen.hs1_2 t) ((Gen.hcond1_0 t).mpr h0) (Gen.iblk1 V c 0 t))⟩

/-- After a later point: what the point before left, plus the block's sums. -/
theorem outs_B (c : Dev nD) (t : Fin cfg1.N) (h0 : ¬t.val % 20 = 0) :
    (Gen.outsAt1 V c t.val t.isLt).1
      = Gen.k1_pay4 (Gen.iblk1 V c 0 t) (Gen.outsAt1 V c (t.val - 1) (Nat.lt_of_le_of_lt (Nat.sub_le _ _) t.isLt)).1
    ∧ (Gen.outsAt1 V c t.val t.isLt).2
      = Gen.k1_pay5 (Gen.iblk1 V c 0 t) (Gen.outsAt1 V c (t.val - 1) (Nat.lt_of_le_of_lt (Nat.sub_le _ _) t.isLt)).2 := by
  have e := Gen.outsAt1_B V c t h0
  exact ⟨(congrArg Prod.fst e).trans (stats_B_1 c (grid1.coords t) (Gen.ms1_0 t) (Gen.hs1_0 t) (Gen.ms1_1 t) (Gen.hs1_1 t)
      (Gen.ms1_2 t) (Gen.hs1_2 t) (fun h => h0 ((Gen.hcond1_0 t).mp h)) (Gen.iblk1 V c 0 t)
      (Gen.outsAt1 V c (t.val - 1) (Nat.lt_of_le_of_lt (Nat.sub_le _ _) t.isLt)).1
      (Gen.outsAt1 V c (t.val - 1) (Nat.lt_of_le_of_lt (Nat.sub_le _ _) t.isLt)).2),
    (congrArg Prod.snd e).trans (stats_B_2 c (grid1.coords t) (Gen.ms1_0 t) (Gen.hs1_0 t) (Gen.ms1_1 t) (Gen.hs1_1 t)
      (Gen.ms1_2 t) (Gen.hs1_2 t) (fun h => h0 ((Gen.hcond1_0 t).mp h)) (Gen.iblk1 V c 0 t)
      (Gen.outsAt1 V c (t.val - 1) (Nat.lt_of_le_of_lt (Nat.sub_le _ _) t.isLt)).1
      (Gen.outsAt1 V c (t.val - 1) (Nat.lt_of_le_of_lt (Nat.sub_le _ _) t.isLt)).2)⟩

/-- After point `n` the accumulators hold, at column `q`, the shares of blocks `0 … n`. -/
theorem acc_inv (c : Dev nD) (q : Fin 128) : ∀ (n : ℕ) (h : n < cfg1.N),
    (Gen.outsAt1 V c n h).1 (ix2 (0 : Fin 1) q) = ∑ k ∈ Finset.range (n + 1), blkPart (rowsOf (V c main_v46) q) k
    ∧ (Gen.outsAt1 V c n h).2 (ix2 (0 : Fin 1) q)
        = ∑ k ∈ Finset.range (n + 1), blkPart (fun p => rowsOf (V c main_v46) q p * rowsOf (V c main_v46) q p) k
  | 0, h => by
    obtain ⟨e1, e2⟩ := outs_A V c ⟨0, h⟩ rfl
    obtain ⟨b1, b2⟩ := blk_sums V c ⟨0, h⟩ q
    rw [Finset.sum_range_one, Finset.sum_range_one]
    constructor
    · refine (congrFun e1 _).trans ?_
      refine (pay4_at (Gen.iblk1 V c 0 ⟨0, h⟩) (Gen.k1_pay1 (F := Ideal)) q).trans ?_
      rw [pay1_at, zero_add]
      exact b1
    · refine (congrFun e2 _).trans ?_
      refine (pay5_at (Gen.iblk1 V c 0 ⟨0, h⟩) (Gen.k1_pay2 (F := Ideal)) q).trans ?_
      rw [pay2_at, zero_add]
      exact b2
  | n + 1, h => by
    have hN : cfg1.N = 20 := Gen.N_1
    have hB : ¬(⟨n + 1, h⟩ : Fin cfg1.N).val % 20 = 0 := by dsimp only; omega
    obtain ⟨e1, e2⟩ := outs_B V c ⟨n + 1, h⟩ hB
    obtain ⟨i1, i2⟩ := acc_inv c q n (Nat.lt_of_succ_lt h)
    obtain ⟨b1, b2⟩ := blk_sums V c ⟨n + 1, h⟩ q
    rw [Finset.sum_range_succ _ (n + 1), Finset.sum_range_succ _ (n + 1)]
    constructor
    · refine (congrFun e1 _).trans ?_
      refine (pay4_at (Gen.iblk1 V c 0 ⟨n + 1, h⟩) (Gen.outsAt1 V c n (Nat.lt_of_succ_lt h)).1 q).trans ?_
      exact congrArg₂ (fun a b : EReal => a + b) i1 b1
    · refine (congrFun e2 _).trans ?_
      refine (pay5_at (Gen.iblk1 V c 0 ⟨n + 1, h⟩) (Gen.outsAt1 V c n (Nat.lt_of_succ_lt h)).2 q).trans ?_
      exact congrArg₂ (fun a b : EReal => a + b) i2 b2

/-! ## The two result arrays after the region -/

/-- The grid has twenty points; the last one is point 19. -/
theorem last_lt : 19 < cfg1.N := by rw [show cfg1.N = 20 from Gen.N_1]; decide

theorem last_point : ∃ t : Fin cfg1.N, t.val = 19 := ⟨⟨19, last_lt⟩, rfl⟩

/-- The accumulators' contents depend on the point only through its number. -/
theorem outsAt_congr (c : Dev nD) (n n' : ℕ) (h : n < cfg1.N) (h' : n' < cfg1.N) (e : n = n') :
    Gen.outsAt1 V c n h = Gen.outsAt1 V c n' h' := by
  subst e; rfl

/-- The one write-back of the first accumulator, at the last point, writes what that point left: the block never moves
    and is the whole array. -/
theorem stats_flushed_1 (c : Dev nD) (t : Fin cfg1.N) (hf : (cfg1.win 1).flush t = true) :
    (Gen.dat1 (F := Ideal) V c).flushed 1 t
      = ((cfg1.win 1).blk t).view.read (Elt Ideal) (Gen.outsAt1 V c 19 last_lt).1 := by
  have hN : cfg1.N = 20 := Gen.N_1
  have h19 : t.val = 19 := by have := (Gen.flush1_1 t).mp hf; have := t.isLt; omega
  obtain ⟨-, -, e0, e1, -⟩ := idx_facts1 t
  show (cfg1.win 1).cut (grid1.coords t) ((Gen.dat1 (F := Ideal) V c).after 1 t) = _
  rw [Gen.after1_1, outsAt_congr V c t.val 19 t.isLt last_lt h19]
  funext j
  have hj0 : (j 0).val < 1 := (j 0).isLt
  show (Gen.outsAt1 V c 19 last_lt).1 ((cfg1.win 1).xinj (grid1.coords t) j)
    = (Gen.outsAt1 V c 19 last_lt).1 (((cfg1.win 1).blk t).view.emb j)
  refine congrArg (Gen.outsAt1 V c 19 last_lt).1 (funext fun a => Fin.ext ?_)
  match a with
  | ⟨0, _⟩ => show (j 0).val = win1_1.index t (0 : Fin 2) * 1 + 1 * (j 0).val; omega
  | ⟨1, _⟩ => show (j 1).val = win1_1.index t (1 : Fin 2) * 128 + 1 * (j 1).val; omega

theorem stats_flushed_2 (c : Dev nD) (t : Fin cfg1.N) (hf : (cfg1.win 2).flush t = true) :
    (Gen.dat1 (F := Ideal) V c).flushed 2 t
      = ((cfg1.win 2).blk t).view.read (Elt Ideal) (Gen.outsAt1 V c 19 last_lt).2 := by
  have hN : cfg1.N = 20 := Gen.N_1
  have h19 : t.val = 19 := by have := (Gen.flush1_2 t).mp hf; have := t.isLt; omega
  obtain ⟨-, -, -, -, e0, e1⟩ := idx_facts1 t
  show (cfg1.win 2).cut (grid1.coords t) ((Gen.dat1 (F := Ideal) V c).after 2 t) = _
  rw [Gen.after1_2, outsAt_congr V c t.val 19 t.isLt last_lt h19]
  funext j
  have hj0 : (j 0).val < 1 := (j 0).isLt
  show (Gen.outsAt1 V c 19 last_lt).2 ((cfg1.win 2).xinj (grid1.coords t) j)
    = (Gen.outsAt1 V c 19 last_lt).2 (((cfg1.win 2).blk t).view.emb j)
  refine congrArg (Gen.outsAt1 V c 19 last_lt).2 (funext fun a => Fin.ext ?_)
  match a with
  | ⟨0, _⟩ => show (j 0).val = win1_2.index t (0 : Fin 2) * 1 + 1 * (j 0).val; omega
  | ⟨1, _⟩ => show (j 1).val = win1_2.index t (1 : Fin 2) * 128 + 1 * (j 1).val; omega

/-- The last point's block covers the first result array. -/
theorem stats_cover_1 (i : S1x128.Idx) :
    ∃ t : Fin cfg1.N, (cfg1.win 1).flush t = true ∧ i ∈ ((cfg1.win 1).blk t).view.set := by
  have hi0 : (i 0).val < 1 := (i 0).isLt
  have hi1 : (i 1).val < 128 := (i 1).isLt
  obtain ⟨t, ht⟩ := last_point
  obtain ⟨-, -, e0, e1, -⟩ := idx_facts1 t
  refine ⟨t, (Gen.flush1_1 t).mpr (by rw [ht]), ?_⟩
  show i ∈ ((View.whole main_v47_0).slice (win1_1.rect t)).set
  rw [View.set_slice_whole, Rect.mem_set_unit]
  intro a
  match a with
  | ⟨0, _⟩ =>
    show win1_1.index t (0 : Fin 2) * 1 ≤ (i 0).val ∧ (i 0).val < win1_1.index t (0 : Fin 2) * 1 + 1
    omega
  | ⟨1, _⟩ =>
    show win1_1.index t (1 : Fin 2) * 128 ≤ (i 1).val ∧ (i 1).val < win1_1.index t (1 : Fin 2) * 128 + 128
    omega

theorem stats_cover_2 (i : S1x128.Idx) :
    ∃ t : Fin cfg1.N, (cfg1.win 2).flush t = true ∧ i ∈ ((cfg1.win 2).blk t).view.set := by
  have hi0 : (i 0).val < 1 := (i 0).isLt
  have hi1 : (i 1).val < 128 := (i 1).isLt
  obtain ⟨t, ht⟩ := last_point
  obtain ⟨-, -, -, -, e0, e1⟩ := idx_facts1 t
  refine ⟨t, (Gen.flush1_2 t).mpr (by rw [ht]), ?_⟩
  show i ∈ ((View.whole main_v47_1).slice (win1_2.rect t)).set
  rw [View.set_slice_whole, Rect.mem_set_unit]
  intro a
  match a with
  | ⟨0, _⟩ =>
    show win1_2.index t (0 : Fin 2) * 1 ≤ (i 0).val ∧ (i 0).val < win1_2.index t (0 : Fin 2) * 1 + 1
    omega
  | ⟨1, _⟩ =>
    show win1_2.index t (1 : Fin 2) * 128 ≤ (i 1).val ∧ (i 1).val < win1_2.index t (1 : Fin 2) * 128 + 128
    omega

/-- So the result arrays end holding what the last point left in the accumulators. -/
theorem stats_final_1 (c : Dev nD) :
    (Gen.dat1 (F := Ideal) V c).arrAt 1 cfg1.N = (Gen.outsAt1 V c 19 last_lt).1 :=
  (Gen.dat1 (F := Ideal) V c).arrAt_eq_of_cover 1 (Gen.outsAt1 V c 19 last_lt).1 (stats_flushed_1 V c) stats_cover_1

theorem stats_final_2 (c : Dev nD) :
    (Gen.dat1 (F := Ideal) V c).arrAt 2 cfg1.N = (Gen.outsAt1 V c 19 last_lt).2 :=
  (Gen.dat1 (F := Ideal) V c).arrAt_eq_of_cover 2 (Gen.outsAt1 V c 19 last_lt).2 (stats_flushed_2 V c) stats_cover_2

/-- The first result array is the row of column sums of the input array. -/
theorem stats_sum_final (c : Dev nD) : (Gen.dat1 (F := Ideal) V c).arrAt 1 cfg1.N = colSum (V c main_v46) := by
  rw [stats_final_1 V c]
  funext j
  obtain ⟨u, q, rfl⟩ : ∃ (u : Fin 1) (q : Fin 128), j = ix2 u q := ⟨j 0, j 1, eq_ix2 j⟩
  obtain rfl : u = 0 := Subsingleton.elim _ _
  exact ((acc_inv V c q 19 last_lt).1).trans (blkPart_total (rowsOf (V c main_v46) q))

/-- The second result array is the row of column sums of squares of the input array. -/
theorem stats_sumsq_final (c : Dev nD) : (Gen.dat1 (F := Ideal) V c).arrAt 2 cfg1.N = colSumSq (V c main_v46) := by
  rw [stats_final_2 V c]
  funext j
  obtain ⟨u, q, rfl⟩ : ∃ (u : Fin 1) (q : Fin 128), j = ix2 u q := ⟨j 0, j 1, eq_ix2 j⟩
  obtain rfl : u = 0 := Subsingleton.elim _ _
  exact ((acc_inv V c q 19 last_lt).2).trans
    (blkPart_total (fun p => rowsOf (V c main_v46) q p * rowsOf (V c main_v46) q p))

/-- The same, entry by entry. -/
theorem stats_sum (c : Dev nD) (q : Fin 128) :
    (Gen.dat1 (F := Ideal) V c).arrAt 1 cfg1.N (ix2 (0 : Fin 1) q) = colSum (V c main_v46) (ix2 (0 : Fin 1) q) :=
  congrFun (stats_sum_final V c) _

theorem stats_sumsq (c : Dev nD) (q : Fin 128) :
    (Gen.dat1 (F := Ideal) V c).arrAt 2 cfg1.N (ix2 (0 : Fin 1) q) = colSumSq (V c main_v46) (ix2 (0 : Fin 1) q) :=
  congrFun (stats_sumsq_final V c) _

end Cert.KernelIdeal.Regions
end
-- ==== Proof.KerAffine.lean ====
/-
  The affine-and-rectifier region, read as values at the extended reals.

  The region walks the 100000 x 128 array in twenty blocks of 5000 rows.  At every block it multiplies each entry by the
  scale of its column, adds the shift of its column, and keeps the result where it is at least zero and multiplies it by
  the single slope elsewhere.  The scale and shift rows and the slope are whole arrays that never move; the rows written
  are the rows read.  Every entry is therefore a function of the entry of the input array at the same place and of three
  parameters, and the twenty blocks cover the array, so the output array is that function everywhere.
-/
import proofs.«152145_j6485400617795_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Regions

open Cert.KernelIdeal Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl

/-- One entry of the activation: the affine value `z * scale + shift`, kept where it is at least zero and multiplied
    by the slope `a` elsewhere. -/
def act (z s b a : EReal) : EReal :=
  let zz : EReal := z * s + b
  Scalar.select (FloatOps.cmpf (F := Ideal) .oge zz (Scalar.ofBits (F := Ideal) .f32 0x00000000#32)) zz (a * zz)

/-- The whole activation array: entry `(p, q)` uses column `q` of the scale and shift rows and the one slope. -/
def actG (z : S100000x128.Idx → EReal) (sc sh : S1x128.Idx → EReal) (al : S1x1.Idx → EReal) : S100000x128.Idx → EReal :=
  fun i => act (z i) (sc (ix2 (0 : Fin 1) (i 1 : Fin 128))) (sh (ix2 (0 : Fin 1) (i 1 : Fin 128))) (al (ix2 (0 : Fin 1) (0 : Fin 1)))

/-- The body's arithmetic at one entry of a block: the row broadcasts read column `q`, the [1,1] broadcast its one
    entry, the identity reshapes nothing. -/
theorem act_pay (x0 : FVec Ideal S5000x128 .f32) (x1 x2 : FVec Ideal S1x128 .f32) (x3 : FVec Ideal S1x1 .f32)
    (p : Fin 5000) (q : Fin 128) :
    Gen.k2_pay1 (F := Ideal) x0 x1 x2 x3 (ix2 p q)
      = act (x0 (ix2 p q)) (x1 (ix2 (0 : Fin 1) q)) (x2 (ix2 (0 : Fin 1) q)) (x3 (ix2 (0 : Fin 1) (0 : Fin 1))) := by
  have hb1 : broadcastTo S5000x128 x1 Gen.broadcasts_S1x128_S5000x128 (ix2 p q) = x1 (ix2 (0 : Fin 1) q) :=
    broadcastTo_1b_ab_apply x1 _ p q
  have hb2 : broadcastTo S5000x128 x2 Gen.broadcasts_S1x128_S5000x128 (ix2 p q) = x2 (ix2 (0 : Fin 1) q) :=
    broadcastTo_1b_ab_apply x2 _ p q
  have hb3 : broadcastTo S5000x128 x3 Gen.broadcasts_S1x1_S5000x128 (ix2 p q) = x3 (ix2 (0 : Fin 1) (0 : Fin 1)) :=
    broadcastTo_apply x3 _ (ix2 p q) (ix2 (0 : Fin 1) (0 : Fin 1)) fun a => by
      match a with
      | ⟨0, _⟩ => rfl
      | ⟨1, _⟩ => rfl
  unfold Gen.k2_pay1 act
  simp only [shapeCast_self, select_apply, cmpf_apply, addf_apply, mulf_apply, broadcast_apply, hb1, hb2, hb3]

/-- The printed index maps over the grid: the row windows sit at block `t`, the parameter windows never move. -/
theorem idx_facts2 : ∀ t : Fin cfg2.N, win2_0.index t (0 : Fin 2) = t.val ∧ win2_0.index t (1 : Fin 2) = 0
    ∧ win2_4.index t (0 : Fin 2) = t.val ∧ win2_4.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0 :=
  (by decide +kernel : ∀ t : Fin grid2.N, _)

/-- Row `p` of block `t` is row `5000 t + p` of the array. -/
theorem rows_read (c : Dev nD) (t : Fin cfg2.N) (p : Fin 5000) (q : Fin 128) (P : Fin 100000) (hP : P.val = t.val * 5000 + p.val) :
    Gen.iblk2 V c 0 t (ix2 p q) = V c main_v46 (ix2 P q) := by
  obtain ⟨e0, e1, -⟩ := idx_facts2 t
  show V c main_v46 (((cfg2.win 0).blk t).view.emb (ix2 p q)) = V c main_v46 (ix2 P q)
  refine congrArg (V c main_v46) (funext fun a => Fin.ext ?_)
  match a with
  | ⟨0, _⟩ => show win2_0.index t (0 : Fin 2) * 5000 + 1 * p.val = P.val; omega
  | ⟨1, _⟩ => show win2_0.index t (1 : Fin 2) * 128 + 1 * q.val = q.val; omega

/-- A parameter window's one block is the whole parameter array. -/
theorem scale_read (c : Dev nD) (t : Fin cfg2.N) (q : Fin 128) :
    Gen.iblk2 V c 1 t (ix2 (0 : Fin 1) q) = V c main_v64 (ix2 (0 : Fin 1) q) := by
  obtain ⟨-, -, -, -, e0, e1, -⟩ := idx_facts2 t
  show V c main_v64 (((cfg2.win 1).blk t).view.emb (ix2 (0 : Fin 1) q)) = V c main_v64 (ix2 (0 : Fin 1) q)
  refine congrArg (V c main_v64) (funext fun a => Fin.ext ?_)
  match a with
  | ⟨0, _⟩ => show win2_1.index t (0 : Fin 2) * 1 + 1 * 0 = 0; omega
  | ⟨1, _⟩ => show win2_1.index t (1 : Fin 2) * 128 + 1 * q.val = q.val; omega

theorem shift_read (c : Dev nD) (t : Fin cfg2.N) (q : Fin 128) :
    Gen.iblk2 V c 2 t (ix2 (0 : Fin 1) q) = V c main_v65 (ix2 (0 : Fin 1) q) := by
  obtain ⟨-, -, -, -, -, -, e0, e1, -⟩ := idx_facts2 t
  show V c main_v65 (((cfg2.win 2).blk t).view.emb (ix2 (0 : Fin 1) q)) = V c main_v65 (ix2 (0 : Fin 1) q)
  refine congrArg (V c main_v65) (funext fun a => Fin.ext ?_)
  match a with
  | ⟨0, _⟩ => show win2_2.index t (0 : Fin 2) * 1 + 1 * 0 = 0; omega
  | ⟨1, _⟩ => show win2_2.index t (1 : Fin 2) * 128 + 1 * q.val = q.val; omega

theorem slope_read (c : Dev nD) (t : Fin cfg2.N) :
    Gen.iblk2 V c 3 t (ix2 (0 : Fin 1) (0 : Fin 1)) = V c main_v66 (ix2 (0 : Fin 1) (0 : Fin 1)) := by
  obtain ⟨-, -, -, -, -, -, -, -, e0, e1⟩ := idx_facts2 t
  show V c main_v66 (((cfg2.win 3).blk t).view.emb (ix2 (0 : Fin 1) (0 : Fin 1))) = V c main_v66 (ix2 (0 : Fin 1) (0 : Fin 1))
  refine congrArg (V c main_v66) (funext fun a => Fin.ext ?_)
  match a with
  | ⟨0, _⟩ => show win2_3.index t (0 : Fin 2) * 1 + 1 * 0 = 0; omega
  | ⟨1, _⟩ => show win2_3.index t (1 : Fin 2) * 1 + 1 * 0 = 0; omega

/-- What point `t` writes back is block `t` of the activation of the arrays as the region finds them. -/
theorem act_flushed (c : Dev nD) (t : Fin cfg2.N) :
    (Gen.dat2 (F := Ideal) V c).flushed 4 t
      = ((cfg2.win 4).blk t).view.read (Elt Ideal) (actG (V c main_v46) (V c main_v64) (V c main_v65) (V c main_v66)) := by
  show (cfg2.win 4).cut (grid2.coords t) ((Gen.dat2 (F := Ideal) V c).after 4 t) = _
  rw [Gen.after2_4]
  unfold Gen.out2_4
  rw [View.canon_unit_zero hz2]
  simp only [View.ld_unit_zero (S := S5000x128) hz2, View.ld_unit_zero (S := S1x128) hz2, View.ld_unit_zero (S := S1x1) hz2]
  funext j
  have hN : cfg2.N = 20 := Gen.N_2
  have ht : t.val < 20 := hN ▸ t.isLt
  have hj0 : (j 0).val < 5000 := (j 0).isLt
  have hj1 : (j 1).val < 128 := (j 1).isLt
  obtain ⟨-, -, e0, e1, -⟩ := idx_facts2 t
  have hx : (cfg2.win 4).xinj (grid2.coords t) j = ix2 (⟨(j 0).val, hj0⟩ : Fin 5000) (⟨(j 1).val, hj1⟩ : Fin 128) := by
    funext a
    match a with
    | ⟨0, _⟩ => rfl
    | ⟨1, _⟩ => rfl
  have hy : ((cfg2.win 4).blk t).view.emb j
      = ix2 (⟨t.val * 5000 + (j 0).val, by omega⟩ : Fin 100000) (⟨(j 1).val, hj1⟩ : Fin 128) := by
    funext a; apply Fin.ext
    match a with
    | ⟨0, _⟩ => show win2_4.index t (0 : Fin 2) * 5000 + 1 * (j 0).val = t.val * 5000 + (j 0).val; omega
    | ⟨1, _⟩ => show win2_4.index t (1 : Fin 2) * 128 + 1 * (j 1).val = (j 1).val; omega
  show Gen.k2_pay1 (F := Ideal) (Gen.iblk2 V c 0 t) (Gen.iblk2 V c 1 t) (Gen.iblk2 V c 2 t) (Gen.iblk2 V c 3 t) ((cfg2.win 4).xinj (grid2.coords t) j)
    = actG (V c main_v46) (V c main_v64) (V c main_v65) (V c main_v66) (((cfg2.win 4).blk t).view.emb j)
  rw [hx, hy, act_pay]
  exact congr (congr (congr (congrArg act
      (rows_read V c t ⟨(j 0).val, hj0⟩ ⟨(j 1).val, hj1⟩ ⟨t.val * 5000 + (j 0).val, by omega⟩ rfl))
      (scale_read V c t ⟨(j 1).val, hj1⟩)) (shift_read V c t ⟨(j 1).val, hj1⟩)) (slope_read V c t)

/-- An index of the array is in point `t`'s block iff each coordinate is in the block's range on its axis. -/
theorem act_mem_blk (t : Fin cfg2.N) (i : S100000x128.Idx) :
    i ∈ ((cfg2.win 4).blk t).view.set ↔ ∀ a : Fin 2, win2_4.index t a * S5000x128.size a ≤ (i a).val ∧ (i a).val < win2_4.index t a * S5000x128.size a + S5000x128.size a := by
  show i ∈ ((View.whole main_v67).slice (win2_4.rect t)).set ↔ _
  rw [View.set_slice_whole, Rect.mem_set_unit]
  exact Iff.rfl

/-- The twenty row blocks cover the array: row `r` is in block `r / 5000`. -/
theorem act_cover (i : S100000x128.Idx) :
    ∃ t : Fin cfg2.N, (cfg2.win 4).flush t = true ∧ i ∈ ((cfg2.win 4).blk t).view.set := by
  have hN : cfg2.N = 20 := Gen.N_2
  have hi0 : (i 0).val < 100000 := (i 0).isLt
  have hi1 : (i 1).val < 128 := (i 1).isLt
  refine ⟨⟨(i 0).val / 5000, by rw [hN]; omega⟩, Gen.flush2_4 _, ?_⟩
  rw [act_mem_blk]
  obtain ⟨-, -, e0, e1, -⟩ := idx_facts2 ⟨(i 0).val / 5000, by rw [hN]; omega⟩
  intro a
  match a with
  | ⟨0, _⟩ =>
    show win2_4.index _ (0 : Fin 2) * 5000 ≤ (i 0).val ∧ (i 0).val < win2_4.index _ (0 : Fin 2) * 5000 + 5000
    rw [e0]; dsimp only; omega
  | ⟨1, _⟩ =>
    show win2_4.index _ (1 : Fin 2) * 128 ≤ (i 1).val ∧ (i 1).val < win2_4.index _ (1 : Fin 2) * 128 + 128
    rw [e1]; omega

/-- The output array after the region is the activation of the region's input arrays. -/
theorem act_final (c : Dev nD) :
    (Gen.dat2 (F := Ideal) V c).arrAt 4 cfg2.N = actG (V c main_v46) (V c main_v64) (V c main_v65) (V c main_v66) :=
  (Gen.dat2 (F := Ideal) V c).arrAt_eq_of_cover 4 _ (fun t _ => act_flushed V c t) act_cover

/-- The output array, entry by entry. -/
theorem act_arr (c : Dev nD) (p : Fin 100000) (q : Fin 128) :
    (Gen.dat2 (F := Ideal) V c).arrAt 4 cfg2.N (ix2 p q)
      = act (V c main_v46 (ix2 p q)) (V c main_v64 (ix2 (0 : Fin 1) q)) (V c main_v65 (ix2 (0 : Fin 1) q))
          (V c main_v66 (ix2 (0 : Fin 1) (0 : Fin 1))) := by
  rw [act_final V c]
  rfl

/-- The activation of one entry, spelt out. -/
theorem act_eq (z s b a : EReal) :
    act z s b a
      = (let zz : EReal := z * s + b
         Scalar.select (FloatOps.cmpf (F := Ideal) .oge zz (Scalar.ofBits (F := Ideal) .f32 0x00000000#32)) zz (a * zz)) := rfl

end Cert.KernelIdeal.Regions
end
-- ==== Proof.LibBatchNorm.lean ====
/-
  Batch normalisation over the extended reals: the two ways of writing it are one function.

  For a column of n = 10000 finite values y with sum S1 and sum of squares S2, write μ = S1 / n.
  One form takes the variance as S2 / n − μ², folds the reciprocal square root with the gain γ into
  one factor and the offset β with the mean into one summand; the other form takes the variance as
  the mean of the centred squares (y − μ)², centres the value, divides by the square root and then
  applies γ and β. Since n is the number of terms, (1/n) Σ (y − μ)² = (1/n) Σ y² − μ², which is ≥ 0,
  so with ε > 0 both radicands are one positive real v and both forms are
  (y − μ) · γ / √v + β. All operations are those of the ideal float values at one index
  (the division "Ideal.div", "Ideal.rsqrt", "Ideal.sqrt" and the sum, product and difference of the
  extended reals); on coerced reals with a positive radicand and a nonzero divisor they are the real
  operations, so the statement reduces to an identity of real numbers.
-/
import Idealize.ShloMosaic.PureOps.Ideal
import Idealize.ShloMosaic.PureOps.Ideal.Laws

noncomputable section

namespace Cert.BatchNorm

open Idealize.ShloMosaic
open scoped BigOperators

/-! ## The constants -/

/-- The f32 pattern "0x461C4000" denotes the real number 10000 (= (2^23 + 1851392) · 2^(−10)). -/
theorem ofBits_count : (Ideal.ofBits .f32 0x461C4000#32 : EReal) = ((10000 : ℝ) : EReal) := by
  simp [Ideal.ofBits, Ideal.ieee, -EReal.coe_mul]; norm_num

/-- The f32 pattern "0x3727C5AC" denotes a positive real number (10995116 · 2^(−40), about 10⁻⁵). -/
theorem ofBits_eps : ∃ e : ℝ, 0 < e ∧ (Ideal.ofBits .f32 0x3727C5AC#32 : EReal) = (e : EReal) := by
  refine ⟨(10995116 : ℝ) * (2 : ℝ) ^ (-40 : ℤ), by positivity, ?_⟩
  simp [Ideal.ofBits, Ideal.ieee, -EReal.coe_mul]

/-- The all-zero f32 pattern denotes 0. -/
theorem ofBits_zero' : (Ideal.ofBits .f32 0x00000000#32 : EReal) = 0 :=
  Ideal.ofBits_zero_f32

/-- Subtracting zero from the count leaves the count. -/
theorem count_sub_zero :
    (Ideal.ofBits .f32 0x461C4000#32 : EReal) - 0 = Ideal.ofBits .f32 0x461C4000#32 :=
  sub_zero _

/-- The count is positive. -/
theorem count_pos : (0 : EReal) < Ideal.ofBits .f32 0x461C4000#32 := by
  rw [ofBits_count]; exact_mod_cast (by norm_num : (0 : ℝ) < 10000)

/-! ## Finite sums of coerced reals -/

/-- A finite sum of coerced reals is the coerced real sum. -/
theorem coe_sum {ι : Type} (s : Finset ι) (f : ι → ℝ) :
    (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- A finite sum of extended reals that are all coerced reals is a coerced real. -/
theorem exists_real_sum {ι : Type} [Fintype ι] (a : ι → EReal) (ha : ∀ i, ∃ x : ℝ, a i = x) :
    ∃ z : ℝ, (∑ i, a i) = (z : EReal) := by
  choose x hx using ha
  exact ⟨∑ i, x i, by rw [← coe_sum]; exact Finset.sum_congr rfl (fun i _ => hx i)⟩

/-- A finite sum of products of extended reals that are all coerced reals is a coerced real. -/
theorem exists_real_sum_mul {ι : Type} [Fintype ι] (a b : ι → EReal) (ha : ∀ i, ∃ x : ℝ, a i = x)
    (hb : ∀ i, ∃ x : ℝ, b i = x) : ∃ z : ℝ, (∑ i, a i * b i) = (z : EReal) := by
  choose x hx using ha
  choose w hw using hb
  refine ⟨∑ i, x i * w i, ?_⟩
  rw [← coe_sum]
  exact Finset.sum_congr rfl (fun i _ => by rw [hx, hw, EReal.coe_mul])

/-! ## The real identities -/

/-- The mean of the centred squares is the mean of the squares minus the square of the mean, when
    the divisor n is the number of terms. -/
theorem centred_mean_sq {m : ℕ} (y : Fin m → ℝ) (n : ℝ) (hm : (m : ℝ) = n) (hn : n ≠ 0) :
    (∑ k, (y k - (∑ j, y j) * (1 / n)) * (y k - (∑ j, y j) * (1 / n))) * (1 / n)
      = (∑ k, y k * y k) * (1 / n) - (∑ j, y j) * (1 / n) * ((∑ j, y j) * (1 / n)) := by
  have h : ∀ k, (y k - (∑ j, y j) * (1 / n)) * (y k - (∑ j, y j) * (1 / n))
      = y k * y k - 2 * ((∑ j, y j) * (1 / n)) * y k
        + (∑ j, y j) * (1 / n) * ((∑ j, y j) * (1 / n)) := fun k => by ring
  simp only [h, Finset.sum_add_distrib, Finset.sum_sub_distrib, ← Finset.mul_sum, Finset.sum_const,
    Finset.card_univ, Fintype.card_fin, nsmul_eq_mul, hm]
  field_simp
  ring

/-- The mean of the centred squares is not negative. -/
theorem centred_mean_sq_nonneg {m : ℕ} (y : Fin m → ℝ) (μ n : ℝ) (hn : 0 < n) :
    0 ≤ (∑ k, (y k - μ) * (y k - μ)) * (1 / n) :=
  mul_nonneg (Finset.sum_nonneg fun k _ => mul_self_nonneg _) (by positivity)

/-! ## The two forms -/

/-- The reciprocal square root of a positive coerced real is the coerced real reciprocal root. -/
theorem rsqrt_coe_pos {v : ℝ} (hv : 0 < v) : Ideal.rsqrt (v : EReal) = (((Real.sqrt v)⁻¹ : ℝ) : EReal) := by
  rw [Ideal.rsqrt_coe, if_neg (not_lt.mpr hv.le), if_neg hv.ne']

/-- The square root of a nonnegative coerced real is the coerced real root. -/
theorem sqrt_coe_nonneg {v : ℝ} (hv : 0 ≤ v) : Ideal.sqrt (v : EReal) = ((Real.sqrt v : ℝ) : EReal) := by
  rw [Ideal.sqrt_coe, if_neg (not_lt.mpr hv)]

/-- The quotient of coerced reals by a nonzero divisor is the coerced real quotient. -/
theorem div_coe_coe (x : ℝ) {d : ℝ} (hd : d ≠ 0) : Ideal.div (x : EReal) (d : EReal) = ((x * (1 / d) : ℝ) : EReal) := by
  rw [Ideal.div_coe hd, ← EReal.coe_mul]

/-- The two forms with the count a real n equal to the number of terms and ε a positive real. -/
theorem norm_two_forms_real {m : ℕ} (y : Fin m → ℝ) (g b n e : ℝ) (hm : (m : ℝ) = n) (hn : 0 < n)
    (he : 0 < e) (r : Fin m) :
    (y r : EReal)
        * (Ideal.rsqrt (Ideal.div (∑ k, (y k : EReal) * (y k : EReal)) (n : EReal)
            - Ideal.div (∑ k, (y k : EReal)) (n : EReal) * Ideal.div (∑ k, (y k : EReal)) (n : EReal)
            + (e : EReal)) * (g : EReal))
      + ((b : EReal) - Ideal.div (∑ k, (y k : EReal)) (n : EReal)
          * (Ideal.rsqrt (Ideal.div (∑ k, (y k : EReal) * (y k : EReal)) (n : EReal)
            - Ideal.div (∑ k, (y k : EReal)) (n : EReal) * Ideal.div (∑ k, (y k : EReal)) (n : EReal)
            + (e : EReal)) * (g : EReal)))
    = Ideal.div ((y r : EReal) - Ideal.div (∑ k, (y k : EReal)) (n : EReal))
        (Ideal.sqrt (Ideal.div (∑ k, ((y k : EReal) - Ideal.div (∑ k, (y k : EReal)) (n : EReal))
            * ((y k : EReal) - Ideal.div (∑ k, (y k : EReal)) (n : EReal))) (n : EReal) + (e : EReal)))
        * (g : EReal) + (b : EReal) := by
  have hn0 : n ≠ 0 := hn.ne'
  -- the mean is a coerced real
  have hmean : Ideal.div (∑ k, (y k : EReal)) (n : EReal) = (((∑ k, y k) * (1 / n) : ℝ) : EReal) := by
    rw [coe_sum, div_coe_coe _ hn0]
  -- the mean of the squares is a coerced real
  have hsq : Ideal.div (∑ k, (y k : EReal) * (y k : EReal)) (n : EReal)
      = (((∑ k, y k * y k) * (1 / n) : ℝ) : EReal) := by
    have : (∑ k, (y k : EReal) * (y k : EReal)) = ∑ k, ((y k * y k : ℝ) : EReal) :=
      Finset.sum_congr rfl (fun k _ => (EReal.coe_mul _ _).symm)
    rw [this, coe_sum, div_coe_coe _ hn0]
  rw [hmean, hsq]
  set μ : ℝ := (∑ k, y k) * (1 / n) with hμ
  -- the mean of the centred squares is a coerced real
  have hcen : Ideal.div (∑ k, ((y k : EReal) - (μ : EReal)) * ((y k : EReal) - (μ : EReal))) (n : EReal)
      = (((∑ k, (y k - μ) * (y k - μ)) * (1 / n) : ℝ) : EReal) := by
    have : (∑ k, ((y k : EReal) - (μ : EReal)) * ((y k : EReal) - (μ : EReal)))
        = ∑ k, (((y k - μ) * (y k - μ) : ℝ) : EReal) :=
      Finset.sum_congr rfl (fun k _ => by rw [← EReal.coe_sub, ← EReal.coe_mul])
    rw [this, coe_sum, div_coe_coe _ hn0]
  rw [hcen]
  -- the two radicands are one positive real
  have hvar : (∑ k, (y k - μ) * (y k - μ)) * (1 / n) = (∑ k, y k * y k) * (1 / n) - μ * μ :=
    centred_mean_sq y n hm hn0
  have hnn : 0 ≤ (∑ k, (y k - μ) * (y k - μ)) * (1 / n) := centred_mean_sq_nonneg y μ n hn
  set v : ℝ := (∑ k, y k * y k) * (1 / n) - μ * μ + e with hv
  have hvpos : 0 < v := by rw [hv, ← hvar]; linarith
  have hrad1 : ((((∑ k, y k * y k) * (1 / n) : ℝ) : EReal) - (μ : EReal) * (μ : EReal) + (e : EReal)) = (v : EReal) := by
    rw [← EReal.coe_mul, ← EReal.coe_sub, ← EReal.coe_add]
  have hrad2 : ((((∑ k, (y k - μ) * (y k - μ)) * (1 / n) : ℝ) : EReal) + (e : EReal)) = (v : EReal) := by
    rw [← EReal.coe_add, hvar]
  rw [hrad1, hrad2, rsqrt_coe_pos hvpos, sqrt_coe_nonneg hvpos.le]
  have hs : Real.sqrt v ≠ 0 := (Real.sqrt_pos.mpr hvpos).ne'
  rw [← EReal.coe_sub, div_coe_coe _ hs]
  simp only [← EReal.coe_mul, ← EReal.coe_sub, ← EReal.coe_add]
  congr 1
  rw [one_div]
  ring

/-- The two forms of the normalisation of one value of a column of 10000 finite values agree: with
    μ = S1 / N, the folded form y · s + (β − μ · s), s = rsqrt (S2 / N − μ · μ + ε) · γ, equals the
    centred form ((y − μ) / sqrt ((Σ (y − μ)²) / N + ε)) · γ + β. -/
theorem norm_two_forms (y : Fin 10000 → ℝ) (g b : ℝ) (r : Fin 10000) :
    let N : EReal := Ideal.ofBits .f32 0x461C4000#32
    let E : EReal := Ideal.ofBits .f32 0x3727C5AC#32
    let S1 : EReal := ∑ k, (y k : EReal)
    let S2 : EReal := ∑ k, (y k : EReal) * (y k : EReal)
    let mean : EReal := Ideal.div S1 N
    let scale : EReal := Ideal.rsqrt (Ideal.div S2 N - mean * mean + E) * (g : EReal)
    let shift : EReal := (b : EReal) - mean * scale
    let var' : EReal := Ideal.div (∑ k, ((y k : EReal) - mean) * ((y k : EReal) - mean)) N
    (y r : EReal) * scale + shift
      = Ideal.div ((y r : EReal) - mean) (Ideal.sqrt (var' + E)) * (g : EReal) + (b : EReal) := by
  intro N E S1 S2 mean scale shift var'
  obtain ⟨e, he, hE⟩ := ofBits_eps
  have hN : N = ((10000 : ℝ) : EReal) := ofBits_count
  have hE' : E = (e : EReal) := hE
  simp only [scale, shift, var', mean, S1, S2, hN, hE']
  exact norm_two_forms_real y g b 10000 e (by norm_num) (by norm_num) he r

/-- The same with the definitions written out (no "let"). -/
theorem norm_two_forms_inline (y : Fin 10000 → ℝ) (g b : ℝ) (r : Fin 10000) :
    (y r : EReal)
        * (Ideal.rsqrt (Ideal.div (∑ k, (y k : EReal) * (y k : EReal)) (Ideal.ofBits .f32 0x461C4000#32)
            - Ideal.div (∑ k, (y k : EReal)) (Ideal.ofBits .f32 0x461C4000#32)
              * Ideal.div (∑ k, (y k : EReal)) (Ideal.ofBits .f32 0x461C4000#32)
            + Ideal.ofBits .f32 0x3727C5AC#32) * (g : EReal))
      + ((b : EReal) - Ideal.div (∑ k, (y k : EReal)) (Ideal.ofBits .f32 0x461C4000#32)
          * (Ideal.rsqrt (Ideal.div (∑ k, (y k : EReal) * (y k : EReal)) (Ideal.ofBits .f32 0x461C4000#32)
            - Ideal.div (∑ k, (y k : EReal)) (Ideal.ofBits .f32 0x461C4000#32)
              * Ideal.div (∑ k, (y k : EReal)) (Ideal.ofBits .f32 0x461C4000#32)
            + Ideal.ofBits .f32 0x3727C5AC#32) * (g : EReal)))
    = Ideal.div ((y r : EReal) - Ideal.div (∑ k, (y k : EReal)) (Ideal.ofBits .f32 0x461C4000#32))
        (Ideal.sqrt (Ideal.div (∑ k, ((y k : EReal) - Ideal.div (∑ k, (y k : EReal)) (Ideal.ofBits .f32 0x461C4000#32))
            * ((y k : EReal) - Ideal.div (∑ k, (y k : EReal)) (Ideal.ofBits .f32 0x461C4000#32)))
              (Ideal.ofBits .f32 0x461C4000#32) + Ideal.ofBits .f32 0x3727C5AC#32))
        * (g : EReal) + (b : EReal) :=
  norm_two_forms y g b r

/-- The same for extended-real data known to be coerced reals: Y, γ, β finite. -/
theorem norm_two_forms_of_real (Y : Fin 10000 → EReal) (G B : EReal) (hY : ∀ k, ∃ x : ℝ, Y k = x)
    (hG : ∃ x : ℝ, G = x) (hB : ∃ x : ℝ, B = x) (r : Fin 10000) :
    let N : EReal := Ideal.ofBits .f32 0x461C4000#32
    let E : EReal := Ideal.ofBits .f32 0x3727C5AC#32
    let S1 : EReal := ∑ k, Y k
    let S2 : EReal := ∑ k, Y k * Y k
    let mean : EReal := Ideal.div S1 N
    let scale : EReal := Ideal.rsqrt (Ideal.div S2 N - mean * mean + E) * G
    let shift : EReal := B - mean * scale
    let var' : EReal := Ideal.div (∑ k, (Y k - mean) * (Y k - mean)) N
    Y r * scale + shift = Ideal.div (Y r - mean) (Ideal.sqrt (var' + E)) * G + B := by
  choose y hy using hY
  obtain ⟨g, rfl⟩ := hG
  obtain ⟨b, rfl⟩ := hB
  obtain rfl : Y = fun k => (y k : EReal) := funext hy
  exact norm_two_forms y g b r

end Cert.BatchNorm

end
-- ==== Proof.LibNormClip.lean ====
/-
  The two ways of normalising a column agree on finite data.

  For a column of m finite values y with count n = m, write μ = (Σ y) / n.  One program takes the variance as
  (Σ y²) / n − μ², clipped below at 0, folds the reciprocal square root with the gain γ into one factor s and
  the offset β with the mean into one summand: y · s + (β − μ · s).  The other takes the variance as the mean of
  the centred squares (Σ (y − μ)²) / n and centres the value first: (y − μ) · s' + β.  Since n is the number of
  terms, (1/n) Σ (y − μ)² = (1/n) Σ y² − μ², and it is not negative, so the clip does nothing, both radicands
  are one positive real v (ε > 0), s = s' = γ / √v, and the two forms differ by the real identity
  y·s + (β − μ·s) = (y − μ)·s + β.  All operations are those of the ideal float values on the extended reals;
  on coerced reals with a positive radicand and a nonzero divisor they are the real operations.

  The real form holds for any number m of terms with the count n = m; the last two statements are the case of
  100000 terms with the count and ε as f32 patterns (0x47C35000, 0x3727C5AC).  The sums of coerced reals, the centred
  mean of squares and the coerced quotient and reciprocal root come from the batch-normalisation lemma file beside it.
-/
import proofs.«152145_j6485400617795_1_alg».proof.Proof.LibBatchNorm

noncomputable section

namespace Cert.NormClip

open Idealize.ShloMosaic Cert.BatchNorm
open scoped BigOperators

/-- The f32 pattern "0x47C35000" denotes the real number 100000 (= (2^23 + 4411392) · 2^(−7)). -/
theorem ofBits_count : (Ideal.ofBits .f32 0x47C35000#32 : EReal) = ((100000 : ℝ) : EReal) := by
  simp [Ideal.ofBits, Ideal.ieee, -EReal.coe_mul]; norm_num

/-- The two forms at one value of a column of real numbers, the count a real n equal to the number of terms
    and ε a positive real. -/
theorem two_forms_real {m : ℕ} (y : Fin m → ℝ) (g b n e : ℝ) (hm : (m : ℝ) = n) (hn : 0 < n) (he : 0 < e) (p : Fin m) :
    (y p : EReal)
        * ((g : EReal) * Ideal.rsqrt (max (Ideal.div (∑ k, (y k : EReal) * (y k : EReal)) (n : EReal)
            - Ideal.div (∑ k, (y k : EReal)) (n : EReal) * Ideal.div (∑ k, (y k : EReal)) (n : EReal)) 0 + (e : EReal)))
      + ((b : EReal) - Ideal.div (∑ k, (y k : EReal)) (n : EReal)
          * ((g : EReal) * Ideal.rsqrt (max (Ideal.div (∑ k, (y k : EReal) * (y k : EReal)) (n : EReal)
            - Ideal.div (∑ k, (y k : EReal)) (n : EReal) * Ideal.div (∑ k, (y k : EReal)) (n : EReal)) 0 + (e : EReal))))
    = ((y p : EReal) - Ideal.div (∑ k, (y k : EReal)) (n : EReal))
        * ((g : EReal) * Ideal.rsqrt (Ideal.div (∑ k, ((y k : EReal) - Ideal.div (∑ k, (y k : EReal)) (n : EReal))
            * ((y k : EReal) - Ideal.div (∑ k, (y k : EReal)) (n : EReal))) (n : EReal) + (e : EReal)))
      + (b : EReal) := by
  have hn0 : n ≠ 0 := hn.ne'
  -- the mean is a coerced real
  have hmean : Ideal.div (∑ k, (y k : EReal)) (n : EReal) = (((∑ k, y k) * (1 / n) : ℝ) : EReal) := by
    rw [coe_sum, div_coe_coe _ hn0]
  -- the mean of the squares is a coerced real
  have hsq : Ideal.div (∑ k, (y k : EReal) * (y k : EReal)) (n : EReal)
      = (((∑ k, y k * y k) * (1 / n) : ℝ) : EReal) := by
    have : (∑ k, (y k : EReal) * (y k : EReal)) = ∑ k, ((y k * y k : ℝ) : EReal) :=
      Finset.sum_congr rfl (fun k _ => (EReal.coe_mul _ _).symm)
    rw [this, coe_sum, div_coe_coe _ hn0]
  rw [hmean, hsq]
  set μ : ℝ := (∑ k, y k) * (1 / n) with hμ
  -- the mean of the centred squares is a coerced real
  have hcen : Ideal.div (∑ k, ((y k : EReal) - (μ : EReal)) * ((y k : EReal) - (μ : EReal))) (n : EReal)
      = (((∑ k, (y k - μ) * (y k - μ)) * (1 / n) : ℝ) : EReal) := by
    have : (∑ k, ((y k : EReal) - (μ : EReal)) * ((y k : EReal) - (μ : EReal)))
        = ∑ k, (((y k - μ) * (y k - μ) : ℝ) : EReal) :=
      Finset.sum_congr rfl (fun k _ => by rw [← EReal.coe_sub, ← EReal.coe_mul])
    rw [this, coe_sum, div_coe_coe _ hn0]
  rw [hcen]
  -- the two variances are one real that is not negative, so the clip does nothing
  have hvar : (∑ k, (y k - μ) * (y k - μ)) * (1 / n) = (∑ k, y k * y k) * (1 / n) - μ * μ :=
    centred_mean_sq y n hm hn0
  have hnn : 0 ≤ (∑ k, (y k - μ) * (y k - μ)) * (1 / n) := centred_mean_sq_nonneg y μ n hn
  have hw0 : 0 ≤ (∑ k, y k * y k) * (1 / n) - μ * μ := hvar ▸ hnn
  have hclip : max ((((∑ k, y k * y k) * (1 / n) : ℝ) : EReal) - (μ : EReal) * (μ : EReal)) 0
      = (((∑ k, y k * y k) * (1 / n) - μ * μ : ℝ) : EReal) := by
    rw [← EReal.coe_mul, ← EReal.coe_sub]
    exact max_eq_left (by exact_mod_cast hw0)
  rw [hclip, hvar]
  have hvpos : 0 < (∑ k, y k * y k) * (1 / n) - μ * μ + e := by linarith
  rw [← EReal.coe_add, rsqrt_coe_pos hvpos]
  simp only [← EReal.coe_mul, ← EReal.coe_sub, ← EReal.coe_add]
  congr 1
  ring

/-- The same for extended-real data known to be coerced reals, with the count and ε as the f32 patterns the
    programs carry: a column of 100000 values. -/
theorem two_forms (Y : Fin 100000 → EReal) (G B : EReal) (hY : ∀ k, ∃ x : ℝ, Y k = x)
    (hG : ∃ x : ℝ, G = x) (hB : ∃ x : ℝ, B = x) (p : Fin 100000) :
    Y p * (G * Ideal.rsqrt (max (Ideal.div (∑ k, Y k * Y k) (Ideal.ofBits .f32 0x47C35000#32)
            - Ideal.div (∑ k, Y k) (Ideal.ofBits .f32 0x47C35000#32) * Ideal.div (∑ k, Y k) (Ideal.ofBits .f32 0x47C35000#32)) 0
            + Ideal.ofBits .f32 0x3727C5AC#32))
      + (B - Ideal.div (∑ k, Y k) (Ideal.ofBits .f32 0x47C35000#32)
          * (G * Ideal.rsqrt (max (Ideal.div (∑ k, Y k * Y k) (Ideal.ofBits .f32 0x47C35000#32)
            - Ideal.div (∑ k, Y k) (Ideal.ofBits .f32 0x47C35000#32) * Ideal.div (∑ k, Y k) (Ideal.ofBits .f32 0x47C35000#32)) 0
            + Ideal.ofBits .f32 0x3727C5AC#32)))
    = (Y p - Ideal.div (∑ k, Y k) (Ideal.ofBits .f32 0x47C35000#32))
        * (G * Ideal.rsqrt (Ideal.div (∑ k, (Y k - Ideal.div (∑ k, Y k) (Ideal.ofBits .f32 0x47C35000#32))
            * (Y k - Ideal.div (∑ k, Y k) (Ideal.ofBits .f32 0x47C35000#32))) (Ideal.ofBits .f32 0x47C35000#32)
            + Ideal.ofBits .f32 0x3727C5AC#32))
      + B := by
  choose y hy using hY
  obtain ⟨g, rfl⟩ := hG
  obtain ⟨b, rfl⟩ := hB
  obtain rfl : Y = fun k => (y k : EReal) := funext hy
  obtain ⟨e, he, hE⟩ := ofBits_eps
  rw [ofBits_count, hE]
  exact two_forms_real y g b 100000 e (by norm_num) (by norm_num) he p

/-- The scale factor γ · rsqrt (v + ε) of a real column is a real number, v the clipped variance. -/
theorem exists_real_scale (Y : Fin 100000 → EReal) (G : EReal) (hY : ∀ k, ∃ x : ℝ, Y k = x) (hG : ∃ x : ℝ, G = x) :
    ∃ x : ℝ, G * Ideal.rsqrt (max (Ideal.div (∑ k, Y k * Y k) (Ideal.ofBits .f32 0x47C35000#32)
            - Ideal.div (∑ k, Y k) (Ideal.ofBits .f32 0x47C35000#32) * Ideal.div (∑ k, Y k) (Ideal.ofBits .f32 0x47C35000#32)) 0
            + Ideal.ofBits .f32 0x3727C5AC#32) = x := by
  obtain ⟨s1, hs1⟩ := exists_real_sum Y hY
  obtain ⟨s2, hs2⟩ := exists_real_sum_mul Y Y hY hY
  obtain ⟨g, rfl⟩ := hG
  obtain ⟨e, he, hE⟩ := ofBits_eps
  have h5 : (100000 : ℝ) ≠ 0 := by norm_num
  rw [hs1, hs2, ofBits_count, hE, div_coe_coe _ h5, div_coe_coe _ h5, ← EReal.coe_mul, ← EReal.coe_sub]
  have hmax : max ((s2 * (1 / 100000) - s1 * (1 / 100000) * (s1 * (1 / 100000)) : ℝ) : EReal) 0
      = ((max (s2 * (1 / 100000) - s1 * (1 / 100000) * (s1 * (1 / 100000))) 0 : ℝ) : EReal) := by
    have h := (EReal.coe_strictMono.monotone).map_max (a := s2 * (1 / 100000) - s1 * (1 / 100000) * (s1 * (1 / 100000))) (b := (0 : ℝ))
    rw [h]; rfl
  rw [hmax, ← EReal.coe_add]
  have hpos : 0 < max (s2 * (1 / 100000) - s1 * (1 / 100000) * (s1 * (1 / 100000))) 0 + e :=
    add_pos_of_nonneg_of_pos (le_max_right _ _) he
  rw [rsqrt_coe_pos hpos, ← EReal.coe_mul]
  exact ⟨_, rfl⟩

end Cert.NormClip

end
-- ==== Proof.LibRowVector.lean ====
/-
  A vector laid out as a row. Reshaping a vector of n entries to a [1, n] array and broadcasting it to a [1, n] array
  along the second axis give the same array: entry (0, j) of either is entry j of the vector.
-/
import Idealize.ShloMosaic.Lib.Pipeline.Value
import Idealize.ShloMosaic.Lib.ValueIdx

noncomputable section

namespace Cert.RowVector

open Idealize.ShloMosaic

variable {α : Type} {n : ℕ}

/-- The reshape of a vector to a row, read at an entry: the vector at the entry's column. -/
theorem reshape_apply (x : (⟨1, ![n]⟩ : Shape).Idx → α) (h : (⟨1, ![n]⟩ : Shape).ShapeCasts ⟨2, ![1, n]⟩)
    (j : (⟨2, ![1, n]⟩ : Shape).Idx) : shapeCast ⟨2, ![1, n]⟩ x h j = x (fun a => j a.succ) :=
  shapeCast_addUnit_apply ![n] x h j

/-- The broadcast of a vector to a row along the second axis, read at an entry: the vector at the entry's column. -/
theorem broadcast_apply (x : (⟨1, ![n]⟩ : Shape).Idx → α) (h : (⟨1, ![n]⟩ : Shape).BroadcastsInDim ⟨2, ![1, n]⟩ ![1])
    (j : (⟨2, ![1, n]⟩ : Shape).Idx) : broadcastInDim ⟨2, ![1, n]⟩ ![1] h x j = x (fun a => j a.succ) := by
  refine broadcastInDim_apply ![1] h x j (fun a => j a.succ) (fun a => ?_)
  match a with
  | ⟨0, _⟩ =>
    show (j 1).val = if n = 1 then 0 else (j 1).val
    by_cases h1 : n = 1
    · rw [if_pos h1]
      have hlt : (j 1).val < n := (j 1).isLt
      omega
    · rw [if_neg h1]

/-- The two layouts are one array. -/
theorem reshape_eq_broadcast (x : (⟨1, ![n]⟩ : Shape).Idx → α) (h : (⟨1, ![n]⟩ : Shape).ShapeCasts ⟨2, ![1, n]⟩)
    (hb : (⟨1, ![n]⟩ : Shape).BroadcastsInDim ⟨2, ![1, n]⟩ ![1]) :
    shapeCast ⟨2, ![1, n]⟩ x h = broadcastInDim ⟨2, ![1, n]⟩ ![1] hb x :=
  funext fun j => (reshape_apply x h j).trans (broadcast_apply x hb j).symm

end Cert.RowVector

end
-- ==== Proof.RefAct.lean ====
/-
  The reference's column normalisation and leaky rectifier, read at one entry over the extended reals.

  The column mean at column q is the column's sum divided by the count; the column variance is the sum of the
  centred squares divided by the count (the guard on the divisor, count − 0 > 0, is the bit 1, so the undefined
  branch never shows); the normalised entry at (p, q) is (z − mean) · (γ · rsqrt (var + ε)) + β; the rectifier
  keeps an entry that is at least 0 and scales the others by the slope.  Every step holds on all extended reals.
-/
import proofs.«152145_j6485400617795_1_alg».proof.Proof.Spec
import proofs.«152145_j6485400617795_1_alg».proof.Proof.LibBroadcasts
import proofs.«152145_j6485400617795_1_alg».proof.Proof.LibRowVector
import Idealize.ShloMosaic.PureOps.Ideal.Laws
import Idealize.ShloMosaic.Lib.ValueIdx

noncomputable section

namespace Cert.RefAct

open Idealize.ShloMosaic Idealize.ShloMosaic.ValueIdx Cert.ReferenceIdeal
open scoped BigOperators

/-! ## The pieces, over literal shapes -/

/-- The host's sum over the rows from the zero constant, at column q: the sum of the column. -/
theorem colSum_apply {a b : ℕ} (z : FVec Ideal ⟨2, ![a, b]⟩ .f32)
    (h' : (⟨2, ![a, b]⟩ : Shape).ReducesTo [0] ⟨1, ![b]⟩) (hu : 0 < (⟨0, ![]⟩ : Shape).numel) (q : Fin b) :
    Host.reduceAdd (F := Ideal) z (constant (F := Ideal) ⟨0, ![]⟩ .f32 0x00000000#32) h' hu (ix1 q)
      = ∑ k : Fin a, z (ix2 k q) := by
  have h : (⟨2, ![a, b]⟩ : Shape).Reduces [0] ⟨1, ![b]⟩ := ⟨h'.1, Nat.one_pos, h'.2⟩
  refine (Ideal.hostReduceAdd_single h' h z (Ideal.ofBits .f32 0x00000000#32) (ix1 q)).trans ?_
  rw [Ideal.ofBits_zero_f32, zero_add]
  refine Finset.sum_congr rfl fun k _ => ?_
  exact congrArg z (funext fun ax => Fin.ext (by match ax with | ⟨0, _⟩ => rfl | ⟨1, _⟩ => rfl))

/-- The host's quotient at an index is the quotient of the entries. -/
theorem hostDivf_apply {s : Shape} (x y : FVec Ideal s .f32) (i : s.Idx) : Host.divf x y i = Ideal.div (x i) (y i) := rfl

/-- The host's reciprocal square root at an index is that of the entry. -/
theorem hostRsqrt_apply {s : Shape} (x : FVec Ideal s .f32) (i : s.Idx) : Host.rsqrt x i = Ideal.rsqrt (x i) := rfl

/-- A row laid down the rows, at `(n, j)`: the row at `(0, j)`. -/
theorem rowDown_apply {α : Type} {a b : ℕ} (x : (⟨2, ![1, b]⟩ : Shape).Idx → α)
    (h1 : (⟨2, ![1, b]⟩ : Shape).BroadcastsInDim ⟨2, ![a, b]⟩ ![0, 1]) (n : Fin a) (j : Fin b) :
    broadcastInDim ⟨2, ![a, b]⟩ ![0, 1] h1 x (ix2 n j) = x (ix2 (0 : Fin 1) j) := by
  refine broadcastInDim_apply ![0, 1] h1 x (ix2 n j) (ix2 (0 : Fin 1) j) (fun q => ?_)
  match q with
  | ⟨0, _⟩ =>
    show (0 : ℕ) = if (1 : ℕ) = 1 then 0 else n.val
    rw [if_pos rfl]
  | ⟨1, _⟩ =>
    show j.val = if b = 1 then 0 else j.val
    by_cases hb : b = 1
    · rw [if_pos hb]; have := j.isLt; omega
    · rw [if_neg hb]

/-- A vector laid as a row, at `(0, j)`: the vector at `j`. -/
theorem asRow_apply {α : Type} {b : ℕ} (x : (⟨1, ![b]⟩ : Shape).Idx → α)
    (h0 : (⟨1, ![b]⟩ : Shape).BroadcastsInDim ⟨2, ![1, b]⟩ ![1]) (j : Fin b) :
    broadcastInDim ⟨2, ![1, b]⟩ ![1] h0 x (ix2 (0 : Fin 1) j) = x (ix1 j) := by
  refine (Cert.RowVector.broadcast_apply x h0 (ix2 (0 : Fin 1) j)).trans ?_
  exact congrArg x (funext fun ax => by match ax with | ⟨0, _⟩ => rfl)

/-- A select whose condition is the bit 1 is its first operand. -/
theorem select_of_eq_one {α : Type} (c : BitVec 1) (u v : α) (h : c = 1#1) : Scalar.select c u v = u := by
  subst h; exact select_one u v

/-- The f32 pattern of the count denotes the real number 100000. -/
theorem ofBits_count : (Ideal.ofBits .f32 0x47C35000#32 : EReal) = ((100000 : ℝ) : EReal) := by
  simp [Ideal.ofBits, Ideal.ieee, -EReal.coe_mul]; norm_num

/-- The divisor of the variance: the count less the integer 0 converted, which is the count. -/
theorem count_sub_zero :
    subf (F := Ideal) (constant (F := Ideal) S_ .f32 0x47C35000#32) (sitofp (F := Ideal) .f32 (constantI S_ 32 0#32)) ix0
      = Ideal.ofBits .f32 0x47C35000#32 := by
  show Ideal.ofBits .f32 0x47C35000#32 - (((0#32 : BitVec 32).toInt : ℝ) : EReal) = _
  simp

/-- The guard on the divisor, "the count less 0 is greater than 0", is the bit 1. -/
theorem guard_bit :
    cmpf (F := Ideal) .ogt
      (subf (F := Ideal) (constant (F := Ideal) S_ .f32 0x47C35000#32) (sitofp (F := Ideal) .f32 (constantI S_ 32 0#32)))
      (constant (F := Ideal) S_ .f32 0x00000000#32) ix0 = 1#1 := by
  refine (cmpf_apply .ogt _ _ ix0).trans ?_
  rw [count_sub_zero]
  show Ideal.cmp .ogt (Ideal.ofBits .f32 0x47C35000#32) (Ideal.ofBits .f32 0x00000000#32) = 1#1
  rw [ofBits_count, Ideal.ofBits_zero_f32]
  simp [Ideal.cmp]

/-! ## The reference's stages at an entry -/

section
variable [Cert.ReferenceIdeal.Facts]
open Facts₀ Facts

/-- The column mean: the column's sum over the count. -/
theorem meanOf_apply (z : Spec.FC Ideal S100000x128) (q : Fin 128) :
    Spec.meanOf (F := Ideal) z (ix1 q)
      = Ideal.div (∑ k : Fin 100000, z (ix2 k q)) (Ideal.ofBits .f32 0x47C35000#32) := by
  refine (hostDivf_apply _ _ (ix1 q)).trans ?_
  refine congrArg₂ Ideal.div (colSum_apply z reducesTo_S100000x128_S128_d0 h_S_ q) ?_
  exact Cert.Broadcasts.splat_apply _ bcast_S_S128 _ (ix1 q)

/-- The normalised entry: the centred value times the column's scale, plus the column's offset. -/
theorem normedOf_apply (z : Spec.FC Ideal S100000x128) (γ β : Spec.FC Ideal S128) (p : Fin 100000) (q : Fin 128) :
    Spec.normedOf (F := Ideal) z γ β (ix2 p q)
      = (z (ix2 p q) - Spec.meanOf (F := Ideal) z (ix1 q))
          * (γ (ix1 q) * Ideal.rsqrt (Spec.varOf (F := Ideal) z (ix1 q) + Ideal.ofBits .f32 0x3727C5AC#32))
        + β (ix1 q) := by
  refine (addf_apply _ _ (ix2 p q)).trans ?_
  refine congrArg₂ (· + ·) ?_
    (Cert.Broadcasts.downRows_apply β bcast_S128_S1x128_1 bcast_S1x128_S100000x128_0_1 p q)
  refine (mulf_apply _ _ (ix2 p q)).trans ?_
  refine congrArg₂ (· * ·) ?_ ?_
  · refine (subf_apply _ _ (ix2 p q)).trans ?_
    exact congrArg (z (ix2 p q) - ·)
      (Cert.Broadcasts.downRows_apply (Spec.meanOf (F := Ideal) z) bcast_S128_S1x128_1 bcast_S1x128_S100000x128_0_1 p q)
  · refine (Cert.Broadcasts.downRows_apply _ bcast_S128_S1x128_1 bcast_S1x128_S100000x128_0_1 p q).trans ?_
    refine (mulf_apply _ _ (ix1 q)).trans ?_
    refine congrArg (γ (ix1 q) * ·) ?_
    refine (hostRsqrt_apply _ (ix1 q)).trans ?_
    refine congrArg Ideal.rsqrt ?_
    refine (addf_apply _ _ (ix1 q)).trans ?_
    exact congrArg (Spec.varOf (F := Ideal) z (ix1 q) + ·) (Cert.Broadcasts.splat_apply _ bcast_S_S128 _ (ix1 q))

/-- The rectifier at an entry: the entry where it is at least 0, the slope times the entry elsewhere. -/
theorem leakyOf_apply (y : Spec.FC Ideal S100000x128) (a : Spec.FC Ideal S_) (p : Fin 100000) (q : Fin 128) :
    Spec.leakyOf (F := Ideal) y a (ix2 p q)
      = Scalar.select (Scalar.cmpf (F := Ideal) .oge (y (ix2 p q)) (Scalar.ofBits (F := Ideal) .f32 0x00000000#32))
          (y (ix2 p q)) (a ix0 * y (ix2 p q)) := by
  refine (select_apply _ _ _ (ix2 p q)).trans ?_
  refine congrArg₂ (fun c v => Scalar.select c (y (ix2 p q)) v) ?_ ?_
  · refine (cmpf_apply .oge _ _ (ix2 p q)).trans ?_
    exact congrArg (Scalar.cmpf (F := Ideal) (φ := .f32) .oge (y (ix2 p q)))
      (Cert.Broadcasts.splat_apply _ bcast_S_S100000x128 (constant (F := Ideal) S_ .f32 0x00000000#32) (ix2 p q))
  · refine (mulf_apply _ _ (ix2 p q)).trans ?_
    exact congrArg (· * y (ix2 p q)) (Cert.Broadcasts.splat_apply _ bcast_S_S100000x128 a (ix2 p q))

/-- The row of column means laid down the rows, at `(k, q)`: column `q`'s sum over the count. -/
theorem meanRow_apply (z : Spec.FC Ideal S100000x128) (k : Fin 100000) (q : Fin 128) :
    broadcastInDim S100000x128 ![0, 1] bcast_S1x128_S100000x128_0_1
        (Host.divf (F := Ideal)
          (broadcastInDim S1x128 ![1] bcast_S128_S1x128_1
            (Host.reduceAdd (F := Ideal) z (constant (F := Ideal) S_ .f32 0x00000000#32) reducesTo_S100000x128_S128_d0 h_S_))
          (broadcastInDim S1x128 ![] bcast_S_S1x128 (constant (F := Ideal) S_ .f32 0x47C35000#32))) (ix2 k q)
      = Ideal.div (∑ j : Fin 100000, z (ix2 j q)) (Ideal.ofBits .f32 0x47C35000#32) := by
  refine (rowDown_apply _ bcast_S1x128_S100000x128_0_1 k q).trans ?_
  refine (hostDivf_apply _ _ (ix2 (0 : Fin 1) q)).trans ?_
  refine congrArg₂ Ideal.div ?_ (Cert.Broadcasts.splat_apply _ bcast_S_S1x128 _ (ix2 (0 : Fin 1) q))
  refine (asRow_apply _ bcast_S128_S1x128_1 q).trans ?_
  exact colSum_apply z reducesTo_S100000x128_S128_d0 h_S_ q

/-- The column variance: the sum of the centred squares over the count. -/
theorem varOf_apply (z : Spec.FC Ideal S100000x128) (q : Fin 128) :
    Spec.varOf (F := Ideal) z (ix1 q)
      = Ideal.div (∑ k : Fin 100000,
            (z (ix2 k q) - Ideal.div (∑ j : Fin 100000, z (ix2 j q)) (Ideal.ofBits .f32 0x47C35000#32))
              * (z (ix2 k q) - Ideal.div (∑ j : Fin 100000, z (ix2 j q)) (Ideal.ofBits .f32 0x47C35000#32)))
          (Ideal.ofBits .f32 0x47C35000#32) := by
  refine (select_apply _ _ _ (ix1 q)).trans ?_
  refine (select_of_eq_one _ _ _ ((Cert.Broadcasts.splat_apply _ bcast_S_S128 _ (ix1 q)).trans guard_bit)).trans ?_
  refine (hostDivf_apply _ _ (ix1 q)).trans ?_
  refine congrArg₂ Ideal.div ?_ ((Cert.Broadcasts.splat_apply _ bcast_S_S128 _ (ix1 q)).trans count_sub_zero)
  refine (colSum_apply _ reducesTo_S100000x128_S128_d0 h_S_ q).trans ?_
  refine Finset.sum_congr rfl fun k _ => ?_
  refine (mulf_apply _ _ (ix2 k q)).trans ?_
  have hd := (subf_apply z _ (ix2 k q)).trans (congrArg (z (ix2 k q) - ·) (meanRow_apply z k q))
  exact congrArg₂ (· * ·) hd hd

end

end Cert.RefAct

end
-- ==== Proof.ActBridge.lean ====
/-
  The kernel's affine form of the normalisation and the reference's centred form agree entry by entry.

  At entry (p, q) the kernel computes z · s + b with s = γ · rsqrt (max (S2/n − (S1/n)², 0) + ε) and b = β − (S1/n) · s,
  where S1 and S2 are column q's sum and sum of squares; the reference computes (z − μ) · (γ · rsqrt (v + ε)) + β with μ
  the column's mean and v the mean of the centred squares.  For a column of real numbers, a real gain and a real offset
  these two values are equal (the two variances are one non-negative real number, so the clip does nothing).  Both
  programs then apply the same rectifier to the value: keep it where it is at least 0, scale it by the slope elsewhere.
-/
import proofs.«152145_j6485400617795_1_alg».proof.Proof.KerAffineSpec
import proofs.«152145_j6485400617795_1_alg».proof.Proof.KerAffine
import proofs.«152145_j6485400617795_1_alg».proof.Proof.LibNormClip
import proofs.«152145_j6485400617795_1_alg».proof.Proof.RefAct

noncomputable section

namespace Cert.ActBridge

open Idealize.ShloMosaic Idealize.ShloMosaic.ValueIdx
open scoped BigOperators

/-- The value under the rectifier: the kernel's z · s + b is the reference's normalised entry. -/
theorem affine_eq_normed [Cert.ReferenceIdeal.Facts] [Cert.KernelIdeal.Facts]
    (z : Cert.ReferenceIdeal.Spec.FC Ideal Cert.ReferenceIdeal.S100000x128)
    (γ β : Cert.ReferenceIdeal.Spec.FC Ideal Cert.ReferenceIdeal.S128)
    (S1 S2 : (⟨Cert.KernelIdeal.S1x128, .f32⟩ : BufTy).Contents (Elt Ideal))
    (hz : ∀ i, ∃ r : ℝ, z i = (r : EReal)) (hγ : ∀ i, ∃ r : ℝ, γ i = (r : EReal)) (hβ : ∀ i, ∃ r : ℝ, β i = (r : EReal))
    (hS1 : ∀ q : Fin 128, S1 (ix2 (0 : Fin 1) q) = ∑ k : Fin 100000, z (ix2 k q))
    (hS2 : ∀ q : Fin 128, S2 (ix2 (0 : Fin 1) q) = ∑ k : Fin 100000, z (ix2 k q) * z (ix2 k q))
    (p : Fin 100000) (q : Fin 128) :
    z (ix2 p q) * Cert.KernelIdeal.Chain.kScale (F := Ideal) S1 S2 γ (ix1 q)
        + Cert.KernelIdeal.Chain.kShift (F := Ideal) S1 S2 γ β (ix1 q)
      = Cert.ReferenceIdeal.Spec.normedOf (F := Ideal) z γ β (ix2 p q) := by
  rw [Cert.RefAct.normedOf_apply, Cert.RefAct.meanOf_apply, Cert.RefAct.varOf_apply,
    Cert.KernelIdeal.Chain.kShift_apply, Cert.KernelIdeal.Chain.kScale_apply, hS1 q, hS2 q]
  exact Cert.NormClip.two_forms (fun k => z (ix2 k q)) (γ (ix1 q)) (β (ix1 q)) (fun k => hz _) (hγ _) (hβ _) p

/-- The kernel's activation of an entry, from the column sums, is the reference's. -/
theorem act_bridge [Cert.ReferenceIdeal.Facts] [Cert.KernelIdeal.Facts]
    (z : Cert.ReferenceIdeal.Spec.FC Ideal Cert.ReferenceIdeal.S100000x128)
    (γ β : Cert.ReferenceIdeal.Spec.FC Ideal Cert.ReferenceIdeal.S128) (a : Cert.ReferenceIdeal.Spec.FC Ideal Cert.ReferenceIdeal.S_)
    (S1 S2 : (⟨Cert.KernelIdeal.S1x128, .f32⟩ : BufTy).Contents (Elt Ideal))
    (hz : ∀ i, ∃ r : ℝ, z i = (r : EReal)) (hγ : ∀ i, ∃ r : ℝ, γ i = (r : EReal)) (hβ : ∀ i, ∃ r : ℝ, β i = (r : EReal))
    (hS1 : ∀ q : Fin 128, S1 (ix2 (0 : Fin 1) q) = ∑ k : Fin 100000, z (ix2 k q))
    (hS2 : ∀ q : Fin 128, S2 (ix2 (0 : Fin 1) q) = ∑ k : Fin 100000, z (ix2 k q) * z (ix2 k q))
    (p : Fin 100000) (q : Fin 128) :
    Cert.KernelIdeal.Regions.act (z (ix2 p q)) (Cert.KernelIdeal.Chain.kScale (F := Ideal) S1 S2 γ (ix1 q))
        (Cert.KernelIdeal.Chain.kShift (F := Ideal) S1 S2 γ β (ix1 q)) (a ix0)
      = Cert.ReferenceIdeal.Spec.actOf (F := Ideal) z γ β a (ix2 p q) := by
  have hzz := affine_eq_normed z γ β S1 S2 hz hγ hβ hS1 hS2 p q
  refine Eq.trans ?_ (Cert.RefAct.leakyOf_apply (Cert.ReferenceIdeal.Spec.normedOf (F := Ideal) z γ β) a p q).symm
  rw [← hzz]
  rfl

end Cert.ActBridge

end
-- ==== Proof.LibRealLaw.lean ====
/-
  Extended reals that are real numbers, and the one law this certificate rests on.

  Both programs score a user against every point of interest by the inner product of the user's preference
  vector `u` (256 entries) with the point's region embedding `r`, scaled by `a`.  One program scales the
  preference vector first and then takes the inner product, `∑ k, (u k * a) * r k`; the other takes the inner
  product and scales the result, `a * ∑ k, u k * r k`.  On the extended reals a factor moves across a sum only
  when no term is infinite, so the law is stated for entries that are real numbers; it is then the ring identity
  `∑ k, (u k * a) * r k = a * ∑ k, u k * r k` in `ℝ`.

  The rest of the file says which operations keep an extended real a real number: products, sums over a finite
  index set, maxima, and the ideal quotient by a divisor that is at least one.
-/
import Idealize.ShloMosaic.PureOps.Ideal
import Idealize.ShloMosaic.PureOps.Ideal.Laws

noncomputable section

namespace Cert.Scores

open Idealize.ShloMosaic

/-- The extended real `x` is a real number (neither infinity). -/
def IsReal (x : EReal) : Prop := ∃ r : ℝ, x = (r : EReal)

theorem isReal_coe (r : ℝ) : IsReal (r : EReal) := ⟨r, rfl⟩

theorem isReal_zero : IsReal 0 := ⟨0, rfl⟩

theorem isReal_one : IsReal 1 := ⟨1, rfl⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

/-- The coercion of a finite sum of reals is the sum of the coercions. -/
theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem IsReal.sum {ι : Type} (s : Finset ι) {f : ι → EReal} (h : ∀ i, IsReal (f i)) : IsReal (∑ i ∈ s, f i) := by
  choose g hg using h
  exact ⟨∑ i ∈ s, g i, by rw [coe_sum]; exact Finset.sum_congr rfl fun i _ => hg i⟩

/-- The maximum of a real number and one is a real number that is not zero. -/
theorem max_one_eq (s : ℝ) : max (s : EReal) 1 = ((max s 1 : ℝ) : EReal) := by
  have h := (EReal.coe_strictMono.monotone).map_max (a := s) (b := (1 : ℝ))
  rw [h]; rfl

/-- The ideal quotient of a real number by the maximum of a real number and one is a real number: the divisor is
    a real number at least one, so it is not zero and the quotient is the product with its reciprocal. -/
theorem IsReal.div_max_one {x s : EReal} (hx : IsReal x) (hs : IsReal s) : IsReal (Ideal.div x (max s 1)) := by
  obtain ⟨s', rfl⟩ := hs
  rw [max_one_eq, Ideal.div_coe (ne_of_gt (lt_of_lt_of_le one_pos (le_max_right s' 1)))]
  exact hx.mul (isReal_coe _)

/-- THE LAW.  For real entries, scaling the first factor of every product by `a` scales the inner product by `a`. -/
theorem scaled_inner {n : Nat} (u r : Fin n → EReal) (a : EReal)
    (hu : ∀ k, IsReal (u k)) (hr : ∀ k, IsReal (r k)) (ha : IsReal a) :
    ∑ k : Fin n, (u k * a) * r k = a * ∑ k : Fin n, u k * r k := by
  choose u' hu' using hu
  choose r' hr' using hr
  obtain ⟨a', rfl⟩ := ha
  have hl : ∀ k : Fin n, (u k * (a' : EReal)) * r k = ((u' k * a' * r' k : ℝ) : EReal) := fun k => by
    rw [hu' k, hr' k, EReal.coe_mul, EReal.coe_mul]
  have hr2 : ∀ k : Fin n, u k * r k = ((u' k * r' k : ℝ) : EReal) := fun k => by
    rw [hu' k, hr' k, EReal.coe_mul]
  rw [Finset.sum_congr rfl fun k _ => hl k, Finset.sum_congr rfl fun k _ => hr2 k, ← coe_sum, ← coe_sum,
    ← EReal.coe_mul, Finset.mul_sum]
  exact congrArg _ (Finset.sum_congr rfl fun k _ => by ring)

end Cert.Scores

end
-- ==== Proof.RealZ.lean ====
/-
  The first graph convolution's result has real entries.

  Every stage of the convolution is built from operations under which "every entry is a real number" is stable:
  a broadcast or a gather reads an entry of its operand; a product or a sum of two arrays is entrywise the
  extended reals' product or sum; a matrix product's entry is a finite sum of products; a scatter-add's entry is the
  operand's entry plus a finite sum of updates.  None of this depends on which indices the edge table names.
  The one case split is the reciprocal square root of the degree: where the degree (a real number) is positive its
  reciprocal square root is the real number (√deg)⁻¹, and elsewhere the stage puts 0.
-/
import proofs.«152145_j6485400617795_1_alg».proof.Proof.Spec
import proofs.«152145_j6485400617795_1_alg».proof.Proof.LibRealLaw
import Idealize.ShloMosaic.Lib.ValueIdx
import Idealize.ShloMosaic.PureOps.Ideal.Laws

noncomputable section

namespace Cert.RealZ

open Idealize.ShloMosaic Idealize.ShloMosaic.ValueIdx Cert.ReferenceIdeal Cert.Scores

/-! ## Closure under the operations, over arbitrary shapes -/

section Closure
variable {s t : Shape}

/-- A broadcast reads an entry of its operand. -/
theorem real_bcast (dims : Fin s.rank → Fin t.rank) (h : s.BroadcastsInDim t dims) {x : s.Idx → EReal}
    (hx : ∀ i, IsReal (x i)) : ∀ j, IsReal (broadcastInDim t dims h x j) := fun j => hx _

/-- A gather reads an entry of its operand. -/
theorem real_gather {si : Shape} {w : Nat} (d : GatherDims s si t) (idx : IVec si w) {x : s.Idx → EReal}
    (hx : ∀ i, IsReal (x i)) : ∀ j, IsReal (Host.gather d x idx j) := fun j => hx _

/-- An entrywise product of real arrays is real. -/
theorem real_mulf {φ : FTy} {a b : FVec Ideal s φ} (ha : ∀ i, IsReal (a i)) (hb : ∀ i, IsReal (b i)) :
    ∀ i, IsReal (mulf a b i) := fun i => (ha i).mul (hb i)

/-- An entrywise sum of real arrays is real. -/
theorem real_addf {φ : FTy} {a b : FVec Ideal s φ} (ha : ∀ i, IsReal (a i)) (hb : ∀ i, IsReal (b i)) :
    ∀ i, IsReal (addf a b i) := fun i => (ha i).add (hb i)

/-- A scatter-add of real updates into a real operand is real: each entry is the operand's plus a finite sum of updates. -/
theorem real_scatterAdd {si u : Shape} {w : Nat} {φ : FTy} (d : ScatterDims s si u) (idx : IVec si w)
    {x : FVec Ideal s φ} {upd : FVec Ideal u φ} (hx : ∀ i, IsReal (x i)) (hu : ∀ j, IsReal (upd j)) :
    ∀ i, IsReal (Host.scatterAdd d x idx upd i) := fun i => by
  unfold Host.scatterAdd
  rw [Ideal.hostScatterAdd_def]
  unfold Ideal.hostScatterAdd
  exact (hx i).add (IsReal.sum _ hu)

/-- A matrix product of real arrays is real: each entry is a finite sum of products. -/
theorem real_dot {sl sr so : Shape} {φ₁ φ₂ : FTy} (d : DotDims sl sr so) (prec : Option ContractPrecision)
    {l : FVec Ideal sl φ₁} {r : FVec Ideal sr φ₂} (hl : ∀ i, IsReal (l i)) (hr : ∀ i, IsReal (r i)) :
    ∀ j, IsReal (Host.dotGeneral d prec l r j) := fun j => by
  show IsReal (FloatOps.dotGeneral d prec .single l r j)
  rw [Ideal.dotGeneral_apply]
  exact IsReal.sum _ (fun k => (hl _).mul (hr _))

/-- The word 0x3F800000 denotes 1. -/
theorem ofBits_one_f32 : Ideal.ofBits .f32 0x3F800000#32 = 1 := by
  simp [Ideal.ofBits, Ideal.ieee]
  rw [← EReal.coe_mul, ← EReal.coe_one]
  exact congrArg _ (by norm_num)

/-- The constant 0 is real. -/
theorem real_const_zero (i : S_.Idx) : IsReal (constant (F := Ideal) S_ .f32 0x00000000#32 i) := by
  show IsReal (Ideal.ofBits .f32 0x00000000#32)
  rw [Ideal.ofBits_zero_f32]; exact isReal_zero

/-- The constant 1 is real. -/
theorem real_const_one (i : S_.Idx) : IsReal (constant (F := Ideal) S_ .f32 0x3F800000#32 i) := by
  show IsReal (Ideal.ofBits .f32 0x3F800000#32)
  rw [ofBits_one_f32]; exact isReal_one

/-- The reciprocal square root where the argument is positive, 0 elsewhere: real when the argument is real. -/
theorem real_dinv {deg z z' : FVec Ideal s .f32} (hz : ∀ i, z i = 0) (hz' : ∀ i, z' i = 0)
    (hdeg : ∀ i, IsReal (deg i)) : ∀ i, IsReal (select (cmpf .ogt deg z) (Host.rsqrt deg) z' i) := fun i => by
  rw [select_apply, cmpf_apply]
  by_cases hc : FloatOps.cmpf .ogt (deg i) (z i) = 1#1
  · rw [hc, select_one]
    obtain ⟨r, hr⟩ := hdeg i
    have hpos : 0 < r := by
      rw [hr, hz i, Ideal.cmpf_def] at hc
      change BitVec.ofBool (decide ((0 : EReal) < (r : EReal))) = 1#1 at hc
      by_contra hn
      have hn' : ¬ (0 : EReal) < (r : EReal) := fun h => hn (EReal.coe_pos.1 h)
      rw [decide_eq_false hn'] at hc
      exact absurd hc (by decide)
    show IsReal (FloatOps.hostUnary .rsqrt (deg i))
    rw [hr, Ideal.hostUnary_rsqrt_def, Ideal.rsqrt_coe, if_neg (not_lt.2 hpos.le), if_neg hpos.ne']
    exact isReal_coe _
  · rw [eq_zero_of_ne_one hc, select_zero, hz' i]; exact isReal_zero

end Closure

/-! ## The stages -/

section Stages
variable [Facts]
open Facts₀ Facts

/-- The degrees are real. -/
theorem degOf_real (d : Spec.IC Ideal S1700000) : ∀ i, IsReal (Spec.degOf (F := Ideal) d i) := by
  unfold Spec.degOf
  exact real_scatterAdd _ _ (real_bcast _ _ real_const_zero) (real_bcast _ _ real_const_one)

/-- The reciprocal square roots of the degrees are real. -/
theorem dinvOf_real {deg : Spec.FC Ideal S100000} (h : ∀ i, IsReal (deg i)) : ∀ i, IsReal (Spec.dinvOf (F := Ideal) deg i) := by
  unfold Spec.dinvOf
  exact real_dinv (fun i => Ideal.ofBits_zero_f32) (fun i => Ideal.ofBits_zero_f32) h

/-- The edge weights are real. -/
theorem normOf_real (s d : Spec.IC Ideal S1700000) : ∀ i, IsReal (Spec.normOf (F := Ideal) s d i) := by
  unfold Spec.normOf
  exact real_mulf (real_gather _ _ (dinvOf_real (degOf_real d))) (real_gather _ _ (dinvOf_real (degOf_real d)))

/-- A convolution of real features with real weights and a real bias is real. -/
theorem agg128_real (s d : Spec.IC Ideal S1700000) {nrm : Spec.FC Ideal S1700000} {H : Spec.FC Ideal S100000x128}
    {b : Spec.FC Ideal S128} (hn : ∀ i, IsReal (nrm i)) (hH : ∀ i, IsReal (H i)) (hb : ∀ i, IsReal (b i)) :
    ∀ i, IsReal (Spec.agg128 (F := Ideal) s d nrm H b i) := by
  unfold Spec.agg128
  exact real_addf
    (real_scatterAdd _ _ (real_bcast _ _ real_const_zero)
      (real_mulf (real_gather _ _ hH) (real_bcast _ _ (real_bcast _ _ hn))))
    (real_bcast _ _ (real_bcast _ _ hb))

end Stages

/-- Every entry of the first graph convolution's result is a real number when the features, the weights and the bias are. -/
theorem zOf_real [Cert.ReferenceIdeal.Facts] (x : Spec.FC Ideal S100000x128) (ei : Spec.IC Ideal S2x1600000)
    (W1 : Spec.FC Ideal S128x128) (b1 : Spec.FC Ideal S128)
    (hx : ∀ i, ∃ r : ℝ, x i = (r : EReal)) (hW : ∀ i, ∃ r : ℝ, W1 i = (r : EReal)) (hb : ∀ i, ∃ r : ℝ, b1 i = (r : EReal)) :
    ∀ i, ∃ r : ℝ, Spec.zOf (F := Ideal) x ei W1 b1 i = (r : EReal) := by
  unfold Spec.zOf
  exact agg128_real _ _ (normOf_real _ _) (real_dot _ _ hx hW) hb

end Cert.RealZ

end
-- ==== Proof.KerValue.lean ====
/-
  The value of the idealized kernel program's result.

  Region by region: the first matrix-product region leaves x·W1, which is the host's dot_general entry by entry
  (both are the sum over the 128 contracted coordinates); the stretch after it is the first convolution, so its
  result is the reference's z.  The statistics region leaves the column sums of z and of z², the next stretch
  turns them into the factor and the summand, and the affine region leaves z·factor + summand through the leaky
  rectifier — which, z being finite, is the reference's normalisation and rectifier entry by entry.  The second
  matrix-product region and the last stretch are the second convolution.
-/
import proofs.«152145_j6485400617795_1_alg».proof.Proof.KerChain
import proofs.«152145_j6485400617795_1_alg».proof.Proof.KerMatmul0
import proofs.«152145_j6485400617795_1_alg».proof.Proof.KerMatmul3
import proofs.«152145_j6485400617795_1_alg».proof.Proof.KerStats
import proofs.«152145_j6485400617795_1_alg».proof.Proof.KerAffine
import proofs.«152145_j6485400617795_1_alg».proof.Proof.ActBridge
import proofs.«152145_j6485400617795_1_alg».proof.Proof.RealZ
import proofs.«152145_j6485400617795_1_alg».proof.Proof.LibPlainDot
import proofs.«152145_j6485400617795_1_alg».proof.Proof.LibRowVector
import proofs.«152145_j6485400617795_1_alg».proof.Proof.Gen.ReferenceIdeal

set_option maxRecDepth 16384

noncomputable section

namespace Cert.KernelIdeal.Value

open Idealize.ShloMosaic Idealize.ShloMosaic.ValueIdx Idealize.ShloMosaic.TcCoe Idealize.SL.Sem
open Cert.KernelIdeal Cert.KernelIdeal.Gen Cert.KernelIdeal.Chain Cert.KernelIdeal.Regions
open Cert.ReferenceIdeal (Spec.zOf Spec.actOf Spec.refOut)

variable (m : (ℓ : Loc nD τ sig) → Buf (Elt Ideal) ℓ) (ρ : Dev nD → PrngReg) (c : Dev nD)

/-- A [100000,128]×[128,128] array given entry by entry as the sum over the contracted coordinate is the host's product. -/
theorem dot128_of_entries (l : FVec Ideal ⟨2, ![100000, 128]⟩ .f32) (r : FVec Ideal ⟨2, ![128, 128]⟩ .f32)
    (G : FVec Ideal ⟨2, ![100000, 128]⟩ .f32)
    (h : ∀ (p : Fin 100000) (q : Fin 128), G (ix2 p q) = ∑ k : Fin 128, l (ix2 p k) * r (ix2 k q)) :
    G = Host.dotGeneral (F := Ideal) (φ₁ := .f32) (φ₂ := .f32) Cert.ReferenceIdeal.dot_S100000x128_S128x128_S100000x128_1_0_0_1_n_n none l r := by
  funext i
  obtain ⟨p, q, rfl⟩ : ∃ (p : Fin 100000) (q : Fin 128), i = ix2 p q := ⟨i 0, i 1, eq_ix2 i⟩
  exact (h p q).trans (Cert.PlainDot.dotGeneral_apply _ rfl none .single l r p q).symm

/-- The same for [100000,128]×[128,64]. -/
theorem dot64_of_entries (l : FVec Ideal ⟨2, ![100000, 128]⟩ .f32) (r : FVec Ideal ⟨2, ![128, 64]⟩ .f32)
    (G : FVec Ideal ⟨2, ![100000, 64]⟩ .f32)
    (h : ∀ (p : Fin 100000) (q : Fin 64), G (ix2 p q) = ∑ k : Fin 128, l (ix2 p k) * r (ix2 k q)) :
    G = Host.dotGeneral (F := Ideal) (φ₁ := .f32) (φ₂ := .f32) Cert.ReferenceIdeal.dot_S100000x128_S128x64_S100000x64_1_0_0_1_n_n none l r := by
  funext i
  obtain ⟨p, q, rfl⟩ : ∃ (p : Fin 100000) (q : Fin 64), i = ix2 p q := ⟨i 0, i 1, eq_ix2 i⟩
  exact (h p q).trans (Cert.PlainDot.dotGeneral_apply _ rfl none .single l r p q).symm

/-- Region 0 leaves the first product. -/
theorem first_product :
    W4 m ρ c (Proc.devRef .tc main_v30)
      = Host.dotGeneral (F := Ideal) (φ₁ := .f32) (φ₂ := .f32) Cert.ReferenceIdeal.dot_S100000x128_S128x128_S100000x128_1_0_0_1_n_n none
          (m ((c : Thread nD τ).loc main_arg0)) (m ((c : Thread nD τ).loc main_arg2)) := by
  refine (W4_arr m ρ c 2).trans ((mm0_final (V3 m ρ) c).trans ?_)
  rw [show V3 m ρ c main_arg0 = m ((c : Thread nD τ).loc main_arg0) from W3_arg0 m ρ c,
    show V3 m ρ c main_arg2 = m ((c : Thread nD τ).loc main_arg2) from W3_arg2 m ρ c]
  exact dot128_of_entries _ _ _ fun p q => prod0_apply _ _ p q

/-- The first convolution's result is the reference's. -/
theorem first_conv :
    W5 m ρ c (Proc.devRef .tc main_v46)
      = Cert.ReferenceIdeal.Spec.zOf (F := Ideal) (m ((c : Thread nD τ).loc main_arg0)) (m ((c : Thread nD τ).loc main_arg1))
          (m ((c : Thread nD τ).loc main_arg2)) (m ((c : Thread nD τ).loc main_arg3)) := by
  rw [W5_z, W4_v5, W4_v6, W4_v29, W3_src, W3_dst, W3_norm, W4_arg3, first_product]
  rfl

/-! ## The statistics, the factor and the summand, the affine region -/

/-- A vector [128] reshaped to a row, at (0, q), is the vector's entry q. -/
theorem vec_to_row_apply (v : (⟨1, ![128]⟩ : Shape).Idx → EReal) (h : (⟨1, ![128]⟩ : Shape).ShapeCasts ⟨2, ![1, 128]⟩) (q : Fin 128) :
    shapeCast ⟨2, ![1, 128]⟩ v h (ix2 (0 : Fin 1) q) = v (ix1 q) :=
  (Cert.RowVector.reshape_apply v h (ix2 (0 : Fin 1) q)).trans
    (congrArg v (funext fun a => Fin.ext (by match a with | ⟨0, _⟩ => rfl)))

/-- A scalar reshaped to a [1,1] array, at (0, 0), is the scalar. -/
theorem scalar_to_cell_apply (a : (⟨0, ![]⟩ : Shape).Idx → EReal) (h : (⟨0, ![]⟩ : Shape).ShapeCasts ⟨2, ![1, 1]⟩) :
    shapeCast ⟨2, ![1, 1]⟩ a h (ix2 (0 : Fin 1) (0 : Fin 1)) = a ix0 := by
  unfold shapeCast
  exact congrArg a (funext fun d => d.elim0)

/-- The column sums the statistics region leaves are the column sums of z. -/
theorem col_sums (q : Fin 128) :
    W6 m ρ c (Proc.devRef .tc main_v47_0) (ix2 (0 : Fin 1) q)
      = ∑ k : Fin 100000, Cert.ReferenceIdeal.Spec.zOf (F := Ideal) (m ((c : Thread nD τ).loc main_arg0)) (m ((c : Thread nD τ).loc main_arg1))
          (m ((c : Thread nD τ).loc main_arg2)) (m ((c : Thread nD τ).loc main_arg3)) (ix2 k q) := by
  refine (congrFun (W6_arr m ρ c 1) _).trans ((congrFun (stats_sum_final (V5 m ρ) c) _).trans ((colSum_apply _ q).trans ?_))
  rw [show V5 m ρ c main_v46 = _ from first_conv m ρ c]

/-- The column sums of squares the statistics region leaves. -/
theorem col_sumsqs (q : Fin 128) :
    W6 m ρ c (Proc.devRef .tc main_v47_1) (ix2 (0 : Fin 1) q)
      = ∑ k : Fin 100000, Cert.ReferenceIdeal.Spec.zOf (F := Ideal) (m ((c : Thread nD τ).loc main_arg0)) (m ((c : Thread nD τ).loc main_arg1))
            (m ((c : Thread nD τ).loc main_arg2)) (m ((c : Thread nD τ).loc main_arg3)) (ix2 k q)
          * Cert.ReferenceIdeal.Spec.zOf (F := Ideal) (m ((c : Thread nD τ).loc main_arg0)) (m ((c : Thread nD τ).loc main_arg1))
            (m ((c : Thread nD τ).loc main_arg2)) (m ((c : Thread nD τ).loc main_arg3)) (ix2 k q) := by
  refine (congrFun (W6_arr m ρ c 2) _).trans ((congrFun (stats_sumsq_final (V5 m ρ) c) _).trans ((colSumSq_apply _ q).trans ?_))
  rw [show V5 m ρ c main_v46 = _ from first_conv m ρ c]

variable (hx : ∀ i, ∃ r : ℝ, m ((c : Thread nD τ).loc main_arg0) i = (r : EReal))
  (hW1 : ∀ i, ∃ r : ℝ, m ((c : Thread nD τ).loc main_arg2) i = (r : EReal))
  (hb1 : ∀ i, ∃ r : ℝ, m ((c : Thread nD τ).loc main_arg3) i = (r : EReal))
  (hγ : ∀ i, ∃ r : ℝ, m ((c : Thread nD τ).loc main_arg6) i = (r : EReal))
  (hβ : ∀ i, ∃ r : ℝ, m ((c : Thread nD τ).loc main_arg7) i = (r : EReal))

include hx hW1 hb1 hγ hβ in
/-- What the affine region leaves is the reference's normalised and rectified z, entry by entry. -/
theorem act_entry (p : Fin 100000) (q : Fin 128) :
    W8 m ρ c (Proc.devRef .tc main_v67) (ix2 p q)
      = Cert.ReferenceIdeal.Spec.actOf (F := Ideal)
          (Cert.ReferenceIdeal.Spec.zOf (F := Ideal) (m ((c : Thread nD τ).loc main_arg0)) (m ((c : Thread nD τ).loc main_arg1))
            (m ((c : Thread nD τ).loc main_arg2)) (m ((c : Thread nD τ).loc main_arg3)))
          (m ((c : Thread nD τ).loc main_arg6)) (m ((c : Thread nD τ).loc main_arg7)) (m ((c : Thread nD τ).loc main_arg8)) (ix2 p q) := by
  refine (congrFun (W8_arr m ρ c 4) _).trans ((act_arr (V7 m ρ) c p q).trans ?_)
  rw [show V7 m ρ c main_v46 = _ from (W7_v46 m ρ c).trans (first_conv m ρ c),
    show V7 m ρ c main_v64 = _ from W7_scale m ρ c, show V7 m ρ c main_v65 = _ from W7_shift m ρ c,
    show V7 m ρ c main_v66 = _ from W7_slope m ρ c,
    vec_to_row_apply _ _ q, vec_to_row_apply _ _ q, scalar_to_cell_apply,
    W6_arg6 m ρ c, W6_arg7 m ρ c, W6_arg8 m ρ c]
  exact Cert.ActBridge.act_bridge _ _ _ _ _ _
    (Cert.RealZ.zOf_real _ _ _ _ hx hW1 hb1) hγ hβ (col_sums m ρ c) (col_sumsqs m ρ c) p q

include hx hW1 hb1 hγ hβ in
/-- Region 3 leaves the second product, of the reference's normalised and rectified z. -/
theorem second_product :
    W9 m ρ c (Proc.devRef .tc main_v68)
      = Host.dotGeneral (F := Ideal) (φ₁ := .f32) (φ₂ := .f32) Cert.ReferenceIdeal.dot_S100000x128_S128x64_S100000x64_1_0_0_1_n_n none
          (Cert.ReferenceIdeal.Spec.actOf (F := Ideal)
            (Cert.ReferenceIdeal.Spec.zOf (F := Ideal) (m ((c : Thread nD τ).loc main_arg0)) (m ((c : Thread nD τ).loc main_arg1))
              (m ((c : Thread nD τ).loc main_arg2)) (m ((c : Thread nD τ).loc main_arg3)))
            (m ((c : Thread nD τ).loc main_arg6)) (m ((c : Thread nD τ).loc main_arg7)) (m ((c : Thread nD τ).loc main_arg8)))
          (m ((c : Thread nD τ).loc main_arg4)) := by
  refine (W9_arr m ρ c 2).trans ((mm3_final (V8 m ρ) c).trans ?_)
  rw [show V8 m ρ c main_arg4 = m ((c : Thread nD τ).loc main_arg4) from W8_arg4 m ρ c]
  refine dot64_of_entries _ _ _ fun p q => (prod3_apply _ _ p q).trans (Finset.sum_congr rfl fun k _ => ?_)
  rw [show V8 m ρ c main_v67 (ix2 p k) = _ from act_entry m ρ c hx hW1 hb1 hγ hβ p k]

include hx hW1 hb1 hγ hβ in
/-- THE VALUE: the kernel program's result is the reference's function of the arguments. -/
theorem final :
    W10 m ρ c (Proc.devRef .tc main_v84)
      = Cert.ReferenceIdeal.Spec.refOut (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7))
          (m ((c : Thread nD τ).loc main_arg8)) := by
  rw [W10_out, W9_v5, W9_v6, W9_v29, W3_src, W3_dst, W3_norm, W9_arg5, second_product m ρ c hx hW1 hb1 hγ hβ]
  rfl

end Cert.KernelIdeal.Value

end
-- ==== Proof.PreReal.lean ====
/-
  From the precondition to real entries.

  The precondition states, for each of the eight float inputs, that the conjunction over all entries of
  "|x| < +∞" is true, and that the conjunction of these eight statements is true.  An extended real whose absolute
  value max x (-x) is strictly below ⊤ is neither ⊤ nor ⊥, hence the image of a real number.  Reading the
  conjunctions back entry by entry gives: every entry of every float input is a real number.
-/
import proofs.«152145_j6485400617795_1_alg».proof.Defs
import proofs.«152145_j6485400617795_1_alg».proof.Proof.Gen.Pre_finite_inputs
import Idealize.ShloMosaic.Lib.ReduceAll
import Idealize.ShloMosaic.Lib.ValueIdx
import Idealize.ShloMosaic.PureOps.Ideal.Laws

noncomputable section

namespace Cert.PreReal

open Idealize.ShloMosaic Idealize.SL.Sem
open Cert.Pre_finite_inputs

/-- The rank-0 shape has one index. -/
instance : Subsingleton S_.Idx := ⟨fun a b => funext fun d => d.elim0⟩

/-- The word 0x7F800000 denotes +∞. -/
theorem inf_eq_top : Ideal.ofBits .f32 0x7F800000#32 = (⊤ : EReal) := by simp [Ideal.ofBits, Ideal.ieee]

/-- An extended real with |x| < +∞ is a real number. -/
theorem real_of_abs_lt (x : Ideal .f32)
    (h : FloatOps.cmpf .olt (FloatOps.hostAbsf x) (Ideal.ofBits .f32 0x7F800000#32) = 1#1) :
    ∃ r : ℝ, x = (r : EReal) := by
  rw [inf_eq_top] at h
  change Ideal.cmp .olt (max (x : EReal) (-(x : EReal))) ⊤ = 1#1 at h
  unfold Ideal.cmp at h
  induction x using EReal.rec with
  | bot => simp at h
  | coe r => exact ⟨r, rfl⟩
  | top => simp at h

/-- An all-reduce by "and" of the entrywise test |x| < +∞ (against the splat of +∞) that is true makes every entry real. -/
theorem real_of_all {s : Shape} {axes : List (Fin s.rank)} (x : FVec Ideal s .f32)
    (hb : S_.BroadcastsInDim s (![] : Fin 0 → Fin s.rank)) (hr : s.ReducesTo axes S_) (hu : 0 < S_.numel)
    (h : Host.reduce IntOp.andi
        (cmpf .olt (Host.absf x) (broadcastInDim s ![] hb (constant (F := Ideal) S_ .f32 0x7F800000#32)))
        (constantI S_ 1 1#1) hr hu ValueIdx.ix0 = 1#1) :
    ∀ i, ∃ r : ℝ, x i = (r : EReal) := fun i =>
  real_of_abs_lt (x i) (Host.reduce_andi_all _ _ hr hu ValueIdx.ix0 h i)

/-- The same for the rank-0 input, whose test is against the constant itself and whose reduce runs over no axis. -/
theorem real_of_all0 (x : FVec Ideal S_ .f32) (hr : S_.ReducesTo [] S_) (hu : 0 < S_.numel)
    (h : Host.reduce IntOp.andi (cmpf .olt (Host.absf x) (constant (F := Ideal) S_ .f32 0x7F800000#32))
        (constantI S_ 1 1#1) hr hu ValueIdx.ix0 = 1#1) :
    ∀ i, ∃ r : ℝ, x i = (r : EReal) := fun i =>
  real_of_abs_lt (x i) (Host.reduce_andi_all _ _ hr hu ValueIdx.ix0 h i)

/-- The printed precondition, over arbitrary arrays: if it evaluates to true, every entry of every float array is real. -/
theorem fn_real [Facts] (a0 : FVec Ideal S100000x128 .f32) (a1 : IVec S2x1600000 32) (a2 : FVec Ideal S128x128 .f32)
    (a3 : FVec Ideal S128 .f32) (a4 : FVec Ideal S128x64 .f32) (a5 : FVec Ideal S64 .f32) (a6 a7 : FVec Ideal S128 .f32)
    (a8 : FVec Ideal S_ .f32)
    (h : fn (F := Ideal) a0 a1 a2 a3 a4 a5 a6 a7 a8 = fun _ => 1#1) :
    (∀ i, ∃ r : ℝ, a0 i = (r : EReal)) ∧ (∀ i, ∃ r : ℝ, a2 i = (r : EReal)) ∧ (∀ i, ∃ r : ℝ, a3 i = (r : EReal))
    ∧ (∀ i, ∃ r : ℝ, a4 i = (r : EReal)) ∧ (∀ i, ∃ r : ℝ, a5 i = (r : EReal)) ∧ (∀ i, ∃ r : ℝ, a6 i = (r : EReal))
    ∧ (∀ i, ∃ r : ℝ, a7 i = (r : EReal)) ∧ (∀ i, ∃ r : ℝ, a8 i = (r : EReal)) := by
  have h0 := congrFun h ValueIdx.ix0
  dsimp only [fn, fn_part1, fn_part2] at h0
  obtain ⟨h0, e8⟩ := IntOp.andi_eq_one.1 h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨e0, e2⟩ := IntOp.andi_eq_one.1 h0
  exact ⟨real_of_all a0 _ _ _ e0, real_of_all a2 _ _ _ e2, real_of_all a3 _ _ _ e3, real_of_all a4 _ _ _ e4,
    real_of_all a5 _ _ _ e5, real_of_all a6 _ _ _ e6, real_of_all a7 _ _ _ e7, real_of_all0 a8 _ _ e8⟩

/-- Under the precondition every entry of every float input is a real number, on every device. -/
theorem inputs_real [hPre : Cert.Pre_finite_inputs.Facts] [hK : Cert.KernelIdeal.Facts]
    (m : (ℓ : Loc Cert.KernelIdeal.nD Cert.KernelIdeal.τ Cert.KernelIdeal.sig) → Buf (Elt Ideal) ℓ) (h : Cert.Pre_KernelIdeal m)
    (c : Dev Cert.KernelIdeal.nD) :
    (∀ i, ∃ r : ℝ, m ((c.tc : Thread _ _).loc Cert.KernelIdeal.main_arg0) i = (r : EReal))
    ∧ (∀ i, ∃ r : ℝ, m ((c.tc : Thread _ _).loc Cert.KernelIdeal.main_arg2) i = (r : EReal))
    ∧ (∀ i, ∃ r : ℝ, m ((c.tc : Thread _ _).loc Cert.KernelIdeal.main_arg3) i = (r : EReal))
    ∧ (∀ i, ∃ r : ℝ, m ((c.tc : Thread _ _).loc Cert.KernelIdeal.main_arg4) i = (r : EReal))
    ∧ (∀ i, ∃ r : ℝ, m ((c.tc : Thread _ _).loc Cert.KernelIdeal.main_arg5) i = (r : EReal))
    ∧ (∀ i, ∃ r : ℝ, m ((c.tc : Thread _ _).loc Cert.KernelIdeal.main_arg6) i = (r : EReal))
    ∧ (∀ i, ∃ r : ℝ, m ((c.tc : Thread _ _).loc Cert.KernelIdeal.main_arg7) i = (r : EReal))
    ∧ (∀ i, ∃ r : ℝ, m ((c.tc : Thread _ _).loc Cert.KernelIdeal.main_arg8) i = (r : EReal)) :=
  fn_real _ _ _ _ _ _ _ _ _ (h c)

end Cert.PreReal

end
-- ==== Proof.RefOps.lean ====
/-
  The reference program's run, read as a list. @main of the reference is a straight line of StableHLO
  operations: its own one hundred and forty statements, four of them calls of module-local functions
  (`_where` twice, `_var`, which itself calls `_where_0`, and `_where_1`). A call means its callee's body
  over the call's buffer record, so each call contributes its callee's operations in place, written over
  that record's fields. The three printed windows of @main become three lists; @main is the straight line
  of their concatenation, and every weakly fair execution ends with each TensorCore buffer at the fold of
  the operations' results over the launch contents.
-/
import proofs.«152145_j6485400617795_1_alg».proof.ReferenceIdeal
import proofs.«152145_j6485400617795_1_alg».proof.Proof.Gen.ReferenceIdeal
import Idealize.ShloMosaic.Lib.StableHlo.Run

noncomputable section

namespace Cert.ReferenceIdeal.HandRun

open Cert.ReferenceIdeal
open Idealize.ShloMosaic Idealize.ShloMosaic.TcCoe Idealize.SL.Sem

variable {F : FTy → Type} [FloatOps F]
variable [Facts]
open Facts₀ Facts

/-- Statements 1 … 60 of @main: the edge endpoints with the self loops appended, the in-degree by a
    scatter of ones, its reciprocal square root where positive (the first `_where`, three operations over
    its record), the edge weights by two gathers, the first product, the weighted rows scattered onto their
    targets, the bias, and the column sums. -/
abbrev ops0 : List (HloOp τ sig (Elt F)) :=
  [ StableHlo.unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v0 main_v1 rfl shapeCasts_S1x1600000_S1600000,
    StableHlo.unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v2 main_v3 rfl shapeCasts_S1x1600000_S1600000,
    StableHlo.binary main_arg0 main_arg2 main_v4 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.nullary main_v5 (iotaInDim S100000 32 0),
    StableHlo.binary main_v1 main_v5 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    StableHlo.binary main_v3 main_v5 main_v7 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    StableHlo.nullary main_cst (constant S_ .f32 0x3F800000#32),
    StableHlo.unary main_cst main_v8 (broadcastInDim S1700000 ![] bcast_S_S1700000 : (⟨S_, .f32⟩ : BufTy).Contents (Elt F) → (⟨S1700000, .f32⟩ : BufTy).Contents (Elt F)),
    StableHlo.nullary main_cst_0 (constant S_ .f32 0x00000000#32),
    StableHlo.unary main_cst_0 main_v9 (broadcastInDim S100000 ![] bcast_S_S100000 : (⟨S_, .f32⟩ : BufTy).Contents (Elt F) → (⟨S100000, .f32⟩ : BufTy).Contents (Elt F)),
    StableHlo.unary main_v7 main_v10 (broadcastInDim S1700000x1 ![0] bcast_S1700000_S1700000x1_0 : (⟨S1700000, .i32⟩ : BufTy).Contents (Elt F) → (⟨S1700000x1, .i32⟩ : BufTy).Contents (Elt F)),
    StableHlo.ternary main_v9 main_v10 main_v8 main_v11 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    StableHlo.nullary main_cst_1 (constant S_ .f32 0x00000000#32),
    StableHlo.unary main_cst_1 main_v12 (broadcastInDim S100000 ![] bcast_S_S100000 : (⟨S_, .f32⟩ : BufTy).Contents (Elt F) → (⟨S100000, .f32⟩ : BufTy).Contents (Elt F)),
    StableHlo.binary main_v11 main_v12 main_v13 (cmpf .ogt : (⟨S100000, .f32⟩ : BufTy).Contents (Elt F) → (⟨S100000, .f32⟩ : BufTy).Contents (Elt F) → (⟨S100000, .i1⟩ : BufTy).Contents (Elt F)),
    StableHlo.unary main_v11 main_v14 (Host.rsqrt : (⟨S100000, .f32⟩ : BufTy).Contents (Elt F) → (⟨S100000, .f32⟩ : BufTy).Contents (Elt F)),
    StableHlo.nullary main_cst_2 (constant S_ .f32 0x00000000#32),
    StableHlo.TRef.unary (.of main_cst_2 : StableHlo.TRef sig ⟨S_, .f32⟩) main_call0.v0 id,
    StableHlo.TRef.unary main_call0.v0 main_call0.v1 (broadcastInDim S100000 ![] bcast_S_S100000),
    StableHlo.TRef.ternary (.of main_v13 : StableHlo.TRef sig ⟨S100000, .i1⟩) (.of main_v14 : StableHlo.TRef sig ⟨S100000, .f32⟩) main_call0.v1 main_call0.v2 select,
    StableHlo.nullary main_c (constantI S_ 32 0#32),
    StableHlo.unary main_c main_v16 (broadcastInDim S1700000 ![] bcast_S_S1700000 : (⟨S_, .i32⟩ : BufTy).Contents (Elt F) → (⟨S1700000, .i32⟩ : BufTy).Contents (Elt F)),
    StableHlo.binary main_v6 main_v16 main_v17 (cmpi .slt : (⟨S1700000, .i32⟩ : BufTy).Contents (Elt F) → (⟨S1700000, .i32⟩ : BufTy).Contents (Elt F) → (⟨S1700000, .i1⟩ : BufTy).Contents (Elt F)),
    StableHlo.nullary main_c_3 (constantI S_ 32 100000#32),
    StableHlo.unary main_c_3 main_v18 (broadcastInDim S1700000 ![] bcast_S_S1700000 : (⟨S_, .i32⟩ : BufTy).Contents (Elt F) → (⟨S1700000, .i32⟩ : BufTy).Contents (Elt F)),
    StableHlo.binary main_v6 main_v18 main_v19 (addi : (⟨S1700000, .i32⟩ : BufTy).Contents (Elt F) → (⟨S1700000, .i32⟩ : BufTy).Contents (Elt F) → (⟨S1700000, .i32⟩ : BufTy).Contents (Elt F)),
    StableHlo.ternary main_v17 main_v19 main_v6 main_v20 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v20 main_v21 (broadcastInDim S1700000x1 ![0] bcast_S1700000_S1700000x1_0 : (⟨S1700000, .i32⟩ : BufTy).Contents (Elt F) → (⟨S1700000x1, .i32⟩ : BufTy).Contents (Elt F)),
    StableHlo.binary main_v15 main_v21 main_v22 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    StableHlo.nullary main_c_4 (constantI S_ 32 0#32),
    StableHlo.unary main_c_4 main_v23 (broadcastInDim S1700000 ![] bcast_S_S1700000 : (⟨S_, .i32⟩ : BufTy).Contents (Elt F) → (⟨S1700000, .i32⟩ : BufTy).Contents (Elt F)),
    StableHlo.binary main_v7 main_v23 main_v24 (cmpi .slt : (⟨S1700000, .i32⟩ : BufTy).Contents (Elt F) → (⟨S1700000, .i32⟩ : BufTy).Contents (Elt F) → (⟨S1700000, .i1⟩ : BufTy).Contents (Elt F)),
    StableHlo.nullary main_c_5 (constantI S_ 32 100000#32),
    StableHlo.unary main_c_5 main_v25 (broadcastInDim S1700000 ![] bcast_S_S1700000 : (⟨S_, .i32⟩ : BufTy).Contents (Elt F) → (⟨S1700000, .i32⟩ : BufTy).Contents (Elt F)),
    StableHlo.binary main_v7 main_v25 main_v26 (addi : (⟨S1700000, .i32⟩ : BufTy).Contents (Elt F) → (⟨S1700000, .i32⟩ : BufTy).Contents (Elt F) → (⟨S1700000, .i32⟩ : BufTy).Contents (Elt F)),
    StableHlo.ternary main_v24 main_v26 main_v7 main_v27 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v27 main_v28 (broadcastInDim S1700000x1 ![0] bcast_S1700000_S1700000x1_0 : (⟨S1700000, .i32⟩ : BufTy).Contents (Elt F) → (⟨S1700000x1, .i32⟩ : BufTy).Contents (Elt F)),
    StableHlo.binary main_v15 main_v28 main_v29 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    StableHlo.binary main_v22 main_v29 main_v30 (mulf : (⟨S1700000, .f32⟩ : BufTy).Contents (Elt F) → (⟨S1700000, .f32⟩ : BufTy).Contents (Elt F) → (⟨S1700000, .f32⟩ : BufTy).Contents (Elt F)),
    StableHlo.nullary main_c_6 (constantI S_ 32 0#32),
    StableHlo.unary main_c_6 main_v31 (broadcastInDim S1700000 ![] bcast_S_S1700000 : (⟨S_, .i32⟩ : BufTy).Contents (Elt F) → (⟨S1700000, .i32⟩ : BufTy).Contents (Elt F)),
    StableHlo.binary main_v6 main_v31 main_v32 (cmpi .slt : (⟨S1700000, .i32⟩ : BufTy).Contents (Elt F) → (⟨S1700000, .i32⟩ : BufTy).Contents (Elt F) → (⟨S1700000, .i1⟩ : BufTy).Contents (Elt F)),
    StableHlo.nullary main_c_7 (constantI S_ 32 100000#32),
    StableHlo.unary main_c_7 main_v33 (broadcastInDim S1700000 ![] bcast_S_S1700000 : (⟨S_, .i32⟩ : BufTy).Contents (Elt F) → (⟨S1700000, .i32⟩ : BufTy).Contents (Elt F)),
    StableHlo.binary main_v6 main_v33 main_v34 (addi : (⟨S1700000, .i32⟩ : BufTy).Contents (Elt F) → (⟨S1700000, .i32⟩ : BufTy).Contents (Elt F) → (⟨S1700000, .i32⟩ : BufTy).Contents (Elt F)),
    StableHlo.ternary main_v32 main_v34 main_v6 main_v35 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v35 main_v36 (broadcastInDim S1700000x1 ![0] bcast_S1700000_S1700000x1_0 : (⟨S1700000, .i32⟩ : BufTy).Contents (Elt F) → (⟨S1700000x1, .i32⟩ : BufTy).Contents (Elt F)),
    StableHlo.binary main_v4 main_v36 main_v37 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    StableHlo.unary main_v30 main_v38 (broadcastInDim S1700000x1 ![0] bcast_S1700000_S1700000x1_0 : (⟨S1700000, .f32⟩ : BufTy).Contents (Elt F) → (⟨S1700000x1, .f32⟩ : BufTy).Contents (Elt F)),
    StableHlo.unary main_v38 main_v39 (broadcastInDim S1700000x128 ![0, 1] bcast_S1700000x1_S1700000x128_0_1 : (⟨S1700000x1, .f32⟩ : BufTy).Contents (Elt F) → (⟨S1700000x128, .f32⟩ : BufTy).Contents (Elt F)),
    StableHlo.binary main_v37 main_v39 main_v40 (mulf : (⟨S1700000x128, .f32⟩ : BufTy).Contents (Elt F) → (⟨S1700000x128, .f32⟩ : BufTy).Contents (Elt F) → (⟨S1700000x128, .f32⟩ : BufTy).Contents (Elt F)),
    StableHlo.nullary main_cst_8 (constant S_ .f32 0x00000000#32),
    StableHlo.unary main_cst_8 main_v41 (broadcastInDim S100000x128 ![] bcast_S_S100000x128 : (⟨S_, .f32⟩ : BufTy).Contents (Elt F) → (⟨S100000x128, .f32⟩ : BufTy).Contents (Elt F)),
    StableHlo.unary main_v7 main_v42 (broadcastInDim S1700000x1 ![0] bcast_S1700000_S1700000x1_0 : (⟨S1700000, .i32⟩ : BufTy).Contents (Elt F) → (⟨S1700000x1, .i32⟩ : BufTy).Contents (Elt F)),
    StableHlo.ternary main_v41 main_v42 main_v40 main_v43 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    StableHlo.unary main_arg3 main_v44 (broadcastInDim S1x128 ![1] bcast_S128_S1x128_1 : (⟨S128, .f32⟩ : BufTy).Contents (Elt F) → (⟨S1x128, .f32⟩ : BufTy).Contents (Elt F)),
    StableHlo.unary main_v44 main_v45 (broadcastInDim S100000x128 ![0, 1] bcast_S1x128_S100000x128_0_1 : (⟨S1x128, .f32⟩ : BufTy).Contents (Elt F) → (⟨S100000x128, .f32⟩ : BufTy).Contents (Elt F)),
    StableHlo.binary main_v43 main_v45 main_v46 (addf : (⟨S100000x128, .f32⟩ : BufTy).Contents (Elt F) → (⟨S100000x128, .f32⟩ : BufTy).Contents (Elt F) → (⟨S100000x128, .f32⟩ : BufTy).Contents (Elt F)),
    StableHlo.nullary main_cst_9 (constant S_ .f32 0x00000000#32),
    StableHlo.binary main_v46 main_cst_9 main_v47 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)) ]

/-- Statements 61 … 120 of @main: the mean, the variance (`_var`: nineteen operations and the three of
    its `_where_0`, over its record), the normalisation, the scale and shift, the leaky activation
    (`_where_1`: one select), the second product, and the edge weights once more (the second `_where`). -/
abbrev ops1 : List (HloOp τ sig (Elt F)) :=
  [ StableHlo.nullary main_cst_10 (constant S_ .f32 0x47C35000#32),
    StableHlo.unary main_cst_10 main_v48 (broadcastInDim S128 ![] bcast_S_S128 : (⟨S_, .f32⟩ : BufTy).Contents (Elt F) → (⟨S128, .f32⟩ : BufTy).Contents (Elt F)),
    StableHlo.binary main_v47 main_v48 main_v49 (Host.divf : (⟨S128, .f32⟩ : BufTy).Contents (Elt F) → (⟨S128, .f32⟩ : BufTy).Contents (Elt F) → (⟨S128, .f32⟩ : BufTy).Contents (Elt F)),
    StableHlo.nullary main_c_11 (constantI S_ 32 0#32),
    StableHlo.TRef.nullary main_call1.cst (constant S_ .f32 0x00000000#32),
    StableHlo.TRef.binary (.of main_v46 : StableHlo.TRef sig ⟨S100000x128, .f32⟩) main_call1.cst main_call1.v0 (fun x v => Host.reduceAdd x v reducesTo_S100000x128_S128_d0 h_S_),
    StableHlo.TRef.unary main_call1.v0 main_call1.v1 (broadcastInDim S1x128 ![1] bcast_S128_S1x128_1),
    StableHlo.TRef.nullary main_call1.cst_0 (constant S_ .f32 0x47C35000#32),
    StableHlo.TRef.unary main_call1.cst_0 main_call1.v2 (broadcastInDim S1x128 ![] bcast_S_S1x128),
    StableHlo.TRef.binary main_call1.v1 main_call1.v2 main_call1.v3 Host.divf,
    StableHlo.TRef.unary main_call1.v3 main_call1.v4 (broadcastInDim S100000x128 ![0, 1] bcast_S1x128_S100000x128_0_1),
    StableHlo.TRef.binary (.of main_v46 : StableHlo.TRef sig ⟨S100000x128, .f32⟩) main_call1.v4 main_call1.v5 subf,
    StableHlo.TRef.binary main_call1.v5 main_call1.v5 main_call1.v6 mulf,
    StableHlo.TRef.unary (.of main_c_11 : StableHlo.TRef sig ⟨S_, .i32⟩) main_call1.v7 (sitofp .f32),
    StableHlo.TRef.nullary main_call1.cst_1 (constant S_ .f32 0x47C35000#32),
    StableHlo.TRef.binary main_call1.cst_1 main_call1.v7 main_call1.v8 subf,
    StableHlo.TRef.nullary main_call1.cst_2 (constant S_ .f32 0x00000000#32),
    StableHlo.TRef.binary main_call1.v6 main_call1.cst_2 main_call1.v9 (fun x v => Host.reduceAdd x v reducesTo_S100000x128_S128_d0 h_S_),
    StableHlo.TRef.unary main_call1.v8 main_call1.v10 (broadcastInDim S128 ![] bcast_S_S128),
    StableHlo.TRef.binary main_call1.v9 main_call1.v10 main_call1.v11 Host.divf,
    StableHlo.TRef.nullary main_call1.cst_3 (constant S_ .f32 0x00000000#32),
    StableHlo.TRef.binary main_call1.v8 main_call1.cst_3 main_call1.v12 (cmpf .ogt),
    StableHlo.TRef.nullary main_call1.cst_4 (constant S_ .f32 0x7FC00000#32),
    StableHlo.TRef.unary main_call1.cst_4 main_call1.call0.v0 id,
    StableHlo.TRef.unary main_call1.call0.v0 main_call1.call0.v1 (broadcastInDim S128 ![] bcast_S_S128),
    StableHlo.TRef.ternary main_call1.v12 main_call1.v11 main_call1.call0.v1 main_call1.call0.v2 (fun p a b => select (broadcastInDim S128 ![] bcast_S_S128 p) a b),
    StableHlo.unary main_v49 main_v51 (broadcastInDim S1x128 ![1] bcast_S128_S1x128_1 : (⟨S128, .f32⟩ : BufTy).Contents (Elt F) → (⟨S1x128, .f32⟩ : BufTy).Contents (Elt F)),
    StableHlo.unary main_v51 main_v52 (broadcastInDim S100000x128 ![0, 1] bcast_S1x128_S100000x128_0_1 : (⟨S1x128, .f32⟩ : BufTy).Contents (Elt F) → (⟨S100000x128, .f32⟩ : BufTy).Contents (Elt F)),
    StableHlo.binary main_v46 main_v52 main_v53 (subf : (⟨S100000x128, .f32⟩ : BufTy).Contents (Elt F) → (⟨S100000x128, .f32⟩ : BufTy).Contents (Elt F) → (⟨S100000x128, .f32⟩ : BufTy).Contents (Elt F)),
    StableHlo.nullary main_cst_12 (constant S_ .f32 0x3727C5AC#32),
    StableHlo.unary main_cst_12 main_v54 (broadcastInDim S128 ![] bcast_S_S128 : (⟨S_, .f32⟩ : BufTy).Contents (Elt F) → (⟨S128, .f32⟩ : BufTy).Contents (Elt F)),
    StableHlo.binary main_v50 main_v54 main_v55 (addf : (⟨S128, .f32⟩ : BufTy).Contents (Elt F) → (⟨S128, .f32⟩ : BufTy).Contents (Elt F) → (⟨S128, .f32⟩ : BufTy).Contents (Elt F)),
    StableHlo.unary main_v55 main_v56 (Host.rsqrt : (⟨S128, .f32⟩ : BufTy).Contents (Elt F) → (⟨S128, .f32⟩ : BufTy).Contents (Elt F)),
    StableHlo.binary main_arg6 main_v56 main_v57 (mulf : (⟨S128, .f32⟩ : BufTy).Contents (Elt F) → (⟨S128, .f32⟩ : BufTy).Contents (Elt F) → (⟨S128, .f32⟩ : BufTy).Contents (Elt F)),
    StableHlo.unary main_v57 main_v58 (broadcastInDim S1x128 ![1] bcast_S128_S1x128_1 : (⟨S128, .f32⟩ : BufTy).Contents (Elt F) → (⟨S1x128, .f32⟩ : BufTy).Contents (Elt F)),
    StableHlo.unary main_v58 main_v59 (broadcastInDim S100000x128 ![0, 1] bcast_S1x128_S100000x128_0_1 : (⟨S1x128, .f32⟩ : BufTy).Contents (Elt F) → (⟨S100000x128, .f32⟩ : BufTy).Contents (Elt F)),
    StableHlo.binary main_v53 main_v59 main_v60 (mulf : (⟨S100000x128, .f32⟩ : BufTy).Contents (Elt F) → (⟨S100000x128, .f32⟩ : BufTy).Contents (Elt F) → (⟨S100000x128, .f32⟩ : BufTy).Contents (Elt F)),
    StableHlo.unary main_arg7 main_v61 (broadcastInDim S1x128 ![1] bcast_S128_S1x128_1 : (⟨S128, .f32⟩ : BufTy).Contents (Elt F) → (⟨S1x128, .f32⟩ : BufTy).Contents (Elt F)),
    StableHlo.unary main_v61 main_v62 (broadcastInDim S100000x128 ![0, 1] bcast_S1x128_S100000x128_0_1 : (⟨S1x128, .f32⟩ : BufTy).Contents (Elt F) → (⟨S100000x128, .f32⟩ : BufTy).Contents (Elt F)),
    StableHlo.binary main_v60 main_v62 main_v63 (addf : (⟨S100000x128, .f32⟩ : BufTy).Contents (Elt F) → (⟨S100000x128, .f32⟩ : BufTy).Contents (Elt F) → (⟨S100000x128, .f32⟩ : BufTy).Contents (Elt F)),
    StableHlo.nullary main_cst_13 (constant S_ .f32 0x00000000#32),
    StableHlo.unary main_cst_13 main_v64 (broadcastInDim S100000x128 ![] bcast_S_S100000x128 : (⟨S_, .f32⟩ : BufTy).Contents (Elt F) → (⟨S100000x128, .f32⟩ : BufTy).Contents (Elt F)),
    StableHlo.binary main_v63 main_v64 main_v65 (cmpf .oge : (⟨S100000x128, .f32⟩ : BufTy).Contents (Elt F) → (⟨S100000x128, .f32⟩ : BufTy).Contents (Elt F) → (⟨S100000x128, .i1⟩ : BufTy).Contents (Elt F)),
    StableHlo.unary main_arg8 main_v66 (broadcastInDim S100000x128 ![] bcast_S_S100000x128 : (⟨S_, .f32⟩ : BufTy).Contents (Elt F) → (⟨S100000x128, .f32⟩ : BufTy).Contents (Elt F)),
    StableHlo.binary main_v66 main_v63 main_v67 (mulf : (⟨S100000x128, .f32⟩ : BufTy).Contents (Elt F) → (⟨S100000x128, .f32⟩ : BufTy).Contents (Elt F) → (⟨S100000x128, .f32⟩ : BufTy).Contents (Elt F)),
    StableHlo.TRef.ternary (.of main_v65 : StableHlo.TRef sig ⟨S100000x128, .i1⟩) (.of main_v63 : StableHlo.TRef sig ⟨S100000x128, .f32⟩) (.of main_v67 : StableHlo.TRef sig ⟨S100000x128, .f32⟩) main_call2.v0 select,
    StableHlo.binary main_v68 main_arg4 main_v69 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    StableHlo.nullary main_v70 (iotaInDim S100000 32 0),
    StableHlo.binary main_v1 main_v70 main_v71 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    StableHlo.binary main_v3 main_v70 main_v72 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    StableHlo.nullary main_cst_14 (constant S_ .f32 0x3F800000#32),
    StableHlo.unary main_cst_14 main_v73 (broadcastInDim S1700000 ![] bcast_S_S1700000 : (⟨S_, .f32⟩ : BufTy).Contents (Elt F) → (⟨S1700000, .f32⟩ : BufTy).Contents (Elt F)),
    StableHlo.nullary main_cst_15 (constant S_ .f32 0x00000000#32),
    StableHlo.unary main_cst_15 main_v74 (broadcastInDim S100000 ![] bcast_S_S100000 : (⟨S_, .f32⟩ : BufTy).Contents (Elt F) → (⟨S100000, .f32⟩ : BufTy).Contents (Elt F)),
    StableHlo.unary main_v72 main_v75 (broadcastInDim S1700000x1 ![0] bcast_S1700000_S1700000x1_0 : (⟨S1700000, .i32⟩ : BufTy).Contents (Elt F) → (⟨S1700000x1, .i32⟩ : BufTy).Contents (Elt F)),
    StableHlo.ternary main_v74 main_v75 main_v73 main_v76 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    StableHlo.nullary main_cst_16 (constant S_ .f32 0x00000000#32),
    StableHlo.unary main_cst_16 main_v77 (broadcastInDim S100000 ![] bcast_S_S100000 : (⟨S_, .f32⟩ : BufTy).Contents (Elt F) → (⟨S100000, .f32⟩ : BufTy).Contents (Elt F)),
    StableHlo.binary main_v76 main_v77 main_v78 (cmpf .ogt : (⟨S100000, .f32⟩ : BufTy).Contents (Elt F) → (⟨S100000, .f32⟩ : BufTy).Contents (Elt F) → (⟨S100000, .i1⟩ : BufTy).Contents (Elt F)),
    StableHlo.unary main_v76 main_v79 (Host.rsqrt : (⟨S100000, .f32⟩ : BufTy).Contents (Elt F) → (⟨S100000, .f32⟩ : BufTy).Contents (Elt F)),
    StableHlo.nullary main_cst_17 (constant S_ .f32 0x00000000#32),
    StableHlo.TRef.unary (.of main_cst_17 : StableHlo.TRef sig ⟨S_, .f32⟩) main_call3.v0 id,
    StableHlo.TRef.unary main_call3.v0 main_call3.v1 (broadcastInDim S100000 ![] bcast_S_S100000),
    StableHlo.TRef.ternary (.of main_v78 : StableHlo.TRef sig ⟨S100000, .i1⟩) (.of main_v79 : StableHlo.TRef sig ⟨S100000, .f32⟩) main_call3.v1 main_call3.v2 select,
    StableHlo.nullary main_c_18 (constantI S_ 32 0#32),
    StableHlo.unary main_c_18 main_v81 (broadcastInDim S1700000 ![] bcast_S_S1700000 : (⟨S_, .i32⟩ : BufTy).Contents (Elt F) → (⟨S1700000, .i32⟩ : BufTy).Contents (Elt F)),
    StableHlo.binary main_v71 main_v81 main_v82 (cmpi .slt : (⟨S1700000, .i32⟩ : BufTy).Contents (Elt F) → (⟨S1700000, .i32⟩ : BufTy).Contents (Elt F) → (⟨S1700000, .i1⟩ : BufTy).Contents (Elt F)),
    StableHlo.nullary main_c_19 (constantI S_ 32 100000#32),
    StableHlo.unary main_c_19 main_v83 (broadcastInDim S1700000 ![] bcast_S_S1700000 : (⟨S_, .i32⟩ : BufTy).Contents (Elt F) → (⟨S1700000, .i32⟩ : BufTy).Contents (Elt F)),
    StableHlo.binary main_v71 main_v83 main_v84 (addi : (⟨S1700000, .i32⟩ : BufTy).Contents (Elt F) → (⟨S1700000, .i32⟩ : BufTy).Contents (Elt F) → (⟨S1700000, .i32⟩ : BufTy).Contents (Elt F)),
    StableHlo.ternary main_v82 main_v84 main_v71 main_v85 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v85 main_v86 (broadcastInDim S1700000x1 ![0] bcast_S1700000_S1700000x1_0 : (⟨S1700000, .i32⟩ : BufTy).Contents (Elt F) → (⟨S1700000x1, .i32⟩ : BufTy).Contents (Elt F)),
    StableHlo.binary main_v80 main_v86 main_v87 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    StableHlo.nullary main_c_20 (constantI S_ 32 0#32),
    StableHlo.unary main_c_20 main_v88 (broadcastInDim S1700000 ![] bcast_S_S1700000 : (⟨S_, .i32⟩ : BufTy).Contents (Elt F) → (⟨S1700000, .i32⟩ : BufTy).Contents (Elt F)),
    StableHlo.binary main_v72 main_v88 main_v89 (cmpi .slt : (⟨S1700000, .i32⟩ : BufTy).Contents (Elt F) → (⟨S1700000, .i32⟩ : BufTy).Contents (Elt F) → (⟨S1700000, .i1⟩ : BufTy).Contents (Elt F)),
    StableHlo.nullary main_c_21 (constantI S_ 32 100000#32),
    StableHlo.unary main_c_21 main_v90 (broadcastInDim S1700000 ![] bcast_S_S1700000 : (⟨S_, .i32⟩ : BufTy).Contents (Elt F) → (⟨S1700000, .i32⟩ : BufTy).Contents (Elt F)),
    StableHlo.binary main_v72 main_v90 main_v91 (addi : (⟨S1700000, .i32⟩ : BufTy).Contents (Elt F) → (⟨S1700000, .i32⟩ : BufTy).Contents (Elt F) → (⟨S1700000, .i32⟩ : BufTy).Contents (Elt F)),
    StableHlo.ternary main_v89 main_v91 main_v72 main_v92 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v92 main_v93 (broadcastInDim S1700000x1 ![0] bcast_S1700000_S1700000x1_0 : (⟨S1700000, .i32⟩ : BufTy).Contents (Elt F) → (⟨S1700000x1, .i32⟩ : BufTy).Contents (Elt F)),
    StableHlo.binary main_v80 main_v93 main_v94 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    StableHlo.binary main_v87 main_v94 main_v95 (mulf : (⟨S1700000, .f32⟩ : BufTy).Contents (Elt F) → (⟨S1700000, .f32⟩ : BufTy).Contents (Elt F) → (⟨S1700000, .f32⟩ : BufTy).Contents (Elt F)) ]

/-- Statements 121 … 140 of @main: the second gather, the weighting, the scatter onto the targets and the
    bias. -/
abbrev ops2 : List (HloOp τ sig (Elt F)) :=
  [ StableHlo.nullary main_c_22 (constantI S_ 32 0#32),
    StableHlo.unary main_c_22 main_v96 (broadcastInDim S1700000 ![] bcast_S_S1700000 : (⟨S_, .i32⟩ : BufTy).Contents (Elt F) → (⟨S1700000, .i32⟩ : BufTy).Contents (Elt F)),
    StableHlo.binary main_v71 main_v96 main_v97 (cmpi .slt : (⟨S1700000, .i32⟩ : BufTy).Contents (Elt F) → (⟨S1700000, .i32⟩ : BufTy).Contents (Elt F) → (⟨S1700000, .i1⟩ : BufTy).Contents (Elt F)),
    StableHlo.nullary main_c_23 (constantI S_ 32 100000#32),
    StableHlo.unary main_c_23 main_v98 (broadcastInDim S1700000 ![] bcast_S_S1700000 : (⟨S_, .i32⟩ : BufTy).Contents (Elt F) → (⟨S1700000, .i32⟩ : BufTy).Contents (Elt F)),
    StableHlo.binary main_v71 main_v98 main_v99 (addi : (⟨S1700000, .i32⟩ : BufTy).Contents (Elt F) → (⟨S1700000, .i32⟩ : BufTy).Contents (Elt F) → (⟨S1700000, .i32⟩ : BufTy).Contents (Elt F)),
    StableHlo.ternary main_v97 main_v99 main_v71 main_v100 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v100 main_v101 (broadcastInDim S1700000x1 ![0] bcast_S1700000_S1700000x1_0 : (⟨S1700000, .i32⟩ : BufTy).Contents (Elt F) → (⟨S1700000x1, .i32⟩ : BufTy).Contents (Elt F)),
    StableHlo.binary main_v69 main_v101 main_v102 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    StableHlo.unary main_v95 main_v103 (broadcastInDim S1700000x1 ![0] bcast_S1700000_S1700000x1_0 : (⟨S1700000, .f32⟩ : BufTy).Contents (Elt F) → (⟨S1700000x1, .f32⟩ : BufTy).Contents (Elt F)),
    StableHlo.unary main_v103 main_v104 (broadcastInDim S1700000x64 ![0, 1] bcast_S1700000x1_S1700000x64_0_1 : (⟨S1700000x1, .f32⟩ : BufTy).Contents (Elt F) → (⟨S1700000x64, .f32⟩ : BufTy).Contents (Elt F)),
    StableHlo.binary main_v102 main_v104 main_v105 (mulf : (⟨S1700000x64, .f32⟩ : BufTy).Contents (Elt F) → (⟨S1700000x64, .f32⟩ : BufTy).Contents (Elt F) → (⟨S1700000x64, .f32⟩ : BufTy).Contents (Elt F)),
    StableHlo.nullary main_cst_24 (constant S_ .f32 0x00000000#32),
    StableHlo.unary main_cst_24 main_v106 (broadcastInDim S100000x64 ![] bcast_S_S100000x64 : (⟨S_, .f32⟩ : BufTy).Contents (Elt F) → (⟨S100000x64, .f32⟩ : BufTy).Contents (Elt F)),
    StableHlo.unary main_v72 main_v107 (broadcastInDim S1700000x1 ![0] bcast_S1700000_S1700000x1_0 : (⟨S1700000, .i32⟩ : BufTy).Contents (Elt F) → (⟨S1700000x1, .i32⟩ : BufTy).Contents (Elt F)),
    StableHlo.ternary main_v106 main_v107 main_v105 main_v108 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)),
    StableHlo.unary main_arg5 main_v109 (broadcastInDim S1x64 ![1] bcast_S64_S1x64_1 : (⟨S64, .f32⟩ : BufTy).Contents (Elt F) → (⟨S1x64, .f32⟩ : BufTy).Contents (Elt F)),
    StableHlo.unary main_v109 main_v110 (broadcastInDim S100000x64 ![0, 1] bcast_S1x64_S100000x64_0_1 : (⟨S1x64, .f32⟩ : BufTy).Contents (Elt F) → (⟨S100000x64, .f32⟩ : BufTy).Contents (Elt F)),
    StableHlo.binary main_v108 main_v110 main_v111 (addf : (⟨S100000x64, .f32⟩ : BufTy).Contents (Elt F) → (⟨S100000x64, .f32⟩ : BufTy).Contents (Elt F) → (⟨S100000x64, .f32⟩ : BufTy).Contents (Elt F)) ]

/-- @main's operations in order, the calls unfolded. -/
abbrev ops : List (HloOp τ sig (Elt F)) := ops0 ++ ops1 ++ ops2

-- one re-association per statement: the rewrite under the chain recurses once per statement
set_option maxRecDepth 8192 in
set_option maxHeartbeats 4000000 in
/-- The first window is its list: the callee's definition unfolded at the call and the record at its
    fields, both sides are one chain of `hlo` steps once sequencing is reassociated. -/
theorem main_part0_eq (c : Dev nD) : main_part0 (F := F) c = StableHlo.seq ops0 := by
  simp only [main_part0, fn_where.body, StableHlo.seq, bind_assoc, pure_bind]
  rfl

set_option maxRecDepth 8192 in
set_option maxHeartbeats 4000000 in
/-- The second window is its list, likewise (four definitions unfold: `_var`, its `_where_0`, `_where_1`
    and `_where`). -/
theorem main_part1_eq (c : Dev nD) : main_part1 (F := F) c = StableHlo.seq ops1 := by
  simp only [main_part1, fn_var.body, fn_where_0.body, fn_where_1.body, fn_where.body, StableHlo.seq, bind_assoc, pure_bind]
  rfl

set_option maxRecDepth 8192 in
set_option maxHeartbeats 4000000 in
/-- The third window is its list. -/
theorem main_part2_eq (c : Dev nD) : main_part2 (F := F) c = StableHlo.seq ops2 := by
  simp only [main_part2, StableHlo.seq, bind_assoc, pure_bind]

/-- @main runs its three windows in order, and a line of two lists run one after the other is their
    concatenation run as one. -/
theorem main_eq (c : Dev nD) : main (F := F) c = StableHlo.seq ops := by
  show main (F := F) c = StableHlo.seq (ops0 ++ ops1 ++ ops2)
  rw [StableHlo.seq_append, StableHlo.seq_append, ← main_part0_eq c, ← main_part1_eq c, ← main_part2_eq c]
  simp only [main, bind_assoc]

theorem scopedRefs_eq : (Finset.univ.filter fun b : Ref sig .tc => b.isScoped) = ∅ := by decide
theorem scopedSems_eq : (Finset.univ.filter fun sm : SemLoc sig => sm.isScoped .tc) = ∅ := by decide

theorem ops0_sub : (ops0 : List (HloOp τ sig (Elt F))).Forall fun op => op.bufs ⊆ StableHlo.tcRefs τ sig :=
  ⟨StableHlo.unary_bufs_sub .., StableHlo.reshape_bufs_sub .., StableHlo.unary_bufs_sub .., StableHlo.reshape_bufs_sub .., StableHlo.binary_bufs_sub .., StableHlo.nullary_bufs_sub ..,
    StableHlo.binary_bufs_sub .., StableHlo.binary_bufs_sub .., StableHlo.nullary_bufs_sub .., StableHlo.unary_bufs_sub .., StableHlo.nullary_bufs_sub .., StableHlo.unary_bufs_sub ..,
    StableHlo.unary_bufs_sub .., StableHlo.ternary_bufs_sub .., StableHlo.nullary_bufs_sub .., StableHlo.unary_bufs_sub .., StableHlo.binary_bufs_sub .., StableHlo.unary_bufs_sub ..,
    StableHlo.nullary_bufs_sub .., StableHlo.unary_bufs_sub .., StableHlo.unary_bufs_sub .., StableHlo.ternary_bufs_sub .., StableHlo.nullary_bufs_sub .., StableHlo.unary_bufs_sub ..,
    StableHlo.binary_bufs_sub .., StableHlo.nullary_bufs_sub .., StableHlo.unary_bufs_sub .., StableHlo.binary_bufs_sub .., StableHlo.ternary_bufs_sub .., StableHlo.unary_bufs_sub ..,
    StableHlo.binary_bufs_sub .., StableHlo.nullary_bufs_sub .., StableHlo.unary_bufs_sub .., StableHlo.binary_bufs_sub .., StableHlo.nullary_bufs_sub .., StableHlo.unary_bufs_sub ..,
    StableHlo.binary_bufs_sub .., StableHlo.ternary_bufs_sub .., StableHlo.unary_bufs_sub .., StableHlo.binary_bufs_sub .., StableHlo.binary_bufs_sub .., StableHlo.nullary_bufs_sub ..,
    StableHlo.unary_bufs_sub .., StableHlo.binary_bufs_sub .., StableHlo.nullary_bufs_sub .., StableHlo.unary_bufs_sub .., StableHlo.binary_bufs_sub .., StableHlo.ternary_bufs_sub ..,
    StableHlo.unary_bufs_sub .., StableHlo.binary_bufs_sub .., StableHlo.unary_bufs_sub .., StableHlo.unary_bufs_sub .., StableHlo.binary_bufs_sub .., StableHlo.nullary_bufs_sub ..,
    StableHlo.unary_bufs_sub .., StableHlo.unary_bufs_sub .., StableHlo.ternary_bufs_sub .., StableHlo.unary_bufs_sub .., StableHlo.unary_bufs_sub .., StableHlo.binary_bufs_sub ..,
    StableHlo.nullary_bufs_sub .., StableHlo.binary_bufs_sub ..⟩

theorem ops1_sub : (ops1 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.nullary_bufs_sub .., StableHlo.binary_bufs_sub ..,
    StableHlo.unary_bufs_sub .., StableHlo.nullary_bufs_sub .., StableHlo.unary_bufs_sub .., StableHlo.binary_bufs_sub .., StableHlo.unary_bufs_sub .., StableHlo.binary_bufs_sub ..,
    StableHlo.binary_bufs_sub .., StableHlo.unary_bufs_sub .., StableHlo.nullary_bufs_sub .., StableHlo.binary_bufs_sub .., StableHlo.nullary_bufs_sub .., StableHlo.binary_bufs_sub ..,
    StableHlo.unary_bufs_sub .., StableHlo.binary_bufs_sub .., StableHlo.nullary_bufs_sub .., StableHlo.binary_bufs_sub .., StableHlo.nullary_bufs_sub .., StableHlo.unary_bufs_sub ..,
    StableHlo.unary_bufs_sub .., StableHlo.ternary_bufs_sub .., StableHlo.unary_bufs_sub .., StableHlo.unary_bufs_sub .., StableHlo.binary_bufs_sub .., StableHlo.nullary_bufs_sub ..,
    StableHlo.unary_bufs_sub .., StableHlo.binary_bufs_sub .., StableHlo.unary_bufs_sub .., StableHlo.binary_bufs_sub .., StableHlo.unary_bufs_sub .., StableHlo.unary_bufs_sub ..,
    StableHlo.binary_bufs_sub .., StableHlo.unary_bufs_sub .., StableHlo.unary_bufs_sub .., StableHlo.binary_bufs_sub .., StableHlo.nullary_bufs_sub .., StableHlo.unary_bufs_sub ..,
    StableHlo.binary_bufs_sub .., StableHlo.unary_bufs_sub .., StableHlo.binary_bufs_sub .., StableHlo.ternary_bufs_sub .., StableHlo.binary_bufs_sub .., StableHlo.nullary_bufs_sub ..,
    StableHlo.binary_bufs_sub .., StableHlo.binary_bufs_sub .., StableHlo.nullary_bufs_sub .., StableHlo.unary_bufs_sub .., StableHlo.nullary_bufs_sub .., StableHlo.unary_bufs_sub ..,
    StableHlo.unary_bufs_sub .., StableHlo.ternary_bufs_sub .., StableHlo.nullary_bufs_sub .., StableHlo.unary_bufs_sub .., StableHlo.binary_bufs_sub .., StableHlo.unary_bufs_sub ..,
    StableHlo.nullary_bufs_sub .., StableHlo.unary_bufs_sub .., StableHlo.unary_bufs_sub .., StableHlo.ternary_bufs_sub .., StableHlo.nullary_bufs_sub .., StableHlo.unary_bufs_sub ..,
    StableHlo.binary_bufs_sub .., StableHlo.nullary_bufs_sub .., StableHlo.unary_bufs_sub .., StableHlo.binary_bufs_sub .., StableHlo.ternary_bufs_sub .., StableHlo.unary_bufs_sub ..,
    StableHlo.binary_bufs_sub .., StableHlo.nullary_bufs_sub .., StableHlo.unary_bufs_sub .., StableHlo.binary_bufs_sub .., StableHlo.nullary_bufs_sub .., StableHlo.unary_bufs_sub ..,
    StableHlo.binary_bufs_sub .., StableHlo.ternary_bufs_sub .., StableHlo.unary_bufs_sub .., StableHlo.binary_bufs_sub .., StableHlo.binary_bufs_sub ..⟩

theorem ops2_sub : (ops2 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub ..,
    StableHlo.ternary_bufs_sub .., StableHlo.unary_bufs_sub .., StableHlo.binary_bufs_sub .., StableHlo.unary_bufs_sub .., StableHlo.unary_bufs_sub .., StableHlo.binary_bufs_sub ..,
    StableHlo.nullary_bufs_sub .., StableHlo.unary_bufs_sub .., StableHlo.unary_bufs_sub .., StableHlo.ternary_bufs_sub .., StableHlo.unary_bufs_sub .., StableHlo.unary_bufs_sub ..,
    StableHlo.binary_bufs_sub ..⟩

/-- Every operation touches TensorCore references only. -/
theorem ops_sub : (ops : List (HloOp τ sig (Elt F))).Forall fun op => op.bufs ⊆ StableHlo.tcRefs τ sig :=
  List.forall_append.2 ⟨List.forall_append.2 ⟨ops0_sub, ops1_sub⟩, ops2_sub⟩

/-- At the compiled mesh, for any float values, from any memory with zero counters: every weakly fair
    execution of @main on the TensorCores terminates, and every final state has each TensorCore buffer at
    the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = StableHlo.after ops (StableHlo.launchContents m c) (b : DevRef τ sig) :=
  StableHlo.run_seq scopedRefs_eq scopedSems_eq defs main (fun _ => ops) main_eq (fun _ => ops_sub) m ρ

end Cert.ReferenceIdeal.HandRun

end
-- ==== Proof.LibFold.lean ====
/-
  A line of host operations run in two stretches.

  `StableHlo.after ops V` is the valuation after the operations `ops`, applied in order to the valuation `V`.  Running
  a concatenation is running the first stretch and then the second from what the first leaves.  With it a long
  prefix of host operations can be read stage by stage: a later stretch's result as a function of what the earlier
  stretches left at its operands, each operand then read in its own smaller stretch — instead of one composed term in
  which a value used several times is written out once per use.
-/
import Idealize.ShloMosaic.Lib.StableHlo.Run

namespace Idealize.ShloMosaic.StableHlo

variable {τ : Topo} {sig : RefSig} {Val : EltTy → Type}

/-- The valuation after two stretches run one after the other. -/
theorem after_append (l₁ l₂ : List (HloOp τ sig Val)) (V : Valuation τ sig Val) :
    after (l₁ ++ l₂) V = after l₂ (after l₁ V) := by
  induction l₁ generalizing V with
  | nil => rfl
  | cons op ops ih => exact ih (op.result V)

end Idealize.ShloMosaic.StableHlo
-- ==== Proof.RefStages.lean ====
/-
  The reference program's value, read off its line of operations.

  The line is three windows run one after the other. From any contents of the buffers, the first window leaves
  the two rows of the edge table, the first convolution's result and that result's column sums in their buffers;
  the second, from contents holding those, leaves the endpoints with their self loops, the edge weights and the
  second matrix product of the activated, normalised first result; the third leaves the second convolution's
  result. Each is the fold of that window's operations read at one buffer: an operation's result at its own
  buffer is its function of its operands' contents, at any other buffer what was there. The term so obtained is
  the staged definition of the value by unfolding; the gathers, scatters and reductions stay folded meanwhile,
  since the equations never look inside them. No window writes an argument.
-/
import proofs.«152145_j6485400617795_1_alg».proof.Proof.RefOps
import proofs.«152145_j6485400617795_1_alg».proof.Proof.Spec
import proofs.«152145_j6485400617795_1_alg».proof.Proof.LibFold
import proofs.«152145_j6485400617795_1_alg».proof.Proof.LibTypedRef

noncomputable section

namespace Cert.ReferenceIdeal.HandRun

open Cert.ReferenceIdeal
open Idealize.ShloMosaic Idealize.ShloMosaic.TcCoe Idealize.SL.Sem Idealize.ShloMosaic.StableHlo

variable {F : FTy → Type} [FloatOps F] [Facts]
open Facts₀ Facts

/-! ## Two vectors end to end

The sources and the destinations are each a row of 1600000 endpoints followed by the 100000 self loops. The
program's operation takes its operands as a list, on which the evidence that the lengths add up depends; named
as a function of the two vectors, the parts can be rewritten separately. -/

/-- A vector of 1600000 entries followed by one of 100000. -/
def cat2 (a : Spec.IC F S1600000) (b : Spec.IC F S100000) : Spec.IC F S1700000 :=
  concatenate S1700000 0 [⟨S1600000, a⟩, ⟨S100000, b⟩] concatenates_S1600000_S100000_S1700000_d0

theorem cat2_fold (a : Spec.IC F S1600000) (b : Spec.IC F S100000) :
    concatenate S1700000 0 [⟨S1600000, a⟩, ⟨S100000, b⟩] concatenates_S1600000_S100000_S1700000_d0 = cat2 a b := rfl

/-- The fold of a literal line of operations at a buffer, read as one term: each operation's result at its own
    buffer is its function of the operands' contents, at any other buffer what was there; the typed references'
    transports cancel, and two vectors end to end are named. -/
local macro "read_fold" : tactic =>
  `(tactic| (simp (disch := decide) only [after_cons, after_nil,
      nullary_result', unary_result', binary_result', ternary_result', reshape_result',
      nullary_result_ne', unary_result_ne', binary_result_ne', ternary_result_ne', reshape_result_ne',
      cat2_fold, TRef.ofBuf_toBuf, TRef.toBuf_ofBuf]))

/-! ## The first window: the first convolution

From any contents `V`, the first window leaves the two rows of the edge table in their buffers, the first
convolution's result in its own and that result's column sums beside it; it writes no argument. -/

/-- Row 0 of the edge table, as a vector. -/
theorem ops0_v1 (V : Valuation τ sig (Elt F)) :
    after ops0 V (main_v1 : DevRef τ sig) =
      shapeCast S1600000 (extractStridedSlice S1x1600000 ![0, 0] (V main_arg1) slices_S2x1600000_S1x1600000_0_0) shapeCasts_S1x1600000_S1600000 := by
  after_results_simp
  rfl

/-- Row 1 of the edge table, as a vector. -/
theorem ops0_v3 (V : Valuation τ sig (Elt F)) :
    after ops0 V (main_v3 : DevRef τ sig) =
      shapeCast S1600000 (extractStridedSlice S1x1600000 ![1, 0] (V main_arg1) slices_S2x1600000_S1x1600000_1_0) shapeCasts_S1x1600000_S1600000 := by
  after_results_simp
  rfl

attribute [local irreducible] Host.gather Host.scatterAdd Host.reduceAdd in
set_option maxRecDepth 8192 in
set_option maxHeartbeats 2000000 in
/-- The first convolution's result: the fold of the window's operations at that buffer is the staged
    definition by unfolding, the typed references' transports cancelled first. The gathers, scatters and
    reductions stay folded meanwhile: the equation never looks inside them. -/
theorem ops0_v46 (V : Valuation τ sig (Elt F)) :
    after ops0 V (main_v46 : DevRef τ sig) =
      Spec.zOf (V main_arg0) (V main_arg1) (V main_arg2) (V main_arg3) := by
  read_fold
  rfl

attribute [local irreducible] Host.gather Host.scatterAdd Host.reduceAdd in
set_option maxRecDepth 8192 in
set_option maxHeartbeats 2000000 in
/-- Its column sums. -/
theorem ops0_v47 (V : Valuation τ sig (Elt F)) :
    after ops0 V (main_v47 : DevRef τ sig) =
      Host.reduceAdd (Spec.zOf (V main_arg0) (V main_arg1) (V main_arg2) (V main_arg3)) (constant S_ .f32 0x00000000#32)
        reducesTo_S100000x128_S128_d0 h_S_ := by
  read_fold
  rfl

theorem ops0_arg0 (V : Valuation τ sig (Elt F)) : after ops0 V (main_arg0 : DevRef τ sig) = V main_arg0 := by
  after_results_simp
theorem ops0_arg1 (V : Valuation τ sig (Elt F)) : after ops0 V (main_arg1 : DevRef τ sig) = V main_arg1 := by
  after_results_simp
theorem ops0_arg2 (V : Valuation τ sig (Elt F)) : after ops0 V (main_arg2 : DevRef τ sig) = V main_arg2 := by
  after_results_simp
theorem ops0_arg3 (V : Valuation τ sig (Elt F)) : after ops0 V (main_arg3 : DevRef τ sig) = V main_arg3 := by
  after_results_simp
theorem ops0_arg4 (V : Valuation τ sig (Elt F)) : after ops0 V (main_arg4 : DevRef τ sig) = V main_arg4 := by
  after_results_simp
theorem ops0_arg5 (V : Valuation τ sig (Elt F)) : after ops0 V (main_arg5 : DevRef τ sig) = V main_arg5 := by
  after_results_simp
theorem ops0_arg6 (V : Valuation τ sig (Elt F)) : after ops0 V (main_arg6 : DevRef τ sig) = V main_arg6 := by
  after_results_simp
theorem ops0_arg7 (V : Valuation τ sig (Elt F)) : after ops0 V (main_arg7 : DevRef τ sig) = V main_arg7 := by
  after_results_simp
theorem ops0_arg8 (V : Valuation τ sig (Elt F)) : after ops0 V (main_arg8 : DevRef τ sig) = V main_arg8 := by
  after_results_simp

/-! ## The second window: normalisation, activation, second product, edge weights

Stated from any contents `W` that hold the edge table's rows, a value `z` and its column sums where the
first window leaves them. -/

/-- The sources with the self loops. -/
theorem ops1_v71 (W : Valuation τ sig (Elt F)) (ei : Spec.IC F S2x1600000)
    (h1 : W (main_v1 : DevRef τ sig) = shapeCast S1600000 (extractStridedSlice S1x1600000 ![0, 0] ei slices_S2x1600000_S1x1600000_0_0) shapeCasts_S1x1600000_S1600000) :
    after ops1 W (main_v71 : DevRef τ sig) = Spec.srcOf ei := by
  read_fold
  rw [cat2_fold]
  read_fold
  rw [h1]
  rfl

/-- The destinations with the self loops. -/
theorem ops1_v72 (W : Valuation τ sig (Elt F)) (ei : Spec.IC F S2x1600000)
    (h3 : W (main_v3 : DevRef τ sig) = shapeCast S1600000 (extractStridedSlice S1x1600000 ![1, 0] ei slices_S2x1600000_S1x1600000_1_0) shapeCasts_S1x1600000_S1600000) :
    after ops1 W (main_v72 : DevRef τ sig) = Spec.dstOf ei := by
  read_fold
  rw [cat2_fold]
  read_fold
  rw [h3]
  rfl

attribute [local irreducible] Host.gather Host.scatterAdd Host.reduceAdd in
set_option maxRecDepth 8192 in
set_option maxHeartbeats 2000000 in
/-- The edge weights. -/
theorem ops1_v95 (W : Valuation τ sig (Elt F)) (ei : Spec.IC F S2x1600000)
    (h1 : W (main_v1 : DevRef τ sig) = shapeCast S1600000 (extractStridedSlice S1x1600000 ![0, 0] ei slices_S2x1600000_S1x1600000_0_0) shapeCasts_S1x1600000_S1600000)
    (h3 : W (main_v3 : DevRef τ sig) = shapeCast S1600000 (extractStridedSlice S1x1600000 ![1, 0] ei slices_S2x1600000_S1x1600000_1_0) shapeCasts_S1x1600000_S1600000) :
    after ops1 W (main_v95 : DevRef τ sig) = Spec.normOf (Spec.srcOf ei) (Spec.dstOf ei) := by
  read_fold
  repeat rw [cat2_fold]
  read_fold
  rw [h1, h3]
  rfl

attribute [local irreducible] Host.gather Host.scatterAdd Host.reduceAdd in
set_option maxRecDepth 8192 in
set_option maxHeartbeats 2000000 in
/-- The second product: the activation of the normalised `z`, times the second weight matrix. -/
theorem ops1_v69 (W : Valuation τ sig (Elt F)) (z : Spec.FC F S100000x128)
    (h46 : W (main_v46 : DevRef τ sig) = z)
    (h47 : W (main_v47 : DevRef τ sig) = Host.reduceAdd z (constant S_ .f32 0x00000000#32) reducesTo_S100000x128_S128_d0 h_S_) :
    after ops1 W (main_v69 : DevRef τ sig) =
      Host.dotGeneral dot_S100000x128_S128x64_S100000x64_1_0_0_1_n_n none
        (Spec.actOf z (W main_arg6) (W main_arg7) (W main_arg8)) (W main_arg4) := by
  read_fold
  rw [h46, h47]
  rfl

theorem ops1_arg0 (V : Valuation τ sig (Elt F)) : after ops1 V (main_arg0 : DevRef τ sig) = V main_arg0 := by
  after_results_simp
theorem ops1_arg1 (V : Valuation τ sig (Elt F)) : after ops1 V (main_arg1 : DevRef τ sig) = V main_arg1 := by
  after_results_simp
theorem ops1_arg2 (V : Valuation τ sig (Elt F)) : after ops1 V (main_arg2 : DevRef τ sig) = V main_arg2 := by
  after_results_simp
theorem ops1_arg3 (V : Valuation τ sig (Elt F)) : after ops1 V (main_arg3 : DevRef τ sig) = V main_arg3 := by
  after_results_simp
theorem ops1_arg4 (V : Valuation τ sig (Elt F)) : after ops1 V (main_arg4 : DevRef τ sig) = V main_arg4 := by
  after_results_simp
theorem ops1_arg5 (V : Valuation τ sig (Elt F)) : after ops1 V (main_arg5 : DevRef τ sig) = V main_arg5 := by
  after_results_simp
theorem ops1_arg6 (V : Valuation τ sig (Elt F)) : after ops1 V (main_arg6 : DevRef τ sig) = V main_arg6 := by
  after_results_simp
theorem ops1_arg7 (V : Valuation τ sig (Elt F)) : after ops1 V (main_arg7 : DevRef τ sig) = V main_arg7 := by
  after_results_simp
theorem ops1_arg8 (V : Valuation τ sig (Elt F)) : after ops1 V (main_arg8 : DevRef τ sig) = V main_arg8 := by
  after_results_simp

/-! ## The third window: the second convolution -/

attribute [local irreducible] Host.gather Host.scatterAdd Host.reduceAdd in
/-- The result, from what the second window leaves. -/
theorem ops2_v111 (X : Valuation τ sig (Elt F)) :
    after ops2 X (main_v111 : DevRef τ sig) =
      Spec.agg64 (X main_v71) (X main_v72) (X main_v95) (X main_v69) (X main_arg5) := by
  after_results_simp
  rfl

theorem ops2_arg0 (V : Valuation τ sig (Elt F)) : after ops2 V (main_arg0 : DevRef τ sig) = V main_arg0 := by
  after_results_simp
theorem ops2_arg1 (V : Valuation τ sig (Elt F)) : after ops2 V (main_arg1 : DevRef τ sig) = V main_arg1 := by
  after_results_simp
theorem ops2_arg2 (V : Valuation τ sig (Elt F)) : after ops2 V (main_arg2 : DevRef τ sig) = V main_arg2 := by
  after_results_simp
theorem ops2_arg3 (V : Valuation τ sig (Elt F)) : after ops2 V (main_arg3 : DevRef τ sig) = V main_arg3 := by
  after_results_simp
theorem ops2_arg4 (V : Valuation τ sig (Elt F)) : after ops2 V (main_arg4 : DevRef τ sig) = V main_arg4 := by
  after_results_simp
theorem ops2_arg5 (V : Valuation τ sig (Elt F)) : after ops2 V (main_arg5 : DevRef τ sig) = V main_arg5 := by
  after_results_simp
theorem ops2_arg6 (V : Valuation τ sig (Elt F)) : after ops2 V (main_arg6 : DevRef τ sig) = V main_arg6 := by
  after_results_simp
theorem ops2_arg7 (V : Valuation τ sig (Elt F)) : after ops2 V (main_arg7 : DevRef τ sig) = V main_arg7 := by
  after_results_simp
theorem ops2_arg8 (V : Valuation τ sig (Elt F)) : after ops2 V (main_arg8 : DevRef τ sig) = V main_arg8 := by
  after_results_simp

/-! ## The whole line -/

/-- The three windows run one after the other. -/
theorem after_ops (V : Valuation τ sig (Elt F)) : after ops V = after ops2 (after ops1 (after ops0 V)) := by
  show after (ops0 ++ ops1 ++ ops2) V = _
  rw [after_append, after_append]

/-- The line's fold at the result buffer is the reference's value of the arguments' contents. -/
theorem out_eq (V : Valuation τ sig (Elt F)) :
    after ops V (main_v111 : DevRef τ sig) =
      Spec.refOut (V main_arg0) (V main_arg1) (V main_arg2) (V main_arg3) (V main_arg4) (V main_arg5)
        (V main_arg6) (V main_arg7) (V main_arg8) := by
  rw [after_ops, ops2_v111,
    ops1_v71 _ _ (ops0_v1 V), ops1_v72 _ _ (ops0_v3 V), ops1_v95 _ _ (ops0_v1 V) (ops0_v3 V),
    ops1_v69 _ _ (ops0_v46 V) (ops0_v47 V), ops1_arg5,
    ops0_arg4, ops0_arg5, ops0_arg6, ops0_arg7, ops0_arg8]
  rfl

theorem arg0_eq (V : Valuation τ sig (Elt F)) : after ops V (main_arg0 : DevRef τ sig) = V main_arg0 := by
  rw [after_ops, ops2_arg0, ops1_arg0, ops0_arg0]
theorem arg1_eq (V : Valuation τ sig (Elt F)) : after ops V (main_arg1 : DevRef τ sig) = V main_arg1 := by
  rw [after_ops, ops2_arg1, ops1_arg1, ops0_arg1]
theorem arg2_eq (V : Valuation τ sig (Elt F)) : after ops V (main_arg2 : DevRef τ sig) = V main_arg2 := by
  rw [after_ops, ops2_arg2, ops1_arg2, ops0_arg2]
theorem arg3_eq (V : Valuation τ sig (Elt F)) : after ops V (main_arg3 : DevRef τ sig) = V main_arg3 := by
  rw [after_ops, ops2_arg3, ops1_arg3, ops0_arg3]
theorem arg4_eq (V : Valuation τ sig (Elt F)) : after ops V (main_arg4 : DevRef τ sig) = V main_arg4 := by
  rw [after_ops, ops2_arg4, ops1_arg4, ops0_arg4]
theorem arg5_eq (V : Valuation τ sig (Elt F)) : after ops V (main_arg5 : DevRef τ sig) = V main_arg5 := by
  rw [after_ops, ops2_arg5, ops1_arg5, ops0_arg5]
theorem arg6_eq (V : Valuation τ sig (Elt F)) : after ops V (main_arg6 : DevRef τ sig) = V main_arg6 := by
  rw [after_ops, ops2_arg6, ops1_arg6, ops0_arg6]
theorem arg7_eq (V : Valuation τ sig (Elt F)) : after ops V (main_arg7 : DevRef τ sig) = V main_arg7 := by
  rw [after_ops, ops2_arg7, ops1_arg7, ops0_arg7]
theorem arg8_eq (V : Valuation τ sig (Elt F)) : after ops V (main_arg8 : DevRef τ sig) = V main_arg8 := by
  rw [after_ops, ops2_arg8, ops1_arg8, ops0_arg8]

end Cert.ReferenceIdeal.HandRun

end
-- ==== Proof.lean ====
/-
  A two-layer graph convolution with batch normalisation and a leaky rectifier between the layers: the kernel
  program (four on-chip regions — two tiled matrix products, a column-statistics accumulator, an affine-and-
  rectifier pass — among host stretches that do the gather / scale / scatter-add aggregation over the edges)
  against its plain reference, over the extended reals.

  Both programs aggregate with the same host operations on the same edge table, so the aggregation is carried as
  one function of its inputs and never opened.  The matrix products agree entry by entry (a tiled product into a
  zero accumulator and a host dot_general are both the sum over the contracted coordinate; the rounding to a
  narrower format on the way in is the identity on extended reals).  The normalisation differs in form: the
  kernel takes the variance as the mean of squares less the squared mean, clipped at 0, and folds mean, gain and
  offset into one factor and one summand; the reference centres first and takes the mean of the centred squares.
  On finite inputs the first layer's result is finite, the two variances are one nonnegative real, and the two
  forms are one real function.  That is the only place the precondition is used.
-/
import proofs.«152145_j6485400617795_1_alg».proof.Defs
import proofs.«152145_j6485400617795_1_alg».proof.Proof.Gen.Kernel
import proofs.«152145_j6485400617795_1_alg».proof.Proof.Gen.Kernel.Frame
import proofs.«152145_j6485400617795_1_alg».proof.Proof.Gen.KernelIdeal
import proofs.«152145_j6485400617795_1_alg».proof.Proof.Gen.KernelIdeal.Frame
import proofs.«152145_j6485400617795_1_alg».proof.Proof.Gen.ReferenceIdeal
import proofs.«152145_j6485400617795_1_alg».proof.Proof.Gen.Pre_finite_inputs
import proofs.«152145_j6485400617795_1_alg».proof.Proof.KerRun
import proofs.«152145_j6485400617795_1_alg».proof.Proof.KerValue
import proofs.«152145_j6485400617795_1_alg».proof.Proof.PreReal
import proofs.«152145_j6485400617795_1_alg».proof.Proof.RefOps
import proofs.«152145_j6485400617795_1_alg».proof.Proof.RefStages
import Idealize.ShloMosaic.Adequacy
import Idealize.ShloMosaic.Init

set_option maxRecDepth 16384

noncomputable section

namespace Cert.Proof

open Idealize.ShloMosaic Idealize.SL.Sem

/-- The kernel program as printed runs and leaves its arguments. -/
theorem frame_k : Cert.frame_Kernel := fun m ρ _ => Cert.Kernel.Gen.frame m ρ

/-- The idealized kernel program runs and leaves its arguments. -/
theorem frame_ki : Cert.frame_KernelIdeal := fun m ρ _ => Cert.KernelIdeal.Gen.frame m ρ

/-- The reference's run: its result at the specification's function of the arguments, the arguments as launched. -/
theorem ref_run {F : FTy → Type} [FloatOps F]
    (m : (ℓ : Loc Cert.ReferenceIdeal.nD Cert.ReferenceIdeal.τ Cert.ReferenceIdeal.sig) → Buf (Elt F) ℓ)
    (ρ : Dev Cert.ReferenceIdeal.nD → PrngReg) :
    θ_run (Cert.ReferenceIdeal.defs (F := F)) (onTc (τ := Cert.ReferenceIdeal.τ) (Cert.ReferenceIdeal.main (F := F))) ⟨m, fun _ => 0, ρ⟩
      (fun r => ∀ c : Dev Cert.ReferenceIdeal.nD,
        r.2.mem ((c.tc : Thread Cert.ReferenceIdeal.nD Cert.ReferenceIdeal.τ).loc Cert.ReferenceIdeal.main_v111)
          = Cert.ReferenceIdeal.Spec.refOut (F := F)
              (m ((c.tc : Thread Cert.ReferenceIdeal.nD Cert.ReferenceIdeal.τ).loc Cert.ReferenceIdeal.main_arg0))
              (m ((c.tc : Thread Cert.ReferenceIdeal.nD Cert.ReferenceIdeal.τ).loc Cert.ReferenceIdeal.main_arg1))
              (m ((c.tc : Thread Cert.ReferenceIdeal.nD Cert.ReferenceIdeal.τ).loc Cert.ReferenceIdeal.main_arg2))
              (m ((c.tc : Thread Cert.ReferenceIdeal.nD Cert.ReferenceIdeal.τ).loc Cert.ReferenceIdeal.main_arg3))
              (m ((c.tc : Thread Cert.ReferenceIdeal.nD Cert.ReferenceIdeal.τ).loc Cert.ReferenceIdeal.main_arg4))
              (m ((c.tc : Thread Cert.ReferenceIdeal.nD Cert.ReferenceIdeal.τ).loc Cert.ReferenceIdeal.main_arg5))
              (m ((c.tc : Thread Cert.ReferenceIdeal.nD Cert.ReferenceIdeal.τ).loc Cert.ReferenceIdeal.main_arg6))
              (m ((c.tc : Thread Cert.ReferenceIdeal.nD Cert.ReferenceIdeal.τ).loc Cert.ReferenceIdeal.main_arg7))
              (m ((c.tc : Thread Cert.ReferenceIdeal.nD Cert.ReferenceIdeal.τ).loc Cert.ReferenceIdeal.main_arg8))
        ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
        ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
        ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
        ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
        ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)) :=
  (θ_run (Cert.ReferenceIdeal.defs (F := F)) _ _).mono
    (fun r h c =>
      ⟨(h c Cert.ReferenceIdeal.main_v111).trans (Cert.ReferenceIdeal.HandRun.out_eq _),
       (h c Cert.ReferenceIdeal.main_arg0).trans (Cert.ReferenceIdeal.HandRun.arg0_eq _),
       (h c Cert.ReferenceIdeal.main_arg1).trans (Cert.ReferenceIdeal.HandRun.arg1_eq _),
       (h c Cert.ReferenceIdeal.main_arg2).trans (Cert.ReferenceIdeal.HandRun.arg2_eq _),
       (h c Cert.ReferenceIdeal.main_arg3).trans (Cert.ReferenceIdeal.HandRun.arg3_eq _),
       (h c Cert.ReferenceIdeal.main_arg4).trans (Cert.ReferenceIdeal.HandRun.arg4_eq _),
       (h c Cert.ReferenceIdeal.main_arg5).trans (Cert.ReferenceIdeal.HandRun.arg5_eq _),
       (h c Cert.ReferenceIdeal.main_arg6).trans (Cert.ReferenceIdeal.HandRun.arg6_eq _),
       (h c Cert.ReferenceIdeal.main_arg7).trans (Cert.ReferenceIdeal.HandRun.arg7_eq _),
       (h c Cert.ReferenceIdeal.main_arg8).trans (Cert.ReferenceIdeal.HandRun.arg8_eq _)⟩)
    (Cert.ReferenceIdeal.HandRun.run_main m ρ)

/-- The idealized reference runs and leaves its arguments: its run with the result dropped. -/
theorem frame_ri : Cert.frame_ReferenceIdeal := fun m ρ _ =>
  (θ_run (Cert.ReferenceIdeal.defs (F := Ideal)) _ _).mono (fun _ h c => (h c).2) (ref_run (F := Ideal) m ρ)

/-- The ideal pass rewrote nothing: the idealized program is the printed one read at the ideal values. -/
theorem preserves : Cert.preserves_Kernel_KernelIdeal := trivial

/-- On finite inputs both idealized programs end with the same result: the specification's function of the
    arguments — the kernel program by its regions' values and the normalisation law, the reference by its run. -/
theorem algebraic : Cert.algebraic_KernelIdeal_ReferenceIdeal := by
  intro m ρ m' ρ' hpre hagree
  refine ⟨fun c => Cert.ReferenceIdeal.Spec.refOut (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8)), ?_, ?_⟩
  · refine (θ_run (Cert.KernelIdeal.defs (F := Ideal)) _ _).mono (fun r h c => ⟨(h c).1.trans ?_, (h c).2⟩)
      (Cert.KernelIdeal.HandRun.run_main (F := Ideal) m ρ)
    obtain ⟨hx, hW1, hb1, -, -, hγ, hβ, -⟩ := Cert.PreReal.inputs_real m hpre c
    exact Cert.KernelIdeal.Value.final m ρ c hx hW1 hb1 hγ hβ
  · refine (θ_run (Cert.ReferenceIdeal.defs (F := Ideal)) _ _).mono (fun r h c => ⟨(h c).1.trans ?_, (h c).2⟩)
      (ref_run (F := Ideal) m' ρ')
    rw [(hagree c).1, (hagree c).2.1, (hagree c).2.2.1, (hagree c).2.2.2.1, (hagree c).2.2.2.2.1, (hagree c).2.2.2.2.2.1,
      (hagree c).2.2.2.2.2.2.1, (hagree c).2.2.2.2.2.2.2.1, (hagree c).2.2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
